-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S4096x32768 : Shape := ⟨2, ![4096, 32768]⟩
abbrev S32768x256 : Shape := ⟨2, ![32768, 256]⟩
abbrev S256x256 : Shape := ⟨2, ![256, 256]⟩
abbrev S256 : Shape := ⟨1, ![256]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32768 : S_.BroadcastsInDim S4096x32768 (![] : Fin 0 → Fin S4096x32768.rank)
  reducesTo_S4096x32768_S_d0_1 : S4096x32768.ReducesTo [0, 1] S_
  bcast_S_S32768x256 : S_.BroadcastsInDim S32768x256 (![] : Fin 0 → Fin S32768x256.rank)
  reducesTo_S32768x256_S_d0_1 : S32768x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S32768x256 1) : IVec S_ 1 :=
  let main_c_5 : IVec S_ 1 := constantI S_ 1 1#1
  let main_v17 : IVec S_ 1 := (fun x v => Host.reduce IntOp.andi x v reducesTo_S32768x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S256x4096 .f32) (main_arg1 : FVec F S4096x4096 .f32) (main_arg2 : FVec F S4096x32768 .f32) (main_arg3 : FVec F S32768x256 .f32) (main_arg4 : FVec F S256x256 .f32) (main_arg5 : FVec F S256 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32768 .f32 := Host.absf main_arg2
  let main_cst_2 : FVec F S_ .f32 := constant S_ .f32 0x7F800000#32
  let main_v10 : FVec F S4096x32768 .f32 := broadcastInDim S4096x32768 ![] bcast_S_S4096x32768 main_cst_2
  let main_v11 : IVec S4096x32768 1 := cmpf .olt main_v9 main_v10
  let main_c_3 : IVec S_ 1 := constantI S_ 1 1#1
  let main_v12 : IVec S_ 1 := (fun x v => Host.reduce IntOp.andi x v reducesTo_S4096x32768_S_d0_1 h_S_) main_v11 main_c_3
  let main_v13 : IVec S_ 1 := andi main_v8 main_v12
  let main_v14 : FVec F S32768x256 .f32 := Host.absf main_arg3
  let main_cst_4 : FVec F S_ .f32 := constant S_ .f32 0x7F800000#32
  let main_v15 : FVec F S32768x256 .f32 := broadcastInDim S32768x256 ![] bcast_S_S32768x256 main_cst_4
  let main_v16 : IVec S32768x256 1 := cmpf .olt main_v14 main_v15
  fn_part1 (F := F) main_arg4 main_arg5 main_v13 main_v16
-- ==== Kernel.lean ====
abbrev S256x4096 : Shape := ⟨2, ![256, 4096]⟩
abbrev S4096x4096 : Shape := ⟨2, ![4096, 4096]⟩
abbrev S4096x32768 : Shape := ⟨2, ![4096, 32768]⟩
abbrev S32768x256 : Shape := ⟨2, ![32768, 256]⟩
abbrev S256x256 : Shape := ⟨2, ![256, 256]⟩
abbrev S256 : Shape := ⟨1, ![256]⟩
abbrev S256x1024 : Shape := ⟨2, ![256, 1024]⟩
abbrev S1024x1024 : Shape := ⟨2, ![1024, 1024]⟩
abbrev S1x256 : Shape := ⟨2, ![1, 256]⟩
abbrev S2x256x256 : Shape := ⟨3, ![2, 256, 256]⟩
abbrev S2x256x1 : Shape := ⟨3, ![2, 256, 1]⟩
abbrev S4096x512 : Shape := ⟨2, ![4096, 512]⟩
abbrev S512x256 : Shape := ⟨2, ![512, 256]⟩
abbrev S1x256x256 : Shape := ⟨3, ![1, 256, 256]⟩
abbrev S1x256x1 : Shape := ⟨3, ![1, 256, 1]⟩
abbrev S256x1 : Shape := ⟨2, ![256, 1]⟩
abbrev S256x512 : Shape := ⟨2, ![256, 512]⟩
abbrev S_ : Shape := ⟨0, ![]⟩

abbrev nBuf : Space → Nat
  | .hbm => 25
  | .vmem => 20
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096x32768, .f32⟩
  | .hbm, ⟨3, _⟩ => ⟨S32768x256, .f32⟩
  | .hbm, ⟨4, _⟩ => ⟨S256x256, .f32⟩
  | .hbm, ⟨5, _⟩ => ⟨S256, .f32⟩
  | .hbm, ⟨6, _⟩ => ⟨S256x4096, .bf16⟩
  | .hbm, ⟨7, _⟩ => ⟨S1x256, .f32⟩
  | .hbm, ⟨8, _⟩ => ⟨S2x256x256, .f32⟩
  | .hbm, ⟨9, _⟩ => ⟨S2x256x1, .f32⟩
  | .hbm, ⟨10, _⟩ => ⟨S_, .f32⟩
  | .hbm, ⟨11, _⟩ => ⟨S256x256, .f32⟩
  | .hbm, ⟨12, _⟩ => ⟨S_, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .i1⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x256, .f32⟩
  | .hbm, ⟨24, _⟩ => ⟨S256x256, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x4096, .bf16⟩
  | .local _ .vmem, ⟨8, _⟩ => ⟨S4096x512, .f32⟩
  | .local _ .vmem, ⟨9, _⟩ => ⟨S4096x512, .f32⟩
  | .local _ .vmem, ⟨10, _⟩ => ⟨S512x256, .f32⟩
  | .local _ .vmem, ⟨11, _⟩ => ⟨S512x256, .f32⟩
  | .local _ .vmem, ⟨12, _⟩ => ⟨S256x256, .f32⟩
  | .local _ .vmem, ⟨13, _⟩ => ⟨S1x256, .f32⟩
  | .local _ .vmem, ⟨14, _⟩ => ⟨S1x256x256, .f32⟩
  | .local _ .vmem, ⟨15, _⟩ => ⟨S1x256x256, .f32⟩
  | .local _ .vmem, ⟨16, _⟩ => ⟨S1x256x1, .f32⟩
  | .local _ .vmem, ⟨17, _⟩ => ⟨S1x256x1, .f32⟩
  | .local _ .vmem, ⟨18, _⟩ => ⟨S256x256, .f32⟩
  | .local _ .vmem, ⟨19, _⟩ => ⟨S256x1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v38 : BitVec 1 := Scalar.cmpi .eq arg1 c31_i32
  let v39 : BitVec 32 := Scalar.extui v38
  let c0_i32_22 : BitVec 32 := 0#32
  let v40 : BitVec 1 := Scalar.cmpi .ne v39 c0_i32_22
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S256x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S256x1024_S256x1024_0_0 : (Rect.unit (s := S256x1024) ![0, 0] S256x1024.size inb_S256x1024_S256x1024_0_0).PackedRows (EltTy.packing .bf16)
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  natLt_1_32 : 1 < 32
  reduces_S256x512_S256 : S256x512.Reduces [1] S256
  shapeCasts_S256_S256x1 : S256.ShapeCasts S256x1
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reducesTo_S2x256x256_S256x256_d0 : S2x256x256.ReducesTo [0] S256x256
  h_S_ : 0 < S_.numel
  reducesTo_S2x256x1_S256x1_d0 : S2x256x1.ReducesTo [0] S256x1
  bcast_S_S256x1 : S_.BroadcastsInDim S256x1 (![] : Fin 0 → Fin S256x1.rank)
  bcast_S256x1_S256x256_0_1 : S256x1.BroadcastsInDim S256x256 (![0, 1] : Fin 2 → Fin S256x256.rank)
  dot_S256x1024_S1024x1024_S256x1024_1_0_0_1_n_n_wf : DotDims.WF S256x1024 S1024x1024 S256x1024 [1] [0] [0] [1] [] []
  dot_S256x4096_S4096x512_S256x512_1_0_0_1_n_n_wf : DotDims.WF S256x4096 S4096x512 S256x512 [1] [0] [0] [1] [] []
  dot_S512x256_S256x256_S512x256_1_0_0_1_n_n_wf : DotDims.WF S512x256 S256x256 S512x256 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x4096.size a
  hwx0_0 : ∀ i : grid0.Coords, EltTy.bits .f32 = 32 ∨ (Rect.block (s := S256x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x4096.size a
  hwx0_2 : ∀ i : grid0.Coords, EltTy.bits .bf16 = 32 ∨ (Rect.block (s := S256x4096) S256x1024.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S256x4096.size a
  hwx1_0 : ∀ i : grid1.Coords, EltTy.bits .bf16 = 32 ∨ (Rect.block (s := S256x4096) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x32768.size a
  hwx1_1 : ∀ i : grid1.Coords, EltTy.bits .f32 = 32 ∨ (Rect.block (s := S4096x32768) S4096x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S32768x256.size a
  hwx1_2 : ∀ i : grid1.Coords, EltTy.bits .f32 = 32 ∨ (Rect.block (s := S32768x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x256.size a ≤ S2x256x256.size a
  hwx1_5 : ∀ i : grid1.Coords, EltTy.bits .f32 = 32 ∨ (Rect.block (s := S2x256x256) S1x256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1.size a ≤ S2x256x1.size a
  hwx1_6 : ∀ i : grid1.Coords, EltTy.bits .f32 = 32 ∨ (Rect.block (s := S2x256x1) S1x256x1.size (cc1_transform_6 i) (hinb1_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S256x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2_0) S1x256x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2_1) S1x256x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S256x4096 : Shape := ⟨2, ![256, 4096]⟩
abbrev S4096x4096 : Shape := ⟨2, ![4096, 4096]⟩
abbrev S4096x32768 : Shape := ⟨2, ![4096, 32768]⟩
abbrev S32768x256 : Shape := ⟨2, ![32768, 256]⟩
abbrev S256x256 : Shape := ⟨2, ![256, 256]⟩
abbrev S256 : Shape := ⟨1, ![256]⟩
abbrev S4096x256 : Shape := ⟨2, ![4096, 256]⟩
abbrev S32768x4096 : Shape := ⟨2, ![32768, 4096]⟩
abbrev S256x32768 : Shape := ⟨2, ![256, 32768]⟩
abbrev S_ : Shape := ⟨0, ![]⟩
abbrev S256x1 : Shape := ⟨2, ![256, 1]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096x32768, .f32⟩
  | .hbm, ⟨3, _⟩ => ⟨S32768x256, .f32⟩
  | .hbm, ⟨4, _⟩ => ⟨S256x256, .f32⟩
  | .hbm, ⟨5, _⟩ => ⟨S256, .f32⟩
  | .hbm, ⟨6, _⟩ => ⟨S4096x4096, .f32⟩
  | .hbm, ⟨7, _⟩ => ⟨S4096x256, .f32⟩
  | .hbm, ⟨8, _⟩ => ⟨S4096x256, .f32⟩
  | .hbm, ⟨9, _⟩ => ⟨S32768x4096, .f32⟩
  | .hbm, ⟨10, _⟩ => ⟨S32768x256, .f32⟩
  | .hbm, ⟨11, _⟩ => ⟨S256x32768, .f32⟩
  | .hbm, ⟨12, _⟩ => ⟨S_, .f32⟩
  | .hbm, ⟨13, _⟩ => ⟨S256x32768, .f32⟩
  | .hbm, ⟨14, _⟩ => ⟨S256x32768, .i1⟩
  | .hbm, ⟨15, _⟩ => ⟨S256x32768, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .i1⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256x1, .f32⟩
  | .hbm, ⟨29, _⟩ => ⟨S256x32768, .f32⟩
  | .hbm, ⟨30, _⟩ => ⟨S256x32768, .f32⟩
  | .hbm, ⟨31, _⟩ => ⟨S32768x256, .f32⟩
  | .hbm, ⟨32, _⟩ => ⟨S1x256, .f32⟩
  | .hbm, ⟨33, _⟩ => ⟨S32768x256, .f32⟩
  | .hbm, ⟨34, _⟩ => ⟨S32768x256, .f32⟩
  | .hbm, ⟨35, _⟩ => ⟨S256x256, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  transposes_S4096x4096_S4096x4096_1_0 : S4096x4096.Transposes [1, 0] S4096x4096
  transposes_S256x4096_S4096x256_1_0 : S256x4096.Transposes [1, 0] S4096x256
  transposes_S4096x32768_S32768x4096_1_0 : S4096x32768.Transposes [1, 0] S32768x4096
  transposes_S32768x256_S256x32768_1_0 : S32768x256.Transposes [1, 0] S256x32768
  bcast_S_S256x32768 : S_.BroadcastsInDim S256x32768 (![] : Fin 0 → Fin S256x32768.rank)
  reducesTo_S256x32768_S256_d1 : S256x32768.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x32768_0_1 : S256x1.BroadcastsInDim S256x32768 (![0, 1] : Fin 2 → Fin S256x32768.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S4096x4096_S4096x256_S4096x256_1_0_0_1_n_n_wf : DotDims.WF S4096x4096 S4096x256 S4096x256 [1] [0] [0] [1] [] []
  dot_S32768x4096_S4096x256_S32768x256_1_0_0_1_n_n_wf : DotDims.WF S32768x4096 S4096x256 S32768x256 [1] [0] [0] [1] [] []
  dot_S32768x256_S256x256_S32768x256_1_0_0_1_n_n_wf : DotDims.WF S32768x256 S256x256 S32768x256 [1] [0] [0] [1] [] []
  dot_S256x32768_S32768x256_S256x256_1_0_0_1_n_n_wf : DotDims.WF S256x32768 S32768x256 S256x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S32768x4096_S4096x256_S32768x256_1_0_0_1_n_n : DotDims S32768x4096 S4096x256 S32768x256 where
  lhsContracting := [1]
  rhsContracting := [0]
  lhsNonContracting := [0]
  rhsNonContracting := [1]
  lhsBatch := []
  rhsBatch := []
  wf := dot_S32768x4096_S4096x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S256x32768_S32768x256_S256x256_1_0_0_1_n_n : DotDims S256x32768 S32768x256 S256x256 where
  lhsContracting := [1]
  rhsContracting := [0]
  lhsNonContracting := [0]
  rhsNonContracting := [1]
  lhsBatch := []
  rhsBatch := []
  wf := dot_S256x32768_S32768x256_S256x256_1_0_0_1_n_n_wf

class Facts : Prop extends Facts₀ where

variable [Facts]
-- ==== Proof.KHalf0.lean ====
/-
  Region 0 (the tiled product g = edge_nodes · adj_matrix), what its proof data are made of.
  The grid is 4 × 4: point t has column tile t / 4 and reduction step t % 4. At every point the body adds
  the product of the point's two input blocks to a scratch accumulator, which it first resets at
  reduction step 0; at reduction step 3 it writes the accumulator, rounded, to the output block.
  So the scratch after point t is a recursion on t through the body's store payloads, and the
  output block written back at a point with t % 4 = 3 is the rounding payload of that scratch.
-/
import proofs.«164392_j1580547965681_2_alg».proof.Proof.Gen.Kernel.Launch
import proofs.«164392_j1580547965681_2_alg».proof.Proof.Gen.Kernel.Skeleton
import proofs.«164392_j1580547965681_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator's memref. -/
abbrev scM0 : Memref sig .tc .vmem S256x1024 .f32 := Memref.whole cc0_scratch0

/-- One point's update of the accumulator: the previous contents plus the product of the point's blocks. -/
def step0 (c : Dev nD) (t : Fin cfg0.N) (prev : Vec F S256x1024 .f32) : Vec F S256x1024 .f32 :=
  k0_pay2 (iblk0 V c 0 t) (iblk0 V c 1 t) prev

/-- The accumulator after point `n`: reset to the zero payload at reduction step 0, carried otherwise. -/
def acc0 (c : Dev nD) : (n : ℕ) → n < cfg0.N → Vec F S256x1024 .f32
  | 0, h => step0 V c ⟨0, h⟩ (k0_pay1 (F := F))
  | n + 1, h =>
    if (n + 1) % 4 = 0 then step0 V c ⟨n + 1, h⟩ (k0_pay1 (F := F))
    else step0 V c ⟨n + 1, h⟩ (acc0 c n (Nat.lt_of_succ_lt h))

/-- What the output block holds after the body at a point that stores it: the accumulator rounded. -/
def out0 (c : Dev nD) (t : Fin cfg0.N) : Vec F S256x1024 .bf16 :=
  k0_pay3 (acc0 V c t.val t.isLt)

theorem acc0_reset (c : Dev nD) (t : Fin cfg0.N) (h : t.val % 4 = 0) :
    acc0 V c t.val t.isLt = step0 V c t (k0_pay1 (F := F)) := by
  obtain ⟨n, hn⟩ := t
  cases n with
  | zero => rfl
  | succ n => exact (if_pos h)

theorem acc0_carry (c : Dev nD) (t : Fin cfg0.N) (h : ¬ t.val % 4 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => exact (if_neg h)

end Cert.Kernel.Hand

end
-- ==== Proof.KBody0.lean ====
/-
  Region 0 (the tiled product g = edge_nodes · adj_matrix): the body's obligation at every grid point.

  The grid is 4 × 4; point t has reduction step t % 4. The body, on whole memrefs, is run in its three
  cases: at step 0 it resets the accumulator and adds the product of the point's two input blocks; at
  steps 1 and 2 it adds the product to what the accumulator held; at step 3 it adds the product and
  stores the accumulator, rounded, into the output block. Each load and store goes through the whole
  rectangle of its memref, so a load reads the contents and a store leaves its payload.

  Between points the accumulator is carried: the invariant before point n + 1 holds it at `acc0 … n`,
  every other scoped buffer of the core that is no staging buffer of this region at anything, and the
  generator register at some state; before point 0 it is what the region is entered with. The output
  window is idle away from step 3 (its buffer handed back as found, not written back) and ends at
  `out0` at step 3, where it is written back.
-/
import proofs.«164392_j1580547965681_2_alg».proof.Proof.KHalf0
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions, in closed form over the grid -/

/-- The reset branch's condition, from the grid coordinates (the body's scalar chain substituted). -/
abbrev cond0_0 (i : grid0.Coords) : Prop := (Scalar.cmpi .ne (Scalar.extui (Scalar.cmpi .eq (BitVec.ofNat 32 (i 1).val) 0#32)) 0#32) = 1#1
/-- It holds exactly at reduction step 0. -/
theorem hcond0_0 : ∀ t : Fin cfg0.N, cond0_0 (grid0.coords t) ↔ t.val % 4 = 0 :=
  (by decide +kernel : ∀ t : Fin grid0.N, cond0_0 (grid0.coords t) ↔ t.val % 4 = 0)
/-- The output branch's condition. -/
abbrev cond0_1 (i : grid0.Coords) : Prop := k0_cond2 i = 1#1
/-- It holds exactly at reduction step 3. -/
theorem hcond0_1 : ∀ t : Fin cfg0.N, cond0_1 (grid0.coords t) ↔ t.val % 4 = 3 :=
  (by decide +kernel : ∀ t : Fin grid0.N, cond0_1 (grid0.coords t) ↔ t.val % 4 = 3)

/-- The zero offsets of a rank-2 rectangle, as the body spells them. -/
theorem zoff0 : (![0, 0] : Fin 2 → ℕ) = fun _ => 0 := by funext a; fin_cases a <;> rfl

/-- A load through the whole-shape rectangle at zero offsets reads the view's contents. -/
theorem readAt_whole0 {κ : Kind} {sp : Space} {S : Shape} {e : EltTy} (v : View sig κ sp S e) {off : Fin S.rank → ℕ}
    (h : off = fun _ => 0) (inb : ∀ a, off a + S.size a ≤ S.size a) (f : v.ty.Contents (Elt F)) :
    v.readAt (Elt F) (Rect.unit off S.size inb).toLoadRect f = v.read (Elt F) f :=
  View.ld_unit_zero h inb (v.read (Elt F) f)

/-! ## The body's triple, case by case, on any whole memrefs -/

set_option maxHeartbeats 1000000 in
/-- Reduction step 0, no output: the accumulator, whatever it held, ends at the zero payload plus the product. The
    output window's memref is not touched. -/
theorem run0_A (c : Dev nD) (E : Set ℕ) (i : grid0.Coords)
    (arg2 : Memref sig .tc .vmem S256x1024 .f32) (harg2 : arg2.IsWhole) (arg3 : Memref sig .tc .vmem S1024x1024 .f32) (harg3 : arg3.IsWhole)
    (arg4 : Memref sig .tc .vmem S256x1024 .bf16) (harg4 : arg4.IsWhole) (arg5 : Memref sig .tc .vmem S256x1024 .f32) (harg5 : arg5.IsWhole)
    (hc0 : cond0_0 i) (hc1 : ¬cond0_1 i)
    (x0 : Vec F S256x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k0_pay2 x0 x1 (k0_pay1 (F := F)))) -∗ K ⟨⟩))
      ⊢ wp frame (wpE (defs₀ (F := F)) Variants.none c none) E (cc0__g_kernel i arg2 harg2 arg3 harg3 arg4 harg4 arg5 harg5) K := by
  simp only [cc0__g_kernel_eq_skeleton]; unfold cc0__g_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (View.cover_of_tiled _ S256x1024.size (by rfl)), View.canon_cons_unit_zero zoff0,
    View.readCov_cons_toLoadRect, readAt_whole0 _ zoff0, readAt_whole0 _ zoff0]

set_option maxHeartbeats 1000000 in
/-- Reduction steps 1 and 2: the accumulator at `xs` ends at `xs` plus the product. The output window's memref is not
    touched. -/
theorem run0_B (c : Dev nD) (E : Set ℕ) (i : grid0.Coords)
    (arg2 : Memref sig .tc .vmem S256x1024 .f32) (harg2 : arg2.IsWhole) (arg3 : Memref sig .tc .vmem S1024x1024 .f32) (harg3 : arg3.IsWhole)
    (arg4 : Memref sig .tc .vmem S256x1024 .bf16) (harg4 : arg4.IsWhole) (arg5 : Memref sig .tc .vmem S256x1024 .f32) (harg5 : arg5.IsWhole)
    (hc0 : ¬cond0_0 i) (hc1 : ¬cond0_1 i)
    (x0 : Vec F S256x1024 .f32) (x1 : Vec F S1024x1024 .f32) (xs : Vec F S256x1024 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k0_pay2 x0 x1 xs)) -∗ K ⟨⟩))
      ⊢ wp frame (wpE (defs₀ (F := F)) Variants.none c none) E (cc0__g_kernel i arg2 harg2 arg3 harg3 arg4 harg4 arg5 harg5) K := by
  simp only [cc0__g_kernel_eq_skeleton]; unfold cc0__g_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (View.cover_of_tiled _ S256x1024.size (by rfl)), View.canon_cons_unit_zero zoff0,
    readAt_whole0 _ zoff0, readAt_whole0 _ zoff0, readAt_whole0 _ zoff0]

set_option maxHeartbeats 1000000 in
/-- Reduction step 3: the accumulator at `xs` ends at `xs` plus the product, and the output window's memref, whatever it
    held, at that sum rounded. -/
theorem run0_C (c : Dev nD) (E : Set ℕ) (i : grid0.Coords)
    (arg2 : Memref sig .tc .vmem S256x1024 .f32) (harg2 : arg2.IsWhole) (arg3 : Memref sig .tc .vmem S1024x1024 .f32) (harg3 : arg3.IsWhole)
    (arg4 : Memref sig .tc .vmem S256x1024 .bf16) (harg4 : arg4.IsWhole) (arg5 : Memref sig .tc .vmem S256x1024 .f32) (harg5 : arg5.IsWhole)
    (hc0 : ¬cond0_0 i) (hc1 : cond0_1 i)
    (x0 : Vec F S256x1024 .f32) (x1 : Vec F S1024x1024 .f32) (xs : Vec F S256x1024 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay3 (k0_pay2 x0 x1 xs)) ∗ owns (c : Thread nD τ) arg5 fullShare (k0_pay2 x0 x1 xs)) -∗ K ⟨⟩))
      ⊢ wp frame (wpE (defs₀ (F := F)) Variants.none c none) E (cc0__g_kernel i arg2 harg2 arg3 harg3 arg4 harg4 arg5 harg5) K := by
  simp only [cc0__g_kernel_eq_skeleton]; unfold cc0__g_kernel_skel
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (View.cover_of_tiled _ S256x1024.size (by rfl)), View.canon_cons_unit_zero zoff0,
      View.readCov_cons_toLoadRect, readAt_whole0 _ zoff0, readAt_whole0 _ zoff0, readAt_whole0 _ zoff0]
  iexists _; isplitr
  swap; · iexact HS
  ipureintro
  sl_unfold_run_names
  rw [View.read_writes_eq_canon _ _ _ (View.cover_of_tiled _ S256x1024.size (by rfl)), View.canon_cons_unit_zero zoff0,
    readAt_whole0 _ zoff0, readAt_whole0 _ zoff0, readAt_whole0 _ zoff0]

/-! ## Where the windows are idle, and where the output is written back -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from reduction step 3 the body stores nothing into the output window, and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At reduction step 3 it does. -/
theorem liveAt0_2 : ∀ t : Fin cfg0.N, cond0_1 (grid0.coords t) → cfg0.idle 2 (grid0.coords t) = false := by decide +kernel

/-! ## What the body finds in the input windows -/

/-- Input window 0 is fetched at every point, so its current staging buffer holds its block there. -/
theorem before0_0_of {c : Dev nD} (dat : Dat τ (Elt F) Unit ℕ (UR sig nD τ) ℕ cfg0 c) (hA : dat.A 0 = V c (Pipeline.arrRef spec0 0))
    (t : Fin cfg0.N) (d) : dat.before 0 t d = iblk0 V c 0 t :=
  (dat.before_fetched 0 t (fetch0_0 t) d).trans (by unfold Dat.fetched Dat.blockOf iblk0; rw [hA]; try rfl)

/-- Input window 1 likewise. -/
theorem before0_1_of {c : Dev nD} (dat : Dat τ (Elt F) Unit ℕ (UR sig nD τ) ℕ cfg0 c) (hA : dat.A 1 = V c (Pipeline.arrRef spec0 1))
    (t : Fin cfg0.N) (d) : dat.before 1 t d = iblk0 V c 1 t :=
  (dat.before_fetched 1 t (fetch0_1 t) d).trans (by unfold Dat.fetched Dat.blockOf iblk0; rw [hA]; try rfl)

/-! ## The invariant carried between grid points -/

/-- The core's scoped buffers, other than the accumulator, that are no staging buffer of this region: each whole, at
    any contents. The body touches none of them. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- What the region is entered with, the accumulator set apart as a memref owned at some contents. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA others0; rw [scopedRest0_eq]; simp only [scM0, owns_whole]; try rfl

/-- The invariant before position `n`: before the first point what the region is entered with; afterwards the same with
    the accumulator at the accumulation up to the point before (`acc0`), the other scoped buffers at anything, the
    generator register at some state. -/
def Phi0 (c : Dev nD) : (n : ℕ) → n ≤ cfg0.N → sProp 𝕄
  | 0, _ => Pipeline.ΦA spec0 c
  | n + 1, hn => iprop((owns (c : Thread nD τ) scM0 fullShare (acc0 V c n hn) ∗ others0 (F := F) c) ∗ (∃ r, prngReg c r))

theorem Phi0_zero (c : Dev nD) (n : ℕ) (h : n ≤ cfg0.N) (hz : n = 0) : Phi0 V c n h = Pipeline.ΦA spec0 c := by
  subst hz; rfl

/-- After point `n`: the accumulator at that point's accumulation. -/
theorem Phi0_succ (c : Dev nD) (n : ℕ) (hn : n < cfg0.N) :
    Phi0 V c (n + 1) hn = iprop((owns (c : Thread nD τ) scM0 fullShare (acc0 V c n hn) ∗ others0 (F := F) c) ∗ (∃ r, prngReg c r)) := rfl

/-- Before a point that is not the first: the accumulator at what the point before left. -/
theorem Phi0_pos (c : Dev nD) (n : ℕ) (h : n ≤ cfg0.N) (hz : n ≠ 0) :
    Phi0 V c n h = iprop((owns (c : Thread nD τ) scM0 fullShare (acc0 V c (n - 1) (by omega)) ∗ others0 (F := F) c) ∗ (∃ r, prngReg c r)) := by
  cases n with
  | zero => exact absurd rfl hz
  | succ n => rfl

/-! ## The proof data -/

/-- The region's proof data on core `c`: the arrays as the region finds them; after the body at point `t` each input's
    buffer at its block and the output's at the rounded accumulator; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) t d
theorem before0_1 (c : Dev nD) (t : Fin cfg0.N) (d) : (dat0 V c).before 1 t d = iblk0 V c 1 t :=
  before0_1_of V (dat0 V c) (A_eq0 V c 1) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' memrefs hold their blocks; the point's reduction step says which case it is in.
    At step 0 the accumulator's contents are irrelevant (`acc0_reset`), otherwise it holds what the point before left
    (`acc0_carry`); away from step 3 the output's buffer is handed back as found, at step 3 it ends at the rounded
    accumulator. The other scoped buffers, the generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 16 := lt_of_lt_of_eq t.isLt (show cfg0.N = 16 from N_0)
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [acc0_reset V c t h0]; unfold step0
    by_cases hz : t.val = 0
    · rw [Phi0_castSucc V c t, Phi0_zero V c _ _ hz, PhiA0_eq]
      iintro ⟨⟨⟨HS, Hr⟩, Hg⟩, Ho, ⟨%d0, H0⟩, ⟨%d1, H1⟩, H2⟩
      iapply (run0_A c Set.univ (grid0.coords t) _ _ _ _ _ _ _ _ hc0 hc1 (iblk0 V c 0 t) (iblk0 V c 1 t) _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [Phi0_castSucc V c t, Phi0_pos V c _ _ hz]
      iintro ⟨⟨⟨HS, Hr⟩, Hg⟩, Ho, ⟨%d0, H0⟩, ⟨%d1, H1⟩, H2⟩
      iapply (run0_A c Set.univ (grid0.coords t) _ _ _ _ _ _ _ _ hc0 hc1 (iblk0 V c 0 t) (iblk0 V c 1 t) _)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
  · have hc0 : ¬cond0_0 (grid0.coords t) := fun h => h0 ((hcond0_0 t).mp h)
    have hz : t.val ≠ 0 := fun h => h0 (by rw [h])
    by_cases h1 : t.val % 4 = 3
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      unfold out0
      rw [acc0_carry V c t h0]; unfold step0
      rw [Phi0_castSucc V c t, Phi0_pos V c _ _ hz]
      iintro ⟨⟨⟨HS, Hr⟩, Hg⟩, Ho, ⟨%d0, H0⟩, ⟨%d1, H1⟩, ⟨%d2, H2⟩⟩
      iapply (run0_C c Set.univ (grid0.coords t) _ _ _ _ _ _ _ _ hc0 hc1 (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      rw [acc0_carry V c t h0]; unfold step0
      rw [Phi0_castSucc V c t, Phi0_pos V c _ _ hz]
      iintro ⟨⟨⟨HS, Hr⟩, Hg⟩, Ho, ⟨%d0, H0⟩, ⟨%d1, H1⟩, H2⟩
      iapply (run0_B c Set.univ (grid0.coords t) _ _ _ _ _ _ _ _ hc0 hc1 (iblk0 V c 0 t) (iblk0 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- What the region is entered with is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point the invariant gives back what the region was entered with: the accumulator's contents are forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi0_out V c _ (by rw [Fin.val_last]; have : cfg0.N = 16 := N_0; omega)

end Cert.Kernel.Hand

end
-- ==== Proof.KHalf1.lean ====
/-
  Region 1 (the streamed aggregation over edge tiles), what its proof data are made of.
  The grid is 2 × 32: point t has half t / 32 of the edge axis and step t % 32 within it. At every
  point the body forms the tile's selection mask from g and the incidence block, adds the mask's row
  sums to one scratch accumulator and the product of the mask with the tile's transformed edge
  features to another, both reset at step 0; at step 31 it copies both accumulators to the two
  output blocks of its half. So each scratch after point t is a recursion on t through the body's
  store payloads, and each output block written back at a point with t % 32 = 31 is the copy
  payload of its scratch.
-/
import proofs.«164392_j1580547965681_2_alg».proof.Proof.Gen.Kernel.Launch
import proofs.«164392_j1580547965681_2_alg».proof.Proof.Gen.Kernel.Skeleton
import proofs.«164392_j1580547965681_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch accumulators' memrefs: the weighted feature sums and the mask's row sums. -/
abbrev scM1_0 : Memref sig .tc .vmem S256x256 .f32 := Memref.whole cc1_scratch0
abbrev scM1_1 : Memref sig .tc .vmem S256x1 .f32 := Memref.whole cc1_scratch1

/-- One point's update of the row-sum accumulator. -/
def stepS (c : Dev nD) (t : Fin cfg1.N) (prev : Vec F S256x1 .f32) : Vec F S256x1 .f32 :=
  k1_pay8 (iblk1 V c 0 t) (iblk1 V c 1 t) prev

/-- One point's update of the feature accumulator. -/
def stepO (c : Dev nD) (t : Fin cfg1.N) (prev : Vec F S256x256 .f32) : Vec F S256x256 .f32 :=
  k1_pay1 (k1_pay7 (iblk1 V c 0 t) (iblk1 V c 1 t)) (k1_pay9 (iblk1 V c 2 t) (iblk1 V c 3 t) (iblk1 V c 4 t)) prev
    (constant S256x256 .f32 0x00000000#32)

/-- The row-sum accumulator after point `n`: reset to the zero payload at step 0, carried otherwise. -/
def accS (c : Dev nD) : (n : ℕ) → n < cfg1.N → Vec F S256x1 .f32
  | 0, h => stepS V c ⟨0, h⟩ (k1_pay5 (F := F))
  | n + 1, h =>
    if (n + 1) % 32 = 0 then stepS V c ⟨n + 1, h⟩ (k1_pay5 (F := F))
    else stepS V c ⟨n + 1, h⟩ (accS c n (Nat.lt_of_succ_lt h))

/-- The feature accumulator after point `n`. -/
def accO (c : Dev nD) : (n : ℕ) → n < cfg1.N → Vec F S256x256 .f32
  | 0, h => stepO V c ⟨0, h⟩ (k1_pay4 (F := F))
  | n + 1, h =>
    if (n + 1) % 32 = 0 then stepO V c ⟨n + 1, h⟩ (k1_pay4 (F := F))
    else stepO V c ⟨n + 1, h⟩ (accO c n (Nat.lt_of_succ_lt h))

/-- What the two output blocks hold after the body at a point that stores them. -/
def outO (c : Dev nD) (t : Fin cfg1.N) : Vec F S1x256x256 .f32 := k1_pay2 (accO V c t.val t.isLt)
def outS (c : Dev nD) (t : Fin cfg1.N) : Vec F S1x256x1 .f32 := k1_pay3 (accS V c t.val t.isLt)

theorem accS_reset (c : Dev nD) (t : Fin cfg1.N) (h : t.val % 32 = 0) :
    accS V c t.val t.isLt = stepS V c t (k1_pay5 (F := F)) := by
  obtain ⟨n, hn⟩ := t
  cases n with
  | zero => rfl
  | succ n => exact (if_pos h)

theorem accS_carry (c : Dev nD) (t : Fin cfg1.N) (h : ¬ t.val % 32 = 0) :
    accS V c t.val t.isLt = stepS V c t (accS V c (t.val - 1) (Nat.lt_of_le_of_lt (Nat.sub_le _ _) t.isLt)) := by
  obtain ⟨n, hn⟩ := t
  cases n with
  | zero => exact absurd (Nat.zero_mod _) h
  | succ n => exact (if_neg h)

theorem accO_reset (c : Dev nD) (t : Fin cfg1.N) (h : t.val % 32 = 0) :
    accO V c t.val t.isLt = stepO V c t (k1_pay4 (F := F)) := by
  obtain ⟨n, hn⟩ := t
  cases n with
  | zero => rfl
  | succ n => exact (if_pos h)

theorem accO_carry (c : Dev nD) (t : Fin cfg1.N) (h : ¬ t.val % 32 = 0) :
    accO V c t.val t.isLt = stepO V c t (accO V c (t.val - 1) (Nat.lt_of_le_of_lt (Nat.sub_le _ _) t.isLt)) := by
  obtain ⟨n, hn⟩ := t
  cases n with
  | zero => exact absurd (Nat.zero_mod _) h
  | succ n => exact (if_neg h)

end Cert.Kernel.Hand

end
-- ==== Proof.KBody1.lean ====
/-
  Region 1 (the streamed aggregation over edge tiles): its body obligation.
  At a point with step s = t % 32 the body resets the two accumulators when s = 0, adds the tile's masked row
  sums to the one and the product of the mask with the tile's transformed edge features to the other, and when
  s = 31 copies both to the two output blocks of its half. Three runs of the body cover the grid (first step,
  middle steps, last step). The invariant carried from point to point holds the two accumulators at their named
  contents after the point before; the output windows are idle, and handed back untouched, wherever the body does
  not store them.
-/
import proofs.«164392_j1580547965681_2_alg».proof.Proof.KHalf1
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle at zero offsets reads what the view reads. -/
theorem readAt_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

/-- After a last store through the whole-shape rectangle at zero offsets the view reads that store's payload,
    whatever was stored before. -/
theorem read_writes_cons_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's two branch conditions, in closed form over the grid -/

/-- The first branch (reset of the accumulators): the step coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

/-- The second branch (copy of the accumulators to the outputs): the step coordinate is the last. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Off the last step of a half the two outputs are idle and not written back; at it they are live. -/
theorem idleAt1_5 : ∀ t : Fin cfg1.N, ¬ t.val % 32 = 31 → cfg1.idle 5 (grid1.coords t) = true := by decide +kernel
theorem idleAt1_6 : ∀ t : Fin cfg1.N, ¬ t.val % 32 = 31 → cfg1.idle 6 (grid1.coords t) = true := by decide +kernel
theorem liveAt1_5 : ∀ t : Fin cfg1.N, t.val % 32 = 31 → cfg1.idle 5 (grid1.coords t) = false := by decide +kernel
theorem liveAt1_6 : ∀ t : Fin cfg1.N, t.val % 32 = 31 → cfg1.idle 6 (grid1.coords t) = false := by decide +kernel
theorem noFlush1_5 (t : Fin cfg1.N) (h : ¬ t.val % 32 = 31) : (cfg1.win 5).flush t = false :=
  Bool.eq_false_iff.mpr fun hf => h ((flush1_5 t).mp hf)
theorem noFlush1_6 (t : Fin cfg1.N) (h : ¬ t.val % 32 = 31) : (cfg1.win 6).flush t = false :=
  Bool.eq_false_iff.mpr fun hf => h ((flush1_6 t).mp hf)

/-! ## The body on any whole memrefs, one run per branch assignment the grid meets

The inputs are held at read contents `x0 … x4`; the feature accumulator (`arg9`) and the row-sum accumulator
(`arg10`) end at one update of what they held — of the zero payloads when the first branch resets them —, and
when the second branch is taken the two outputs end at the copies of the updated accumulators. Every load and
store is through the whole-shape rectangle, so each buffer reads as its last store's payload. -/

set_option maxHeartbeats 1000000 in
/-- First step of a half (reset, no copy-out): both accumulators may hold anything. -/
theorem run1_first (c : Dev nD) (E : Set ℕ) (i : grid1.Coords)
    (arg2 : Memref sig .tc .vmem S256x4096 .bf16) (harg2 : arg2.IsWhole) (arg3 : Memref sig .tc .vmem S4096x512 .f32) (harg3 : arg3.IsWhole) (arg4 : Memref sig .tc .vmem S512x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256x1 .f32) (harg8 : arg8.IsWhole) (arg9 : Memref sig .tc .vmem S256x256 .f32) (harg9 : arg9.IsWhole) (arg10 : Memref sig .tc .vmem S256x1 .f32) (harg10 : arg10.IsWhole)
    (hc0 : cond1_0 i) (hc1 : ¬ cond1_1 i)
    (x0 : Vec F S256x4096 .bf16) (x1 : Vec F S4096x512 .f32) (x2 : Vec F S512x256 .f32) (x3 : Vec F S256x256 .f32) (x4 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg9 fullShare (k1_pay1 (k1_pay7 x0 x1) (k1_pay9 x2 x3 x4) (k1_pay4 (F := F)) (constant S256x256 .f32 0x00000000#32))
            ∗ owns (c : Thread nD τ) arg10 fullShare (k1_pay8 x0 x1 (k1_pay5 (F := F)))) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10) K := by
  simp only [cc1__agg_kernel_eq_skeleton]; unfold cc1__agg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%so, %fo, -, HO⟩, ⟨%ss, %fs, -, HS⟩, Hk⟩
  subst hf0 hf1 hf2 hf3 hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [HO]
  · iexists _; isplitr
    swap; · iexact HO
    ipureintro
    sl_unfold_run_names
    refine (read_writes_cons_unit_zero _ _ hz2 _ _ _).trans ?_
    simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]
  iexists _; isplitr
  swap; · iexact HS
  ipureintro
  sl_unfold_run_names
  refine (read_writes_cons_unit_zero _ _ hz2 _ _ _).trans ?_
  simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]

set_option maxHeartbeats 1000000 in
/-- A middle step (no reset, no copy-out): the accumulators are updated in place. -/
theorem run1_mid (c : Dev nD) (E : Set ℕ) (i : grid1.Coords)
    (arg2 : Memref sig .tc .vmem S256x4096 .bf16) (harg2 : arg2.IsWhole) (arg3 : Memref sig .tc .vmem S4096x512 .f32) (harg3 : arg3.IsWhole) (arg4 : Memref sig .tc .vmem S512x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256x1 .f32) (harg8 : arg8.IsWhole) (arg9 : Memref sig .tc .vmem S256x256 .f32) (harg9 : arg9.IsWhole) (arg10 : Memref sig .tc .vmem S256x1 .f32) (harg10 : arg10.IsWhole)
    (hc0 : ¬ cond1_0 i) (hc1 : ¬ cond1_1 i)
    (x0 : Vec F S256x4096 .bf16) (x1 : Vec F S4096x512 .f32) (x2 : Vec F S512x256 .f32) (x3 : Vec F S256x256 .f32) (x4 : Vec F S1x256 .f32) (so : Vec F S256x256 .f32) (ss : Vec F S256x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg9 fullShare so ∗ owns (c : Thread nD τ) arg10 fullShare ss
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg9 fullShare (k1_pay1 (k1_pay7 x0 x1) (k1_pay9 x2 x3 x4) so (constant S256x256 .f32 0x00000000#32))
            ∗ owns (c : Thread nD τ) arg10 fullShare (k1_pay8 x0 x1 ss)) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10) K := by
  simp only [cc1__agg_kernel_eq_skeleton]; unfold cc1__agg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  subst hf0 hf1 hf2 hf3 hf4 hfo hfs
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [HO]
  · iexists _; isplitr
    swap; · iexact HO
    ipureintro
    sl_unfold_run_names
    refine (read_writes_cons_unit_zero _ _ hz2 _ _ _).trans ?_
    simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]
  iexists _; isplitr
  swap; · iexact HS
  ipureintro
  sl_unfold_run_names
  refine (read_writes_cons_unit_zero _ _ hz2 _ _ _).trans ?_
  simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]

set_option maxHeartbeats 1000000 in
/-- Last step of a half (no reset, copy-out): the outputs, held at anything, end at the copies. -/
theorem run1_last (c : Dev nD) (E : Set ℕ) (i : grid1.Coords)
    (arg2 : Memref sig .tc .vmem S256x4096 .bf16) (harg2 : arg2.IsWhole) (arg3 : Memref sig .tc .vmem S4096x512 .f32) (harg3 : arg3.IsWhole) (arg4 : Memref sig .tc .vmem S512x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256x1 .f32) (harg8 : arg8.IsWhole) (arg9 : Memref sig .tc .vmem S256x256 .f32) (harg9 : arg9.IsWhole) (arg10 : Memref sig .tc .vmem S256x1 .f32) (harg10 : arg10.IsWhole)
    (hc0 : ¬ cond1_0 i) (hc1 : cond1_1 i)
    (x0 : Vec F S256x4096 .bf16) (x1 : Vec F S4096x512 .f32) (x2 : Vec F S512x256 .f32) (x3 : Vec F S256x256 .f32) (x4 : Vec F S1x256 .f32) (so : Vec F S256x256 .f32) (ss : Vec F S256x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ owns (c : Thread nD τ) arg9 fullShare so ∗ owns (c : Thread nD τ) arg10 fullShare ss
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k1_pay2 (k1_pay1 (k1_pay7 x0 x1) (k1_pay9 x2 x3 x4) so (constant S256x256 .f32 0x00000000#32)))
            ∗ owns (c : Thread nD τ) arg8 fullShare (k1_pay3 (k1_pay8 x0 x1 ss))
            ∗ owns (c : Thread nD τ) arg9 fullShare (k1_pay1 (k1_pay7 x0 x1) (k1_pay9 x2 x3 x4) so (constant S256x256 .f32 0x00000000#32))
            ∗ owns (c : Thread nD τ) arg10 fullShare (k1_pay8 x0 x1 ss)) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10) K := by
  simp only [cc1__agg_kernel_eq_skeleton]; unfold cc1__agg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%fo, %hfo, HO⟩, ⟨%fs, %hfs, HS⟩, Hk⟩
  subst hf0 hf1 hf2 hf3 hf4 hfo hfs
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H7]
  · iexists _; isplitr
    swap; · iexact H7
    ipureintro
    sl_unfold_run_names
    refine (read_writes_cons_unit_zero _ _ hz3 _ _ _).trans ?_
    simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]
  isplitl [H8]
  · iexists _; isplitr
    swap; · iexact H8
    ipureintro
    sl_unfold_run_names
    refine (read_writes_cons_unit_zero _ _ hz3 _ _ _).trans ?_
    simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]
  isplitl [HO]
  · iexists _; isplitr
    swap; · iexact HO
    ipureintro
    sl_unfold_run_names
    refine (read_writes_cons_unit_zero _ _ hz2 _ _ _).trans ?_
    simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]
  iexists _; isplitr
  swap; · iexact HS
  ipureintro
  sl_unfold_run_names
  refine (read_writes_cons_unit_zero _ _ hz2 _ _ _).trans ?_
  simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]

/-! ## The inputs' staging buffers hold their blocks at every point

Windows 0, 3 and 4 are fetched at the first point only and windows 1 and 2 at every point; a window not fetched at a
point has not moved its block index since the point before, where the body left the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The region invariant: the two accumulators at their named contents -/

/-- The core's scoped buffers that are neither a staging buffer of this region nor one of the two accumulators,
    each at some contents. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the region is entered with: the accumulators at anything, the other scoped buffers, the generator register. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ rest1 c)
          ∗ (∃ r, prngReg c r)) := by
  unfold Pipeline.ΦA
  rw [Pipeline.scopedRest_split_of_list spec1 c [cc1_scratch0, cc1_scratch1] (by decide) (by decide)]
  simp only [scM1_0, scM1_1, owns_whole]; try rfl

/-- The invariant before point `n`: at the first point what the region is entered with; afterwards the feature
    accumulator and the row-sum accumulator at what point `n - 1` left in them, the other scoped buffers at anything,
    the generator register at some state. -/
def Phi1 (c : Dev nD) : (n : ℕ) → n ≤ cfg1.N → sProp 𝕄
  | 0, _ => Pipeline.ΦA spec1 c
  | n + 1, hn => iprop(((owns (c : Thread nD τ) scM1_0 fullShare (accO V c n hn) ∗ owns (c : Thread nD τ) scM1_1 fullShare (accS V c n hn)) ∗ rest1 c)
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(((owns (c : Thread nD τ) scM1_0 fullShare (accO V c n hn) ∗ owns (c : Thread nD τ) scM1_1 fullShare (accS V c n hn)) ∗ rest1 c)
      ∗ (∃ r, prngReg c r)) := rfl

theorem Phi1_pos (c : Dev nD) (n : ℕ) (h : n ≤ cfg1.N) (hz : n ≠ 0) :
    Phi1 V c n h = iprop(((owns (c : Thread nD τ) scM1_0 fullShare (accO V c (n - 1) (by omega)) ∗ owns (c : Thread nD τ) scM1_1 fullShare (accS V c (n - 1) (by omega))) ∗ rest1 c)
      ∗ (∃ r, prngReg c r)) := by
  cases n with
  | zero => exact absurd rfl hz
  | succ n => rfl

/-- At any point the invariant gives back what the region was entered with: the accumulators' contents forgotten. -/
theorem Phi1_forget (c : Dev nD) (n : ℕ) (h : n ≤ cfg1.N) : Phi1 V c n h ⊢ Pipeline.ΦA spec1 c := by
  cases n with
  | zero => exact Idealize.SL.BI.Entails.refl _
  | succ n =>
    rw [Phi1_succ, PhiA1_eq]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outO V c t
    | ⟨6, _⟩ => outS V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outO V c t := by dsimp only [dat1]
theorem after1_6 (c : Dev nD) (t : Fin cfg1.N) : (dat1 V c).after 6 t = outS V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- The resources the body starts from at point `t`: the invariant, the core's debts, and each window's current
    staging buffer at what it holds there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- The resources it must end with: the next invariant, the same debts, each buffer at what the body leaves in it. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the step `t % 32` says which run applies. At step 0
    the accumulators' contents are irrelevant (they are reset) and the outputs are idle; at the middle steps the
    accumulators hold what the point before left and the outputs are idle; at step 31 the outputs, held at anything,
    are stored whole. The accumulators go back into the invariant at this point's contents; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 64 := lt_of_lt_of_eq t.isLt (show cfg1.N = 64 from N_1)
  by_cases h0 : t.val % 32 = 0
  · have h1 : ¬ t.val % 32 = 31 := by omega
    rw [Dat.leavesExact_idle (dat1 V c) 5 t (idleAt1_5 t h1) (noFlush1_5 t h1),
      Dat.leavesExact_idle (dat1 V c) 6 t (idleAt1_6 t h1) (noFlush1_6 t h1)]
    rw [accO_reset V c t h0, accS_reset V c t h0]
    unfold stepO stepS
    rw [Phi1_castSucc V c t]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := ((Phi1_forget V c t.val (Nat.le_of_lt t.isLt)).trans (PhiA1_eq c).le) $$ HΦ
    icases HΦ' with ⟨⟨⟨HS0, HS1⟩, HR⟩, Hg⟩
    iapply (run1_first c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _)
    · isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]
            · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun e => h0 (by rw [e])
    rw [accO_carry V c t h0, accS_carry V c t h0]
    by_cases h1 : t.val % 32 = 31
    · rw [show (dat1 V c).leavesExact 5 t = owns (c : Thread nD τ) (st1_5 t) fullShare ((dat1 V c).after 5 t) from by
        unfold Dat.leavesExact; rw [liveAt1_5 t h1], after1_5]
      rw [show (dat1 V c).leavesExact 6 t = owns (c : Thread nD τ) (st1_6 t) fullShare ((dat1 V c).after 6 t) from by
        unfold Dat.leavesExact; rw [liveAt1_6 t h1], after1_6]
      unfold outO outS
      rw [accO_carry V c t h0, accS_carry V c t h0]
      unfold stepO stepS
      rw [Phi1_castSucc V c t, Phi1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_last c Set.univ (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]
            · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 5 t (idleAt1_5 t h1) (noFlush1_5 t h1),
        Dat.leavesExact_idle (dat1 V c) 6 t (idleAt1_6 t h1) (noFlush1_6 t h1)]
      unfold stepO stepS
      rw [Phi1_castSucc V c t, Phi1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_mid c Set.univ (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]
            · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- Every point of the grid satisfies the obligation: the seven windows spelt out, then the point's run. -/
theorem body_obligation1 (c : Dev nD) : BodyObligation (dat1 (F := F) V c) (defs₀ (F := F)) Variants.none () Set.univ := fun t => by
  rw [bigSep_W1, bigSep_W1]
  exact sound_body1 V c t

/-- Entering the region establishes the invariant at point 0 (it is the entry resources themselves). -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- Leaving the region after point 63: the accumulators' named contents are dropped, the entry resources restored. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact Phi1_forget V c _ _

end Cert.Kernel.Hand

end
-- ==== Proof.KRun.lean ====
/-
  The run of the whole program: @main is region 0 (the product g), a reshape of the bias, region 1 (the two
  partial aggregates per half of the edge axis) and three stretches of host operations that add the halves and
  normalize. Between two items every unscoped buffer is held at named contents: the launch memory, then what each
  region's write-backs leave in its arrays, then each host stretch's results. Each region is entered from the
  contents before it and left at the contents after it; its invariant carries the scratch accumulators.
-/
import proofs.«164392_j1580547965681_2_alg».proof.Proof.KBody0
import proofs.«164392_j1580547965681_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between @main's items -/

/-- Core `c`'s buffers at launch (region 0 is entered from them). -/
abbrev W0 : Dev nD → Valuation τ sig (Elt F) := fun c b => m ((c : Dev nD), b)
abbrev V0 : (c : Dev nD) → (b : Ref sig .tc) → Buf (Elt F) ((c : Thread nD τ).loc b) := fun c b => W0 m c b
/-- At region 0's exit: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the reshape of the bias (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the three stretches of host operations that combine the two halves and normalize. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m) c
    unfold Pipeline.ΦA at h
    rw [show (pdats m 0 c).Φ 0 = (dat0 (V0 m) c).Φ 0 from rfl]
    iintro ⟨Hp, -, Hr⟩
    iapply h
    isplitl [Hr]; · iexact Hr
    iexact Hp
  hout c := by
    have h := hout0 (V0 m) c
    unfold Pipeline.ΦA at h
    rw [Pipeline.ownSems0_none, show (pdats m 0 c).Φ (Fin.last _) = (dat0 (V0 m) c).Φ (Fin.last cfg0.N) from rfl]
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m) c
    unfold Pipeline.ΦA at h
    rw [show (pdats m 1 c).Φ 0 = (dat1 (V2 m) c).Φ 0 from rfl]
    iintro ⟨Hp, -, Hr⟩
    iapply h
    isplitl [Hr]; · iexact Hr
    iexact Hp
  hout c := by
    have h := hout1 (V2 m) c
    unfold Pipeline.ΦA at h
    rw [Pipeline.ownSems0_none, show (pdats m 1 c).Φ (Fin.last _) = (dat1 (V2 m) c).Φ (Fin.last cfg1.N) from rfl]
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor

/-- @main's six items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.KFrame.lean ====
/-
  The frame of the program, at any float instance: no item of @main writes an argument array. A host stretch
  writes only its own results; a region leaves every buffer that is not one of its arrays alone, and leaves its
  input arrays as it found them; so each argument read at the last boundary is its launch contents.
-/
import proofs.«164392_j1580547965681_2_alg».proof.Proof.KRun
import proofs.«164392_j1580547965681_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-! ## What no item writes: the arguments, and each region's inputs, reach every later boundary unchanged -/

section Kept
variable {F : FTy → Type} [FloatOps F] (m : (ℓ : Loc nD τ sig) → Buf (Elt F) ℓ) (c : Dev nD)

theorem W2_of (r : Ref sig .tc) (h : r ∉ hostOps1_W) : W2 m c r = W1 m c r :=
  StableHlo.after_of_writes_sub hostOps1 _ hostOps1_writes h
theorem W4_of (r : Ref sig .tc) (h : r ∉ hostOps2_W) : W4 m c r = W3 m c r :=
  StableHlo.after_of_writes_sub hostOps2 _ hostOps2_writes h
theorem W5_of (r : Ref sig .tc) (h : r ∉ hostOps2_1_W) : W5 m c r = W4 m c r :=
  StableHlo.after_of_writes_sub hostOps2_1 _ hostOps2_1_writes h
theorem W6_of (r : Ref sig .tc) (h : r ∉ hostOps2_2_W) : W6 m c r = W5 m c r :=
  StableHlo.after_of_writes_sub hostOps2_2 _ hostOps2_2_writes h

/-- Region 0's two inputs leave it as they entered. -/
theorem W1_in0 : W1 m c (Proc.devRef .tc main_arg0) = m ((c : Thread nD τ).loc main_arg0) :=
  (W1_arr m c 0).trans (((dat0 (V0 m) c).arrAt_in 0 rfl _).trans (A_eq0 (V0 m) c 0))
theorem W1_in1 : W1 m c (Proc.devRef .tc main_arg1) = m ((c : Thread nD τ).loc main_arg1) :=
  (W1_arr m c 1).trans (((dat0 (V0 m) c).arrAt_in 1 rfl _).trans (A_eq0 (V0 m) c 1))
/-- Region 1's five inputs leave it as they entered. -/
theorem W3_in (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

theorem W6_main_arg0 : W6 m c (Proc.devRef .tc main_arg0) = m ((c : Thread nD τ).loc main_arg0) :=
  (W6_of m c main_arg0 (by decide)).trans <| (W5_of m c main_arg0 (by decide)).trans <| (W4_of m c main_arg0 (by decide)).trans <|
    (W3_of_ne m c main_arg0 (by decide)).trans <| (W2_of m c main_arg0 (by decide)).trans (W1_in0 m c)
theorem W6_main_arg1 : W6 m c (Proc.devRef .tc main_arg1) = m ((c : Thread nD τ).loc main_arg1) :=
  (W6_of m c main_arg1 (by decide)).trans <| (W5_of m c main_arg1 (by decide)).trans <| (W4_of m c main_arg1 (by decide)).trans <|
    (W3_of_ne m c main_arg1 (by decide)).trans <| (W2_of m c main_arg1 (by decide)).trans (W1_in1 m c)
theorem W2_main_arg2 : W2 m c (Proc.devRef .tc main_arg2) = m ((c : Thread nD τ).loc main_arg2) :=
  (W2_of m c main_arg2 (by decide)).trans (W1_of_ne m c main_arg2 (by decide))
theorem W2_main_arg3 : W2 m c (Proc.devRef .tc main_arg3) = m ((c : Thread nD τ).loc main_arg3) :=
  (W2_of m c main_arg3 (by decide)).trans (W1_of_ne m c main_arg3 (by decide))
theorem W2_main_arg4 : W2 m c (Proc.devRef .tc main_arg4) = m ((c : Thread nD τ).loc main_arg4) :=
  (W2_of m c main_arg4 (by decide)).trans (W1_of_ne m c main_arg4 (by decide))
theorem W6_main_arg2 : W6 m c (Proc.devRef .tc main_arg2) = m ((c : Thread nD τ).loc main_arg2) :=
  (W6_of m c main_arg2 (by decide)).trans <| (W5_of m c main_arg2 (by decide)).trans <| (W4_of m c main_arg2 (by decide)).trans <|
    (W3_in m c 1 rfl).trans (W2_main_arg2 m c)
theorem W6_main_arg3 : W6 m c (Proc.devRef .tc main_arg3) = m ((c : Thread nD τ).loc main_arg3) :=
  (W6_of m c main_arg3 (by decide)).trans <| (W5_of m c main_arg3 (by decide)).trans <| (W4_of m c main_arg3 (by decide)).trans <|
    (W3_in m c 2 rfl).trans (W2_main_arg3 m c)
theorem W6_main_arg4 : W6 m c (Proc.devRef .tc main_arg4) = m ((c : Thread nD τ).loc main_arg4) :=
  (W6_of m c main_arg4 (by decide)).trans <| (W5_of m c main_arg4 (by decide)).trans <| (W4_of m c main_arg4 (by decide)).trans <|
    (W3_in m c 3 rfl).trans (W2_main_arg4 m c)
theorem W6_main_arg5 : W6 m c (Proc.devRef .tc main_arg5) = m ((c : Thread nD τ).loc main_arg5) :=
  (W6_of m c main_arg5 (by decide)).trans <| (W5_of m c main_arg5 (by decide)).trans <| (W4_of m c main_arg5 (by decide)).trans <|
    (W3_of_ne m c main_arg5 (by decide)).trans <| (W2_of m c main_arg5 (by decide)).trans (W1_of_ne m c main_arg5 (by decide))

/-- THE FRAME at any instance: the run ends with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Kept

end Cert.Kernel.Hand

end
-- ==== Proof.Half0.lean ====
/-
  Region 0 (the tiled product g = edge_nodes · adj_matrix), what its proof data are made of.
  The grid is 4 × 4: point t has column tile t / 4 and reduction step t % 4. At every point the body adds
  the product of the point's two input blocks to a scratch accumulator, which it first resets at
  reduction step 0; at reduction step 3 it writes the accumulator, rounded, to the output block.
  So the scratch after point t is a recursion on t through the body's store payloads, and the
  output block written back at a point with t % 4 = 3 is the rounding payload of that scratch.
-/
import proofs.«164392_j1580547965681_2_alg».proof.Proof.Gen.KernelIdeal.Launch
import proofs.«164392_j1580547965681_2_alg».proof.Proof.Gen.KernelIdeal.Skeleton
import proofs.«164392_j1580547965681_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator's memref. -/
abbrev scM0 : Memref sig .tc .vmem S256x1024 .f32 := Memref.whole cc0_scratch0

/-- One point's update of the accumulator: the previous contents plus the product of the point's blocks. -/
def step0 (c : Dev nD) (t : Fin cfg0.N) (prev : Vec F S256x1024 .f32) : Vec F S256x1024 .f32 :=
  k0_pay2 (iblk0 V c 0 t) (iblk0 V c 1 t) prev

/-- The accumulator after point `n`: reset to the zero payload at reduction step 0, carried otherwise. -/
def acc0 (c : Dev nD) : (n : ℕ) → n < cfg0.N → Vec F S256x1024 .f32
  | 0, h => step0 V c ⟨0, h⟩ (k0_pay1 (F := F))
  | n + 1, h =>
    if (n + 1) % 4 = 0 then step0 V c ⟨n + 1, h⟩ (k0_pay1 (F := F))
    else step0 V c ⟨n + 1, h⟩ (acc0 c n (Nat.lt_of_succ_lt h))

/-- What the output block holds after the body at a point that stores it: the accumulator rounded. -/
def out0 (c : Dev nD) (t : Fin cfg0.N) : Vec F S256x1024 .bf16 :=
  k0_pay3 (acc0 V c t.val t.isLt)

theorem acc0_reset (c : Dev nD) (t : Fin cfg0.N) (h : t.val % 4 = 0) :
    acc0 V c t.val t.isLt = step0 V c t (k0_pay1 (F := F)) := by
  obtain ⟨n, hn⟩ := t
  cases n with
  | zero => rfl
  | succ n => exact (if_pos h)

theorem acc0_carry (c : Dev nD) (t : Fin cfg0.N) (h : ¬ t.val % 4 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => exact (if_neg h)

end Cert.KernelIdeal.Hand

end
-- ==== Proof.Body0.lean ====
/-
  Region 0 (the tiled product g = edge_nodes · adj_matrix): the body's obligation at every grid point.

  The grid is 4 × 4; point t has reduction step t % 4. The body, on whole memrefs, is run in its three
  cases: at step 0 it resets the accumulator and adds the product of the point's two input blocks; at
  steps 1 and 2 it adds the product to what the accumulator held; at step 3 it adds the product and
  stores the accumulator, rounded, into the output block. Each load and store goes through the whole
  rectangle of its memref, so a load reads the contents and a store leaves its payload.

  Between points the accumulator is carried: the invariant before point n + 1 holds it at `acc0 … n`,
  every other scoped buffer of the core that is no staging buffer of this region at anything, and the
  generator register at some state; before point 0 it is what the region is entered with. The output
  window is idle away from step 3 (its buffer handed back as found, not written back) and ends at
  `out0` at step 3, where it is written back.
-/
import proofs.«164392_j1580547965681_2_alg».proof.Proof.Half0
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions, in closed form over the grid -/

/-- The reset branch's condition, from the grid coordinates (the body's scalar chain substituted). -/
abbrev cond0_0 (i : grid0.Coords) : Prop := (Scalar.cmpi .ne (Scalar.extui (Scalar.cmpi .eq (BitVec.ofNat 32 (i 1).val) 0#32)) 0#32) = 1#1
/-- It holds exactly at reduction step 0. -/
theorem hcond0_0 : ∀ t : Fin cfg0.N, cond0_0 (grid0.coords t) ↔ t.val % 4 = 0 :=
  (by decide +kernel : ∀ t : Fin grid0.N, cond0_0 (grid0.coords t) ↔ t.val % 4 = 0)
/-- The output branch's condition. -/
abbrev cond0_1 (i : grid0.Coords) : Prop := k0_cond2 i = 1#1
/-- It holds exactly at reduction step 3. -/
theorem hcond0_1 : ∀ t : Fin cfg0.N, cond0_1 (grid0.coords t) ↔ t.val % 4 = 3 :=
  (by decide +kernel : ∀ t : Fin grid0.N, cond0_1 (grid0.coords t) ↔ t.val % 4 = 3)

/-- The zero offsets of a rank-2 rectangle, as the body spells them. -/
theorem zoff0 : (![0, 0] : Fin 2 → ℕ) = fun _ => 0 := by funext a; fin_cases a <;> rfl

/-- A load through the whole-shape rectangle at zero offsets reads the view's contents. -/
theorem readAt_whole0 {κ : Kind} {sp : Space} {S : Shape} {e : EltTy} (v : View sig κ sp S e) {off : Fin S.rank → ℕ}
    (h : off = fun _ => 0) (inb : ∀ a, off a + S.size a ≤ S.size a) (f : v.ty.Contents (Elt F)) :
    v.readAt (Elt F) (Rect.unit off S.size inb).toLoadRect f = v.read (Elt F) f :=
  View.ld_unit_zero h inb (v.read (Elt F) f)

/-! ## The body's triple, case by case, on any whole memrefs -/

set_option maxHeartbeats 1000000 in
/-- Reduction step 0, no output: the accumulator, whatever it held, ends at the zero payload plus the product. The
    output window's memref is not touched. -/
theorem run0_A (c : Dev nD) (E : Set ℕ) (i : grid0.Coords)
    (arg2 : Memref sig .tc .vmem S256x1024 .f32) (harg2 : arg2.IsWhole) (arg3 : Memref sig .tc .vmem S1024x1024 .f32) (harg3 : arg3.IsWhole)
    (arg4 : Memref sig .tc .vmem S256x1024 .bf16) (harg4 : arg4.IsWhole) (arg5 : Memref sig .tc .vmem S256x1024 .f32) (harg5 : arg5.IsWhole)
    (hc0 : cond0_0 i) (hc1 : ¬cond0_1 i)
    (x0 : Vec F S256x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k0_pay2 x0 x1 (k0_pay1 (F := F)))) -∗ K ⟨⟩))
      ⊢ wp frame (wpE (defs₀ (F := F)) Variants.none c none) E (cc0__g_kernel i arg2 harg2 arg3 harg3 arg4 harg4 arg5 harg5) K := by
  simp only [cc0__g_kernel_eq_skeleton]; unfold cc0__g_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (View.cover_of_tiled _ S256x1024.size (by rfl)), View.canon_cons_unit_zero zoff0,
    View.readCov_cons_toLoadRect, readAt_whole0 _ zoff0, readAt_whole0 _ zoff0]

set_option maxHeartbeats 1000000 in
/-- Reduction steps 1 and 2: the accumulator at `xs` ends at `xs` plus the product. The output window's memref is not
    touched. -/
theorem run0_B (c : Dev nD) (E : Set ℕ) (i : grid0.Coords)
    (arg2 : Memref sig .tc .vmem S256x1024 .f32) (harg2 : arg2.IsWhole) (arg3 : Memref sig .tc .vmem S1024x1024 .f32) (harg3 : arg3.IsWhole)
    (arg4 : Memref sig .tc .vmem S256x1024 .bf16) (harg4 : arg4.IsWhole) (arg5 : Memref sig .tc .vmem S256x1024 .f32) (harg5 : arg5.IsWhole)
    (hc0 : ¬cond0_0 i) (hc1 : ¬cond0_1 i)
    (x0 : Vec F S256x1024 .f32) (x1 : Vec F S1024x1024 .f32) (xs : Vec F S256x1024 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k0_pay2 x0 x1 xs)) -∗ K ⟨⟩))
      ⊢ wp frame (wpE (defs₀ (F := F)) Variants.none c none) E (cc0__g_kernel i arg2 harg2 arg3 harg3 arg4 harg4 arg5 harg5) K := by
  simp only [cc0__g_kernel_eq_skeleton]; unfold cc0__g_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (View.cover_of_tiled _ S256x1024.size (by rfl)), View.canon_cons_unit_zero zoff0,
    readAt_whole0 _ zoff0, readAt_whole0 _ zoff0, readAt_whole0 _ zoff0]

set_option maxHeartbeats 1000000 in
/-- Reduction step 3: the accumulator at `xs` ends at `xs` plus the product, and the output window's memref, whatever it
    held, at that sum rounded. -/
theorem run0_C (c : Dev nD) (E : Set ℕ) (i : grid0.Coords)
    (arg2 : Memref sig .tc .vmem S256x1024 .f32) (harg2 : arg2.IsWhole) (arg3 : Memref sig .tc .vmem S1024x1024 .f32) (harg3 : arg3.IsWhole)
    (arg4 : Memref sig .tc .vmem S256x1024 .bf16) (harg4 : arg4.IsWhole) (arg5 : Memref sig .tc .vmem S256x1024 .f32) (harg5 : arg5.IsWhole)
    (hc0 : ¬cond0_0 i) (hc1 : cond0_1 i)
    (x0 : Vec F S256x1024 .f32) (x1 : Vec F S1024x1024 .f32) (xs : Vec F S256x1024 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay3 (k0_pay2 x0 x1 xs)) ∗ owns (c : Thread nD τ) arg5 fullShare (k0_pay2 x0 x1 xs)) -∗ K ⟨⟩))
      ⊢ wp frame (wpE (defs₀ (F := F)) Variants.none c none) E (cc0__g_kernel i arg2 harg2 arg3 harg3 arg4 harg4 arg5 harg5) K := by
  simp only [cc0__g_kernel_eq_skeleton]; unfold cc0__g_kernel_skel
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (View.cover_of_tiled _ S256x1024.size (by rfl)), View.canon_cons_unit_zero zoff0,
      View.readCov_cons_toLoadRect, readAt_whole0 _ zoff0, readAt_whole0 _ zoff0, readAt_whole0 _ zoff0]
  iexists _; isplitr
  swap; · iexact HS
  ipureintro
  sl_unfold_run_names
  rw [View.read_writes_eq_canon _ _ _ (View.cover_of_tiled _ S256x1024.size (by rfl)), View.canon_cons_unit_zero zoff0,
    readAt_whole0 _ zoff0, readAt_whole0 _ zoff0, readAt_whole0 _ zoff0]

/-! ## Where the windows are idle, and where the output is written back -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from reduction step 3 the body stores nothing into the output window, and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At reduction step 3 it does. -/
theorem liveAt0_2 : ∀ t : Fin cfg0.N, cond0_1 (grid0.coords t) → cfg0.idle 2 (grid0.coords t) = false := by decide +kernel

/-! ## What the body finds in the input windows -/

/-- Input window 0 is fetched at every point, so its current staging buffer holds its block there. -/
theorem before0_0_of {c : Dev nD} (dat : Dat τ (Elt F) Unit ℕ (UR sig nD τ) ℕ cfg0 c) (hA : dat.A 0 = V c (Pipeline.arrRef spec0 0))
    (t : Fin cfg0.N) (d) : dat.before 0 t d = iblk0 V c 0 t :=
  (dat.before_fetched 0 t (fetch0_0 t) d).trans (by unfold Dat.fetched Dat.blockOf iblk0; rw [hA]; try rfl)

/-- Input window 1 likewise. -/
theorem before0_1_of {c : Dev nD} (dat : Dat τ (Elt F) Unit ℕ (UR sig nD τ) ℕ cfg0 c) (hA : dat.A 1 = V c (Pipeline.arrRef spec0 1))
    (t : Fin cfg0.N) (d) : dat.before 1 t d = iblk0 V c 1 t :=
  (dat.before_fetched 1 t (fetch0_1 t) d).trans (by unfold Dat.fetched Dat.blockOf iblk0; rw [hA]; try rfl)

/-! ## The invariant carried between grid points -/

/-- The core's scoped buffers, other than the accumulator, that are no staging buffer of this region: each whole, at
    any contents. The body touches none of them. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- What the region is entered with, the accumulator set apart as a memref owned at some contents. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA others0; rw [scopedRest0_eq]; simp only [scM0, owns_whole]; try rfl

/-- The invariant before position `n`: before the first point what the region is entered with; afterwards the same with
    the accumulator at the accumulation up to the point before (`acc0`), the other scoped buffers at anything, the
    generator register at some state. -/
def Phi0 (c : Dev nD) : (n : ℕ) → n ≤ cfg0.N → sProp 𝕄
  | 0, _ => Pipeline.ΦA spec0 c
  | n + 1, hn => iprop((owns (c : Thread nD τ) scM0 fullShare (acc0 V c n hn) ∗ others0 (F := F) c) ∗ (∃ r, prngReg c r))

theorem Phi0_zero (c : Dev nD) (n : ℕ) (h : n ≤ cfg0.N) (hz : n = 0) : Phi0 V c n h = Pipeline.ΦA spec0 c := by
  subst hz; rfl

/-- After point `n`: the accumulator at that point's accumulation. -/
theorem Phi0_succ (c : Dev nD) (n : ℕ) (hn : n < cfg0.N) :
    Phi0 V c (n + 1) hn = iprop((owns (c : Thread nD τ) scM0 fullShare (acc0 V c n hn) ∗ others0 (F := F) c) ∗ (∃ r, prngReg c r)) := rfl

/-- Before a point that is not the first: the accumulator at what the point before left. -/
theorem Phi0_pos (c : Dev nD) (n : ℕ) (h : n ≤ cfg0.N) (hz : n ≠ 0) :
    Phi0 V c n h = iprop((owns (c : Thread nD τ) scM0 fullShare (acc0 V c (n - 1) (by omega)) ∗ others0 (F := F) c) ∗ (∃ r, prngReg c r)) := by
  cases n with
  | zero => exact absurd rfl hz
  | succ n => rfl

/-! ## The proof data -/

/-- The region's proof data on core `c`: the arrays as the region finds them; after the body at point `t` each input's
    buffer at its block and the output's at the rounded accumulator; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) t d
theorem before0_1 (c : Dev nD) (t : Fin cfg0.N) (d) : (dat0 V c).before 1 t d = iblk0 V c 1 t :=
  before0_1_of V (dat0 V c) (A_eq0 V c 1) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' memrefs hold their blocks; the point's reduction step says which case it is in.
    At step 0 the accumulator's contents are irrelevant (`acc0_reset`), otherwise it holds what the point before left
    (`acc0_carry`); away from step 3 the output's buffer is handed back as found, at step 3 it ends at the rounded
    accumulator. The other scoped buffers, the generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 16 := lt_of_lt_of_eq t.isLt (show cfg0.N = 16 from N_0)
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [acc0_reset V c t h0]; unfold step0
    by_cases hz : t.val = 0
    · rw [Phi0_castSucc V c t, Phi0_zero V c _ _ hz, PhiA0_eq]
      iintro ⟨⟨⟨HS, Hr⟩, Hg⟩, Ho, ⟨%d0, H0⟩, ⟨%d1, H1⟩, H2⟩
      iapply (run0_A c Set.univ (grid0.coords t) _ _ _ _ _ _ _ _ hc0 hc1 (iblk0 V c 0 t) (iblk0 V c 1 t) _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [Phi0_castSucc V c t, Phi0_pos V c _ _ hz]
      iintro ⟨⟨⟨HS, Hr⟩, Hg⟩, Ho, ⟨%d0, H0⟩, ⟨%d1, H1⟩, H2⟩
      iapply (run0_A c Set.univ (grid0.coords t) _ _ _ _ _ _ _ _ hc0 hc1 (iblk0 V c 0 t) (iblk0 V c 1 t) _)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
  · have hc0 : ¬cond0_0 (grid0.coords t) := fun h => h0 ((hcond0_0 t).mp h)
    have hz : t.val ≠ 0 := fun h => h0 (by rw [h])
    by_cases h1 : t.val % 4 = 3
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      unfold out0
      rw [acc0_carry V c t h0]; unfold step0
      rw [Phi0_castSucc V c t, Phi0_pos V c _ _ hz]
      iintro ⟨⟨⟨HS, Hr⟩, Hg⟩, Ho, ⟨%d0, H0⟩, ⟨%d1, H1⟩, ⟨%d2, H2⟩⟩
      iapply (run0_C c Set.univ (grid0.coords t) _ _ _ _ _ _ _ _ hc0 hc1 (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      rw [acc0_carry V c t h0]; unfold step0
      rw [Phi0_castSucc V c t, Phi0_pos V c _ _ hz]
      iintro ⟨⟨⟨HS, Hr⟩, Hg⟩, Ho, ⟨%d0, H0⟩, ⟨%d1, H1⟩, H2⟩
      iapply (run0_B c Set.univ (grid0.coords t) _ _ _ _ _ _ _ _ hc0 hc1 (iblk0 V c 0 t) (iblk0 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- What the region is entered with is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point the invariant gives back what the region was entered with: the accumulator's contents are forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi0_out V c _ (by rw [Fin.val_last]; have : cfg0.N = 16 := N_0; omega)

end Cert.KernelIdeal.Hand

end
-- ==== Proof.Half1.lean ====
/-
  Region 1 (the streamed aggregation over edge tiles), what its proof data are made of.
  The grid is 2 × 32: point t has half t / 32 of the edge axis and step t % 32 within it. At every
  point the body forms the tile's selection mask from g and the incidence block, adds the mask's row
  sums to one scratch accumulator and the product of the mask with the tile's transformed edge
  features to another, both reset at step 0; at step 31 it copies both accumulators to the two
  output blocks of its half. So each scratch after point t is a recursion on t through the body's
  store payloads, and each output block written back at a point with t % 32 = 31 is the copy
  payload of its scratch.
-/
import proofs.«164392_j1580547965681_2_alg».proof.Proof.Gen.KernelIdeal.Launch
import proofs.«164392_j1580547965681_2_alg».proof.Proof.Gen.KernelIdeal.Skeleton
import proofs.«164392_j1580547965681_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch accumulators' memrefs: the weighted feature sums and the mask's row sums. -/
abbrev scM1_0 : Memref sig .tc .vmem S256x256 .f32 := Memref.whole cc1_scratch0
abbrev scM1_1 : Memref sig .tc .vmem S256x1 .f32 := Memref.whole cc1_scratch1

/-- One point's update of the row-sum accumulator. -/
def stepS (c : Dev nD) (t : Fin cfg1.N) (prev : Vec F S256x1 .f32) : Vec F S256x1 .f32 :=
  k1_pay8 (iblk1 V c 0 t) (iblk1 V c 1 t) prev

/-- One point's update of the feature accumulator. -/
def stepO (c : Dev nD) (t : Fin cfg1.N) (prev : Vec F S256x256 .f32) : Vec F S256x256 .f32 :=
  k1_pay1 (k1_pay7 (iblk1 V c 0 t) (iblk1 V c 1 t)) (k1_pay9 (iblk1 V c 2 t) (iblk1 V c 3 t) (iblk1 V c 4 t)) prev
    (constant S256x256 .f32 0x00000000#32)

/-- The row-sum accumulator after point `n`: reset to the zero payload at step 0, carried otherwise. -/
def accS (c : Dev nD) : (n : ℕ) → n < cfg1.N → Vec F S256x1 .f32
  | 0, h => stepS V c ⟨0, h⟩ (k1_pay5 (F := F))
  | n + 1, h =>
    if (n + 1) % 32 = 0 then stepS V c ⟨n + 1, h⟩ (k1_pay5 (F := F))
    else stepS V c ⟨n + 1, h⟩ (accS c n (Nat.lt_of_succ_lt h))

/-- The feature accumulator after point `n`. -/
def accO (c : Dev nD) : (n : ℕ) → n < cfg1.N → Vec F S256x256 .f32
  | 0, h => stepO V c ⟨0, h⟩ (k1_pay4 (F := F))
  | n + 1, h =>
    if (n + 1) % 32 = 0 then stepO V c ⟨n + 1, h⟩ (k1_pay4 (F := F))
    else stepO V c ⟨n + 1, h⟩ (accO c n (Nat.lt_of_succ_lt h))

/-- What the two output blocks hold after the body at a point that stores them. -/
def outO (c : Dev nD) (t : Fin cfg1.N) : Vec F S1x256x256 .f32 := k1_pay2 (accO V c t.val t.isLt)
def outS (c : Dev nD) (t : Fin cfg1.N) : Vec F S1x256x1 .f32 := k1_pay3 (accS V c t.val t.isLt)

theorem accS_reset (c : Dev nD) (t : Fin cfg1.N) (h : t.val % 32 = 0) :
    accS V c t.val t.isLt = stepS V c t (k1_pay5 (F := F)) := by
  obtain ⟨n, hn⟩ := t
  cases n with
  | zero => rfl
  | succ n => exact (if_pos h)

theorem accS_carry (c : Dev nD) (t : Fin cfg1.N) (h : ¬ t.val % 32 = 0) :
    accS V c t.val t.isLt = stepS V c t (accS V c (t.val - 1) (Nat.lt_of_le_of_lt (Nat.sub_le _ _) t.isLt)) := by
  obtain ⟨n, hn⟩ := t
  cases n with
  | zero => exact absurd (Nat.zero_mod _) h
  | succ n => exact (if_neg h)

theorem accO_reset (c : Dev nD) (t : Fin cfg1.N) (h : t.val % 32 = 0) :
    accO V c t.val t.isLt = stepO V c t (k1_pay4 (F := F)) := by
  obtain ⟨n, hn⟩ := t
  cases n with
  | zero => rfl
  | succ n => exact (if_pos h)

theorem accO_carry (c : Dev nD) (t : Fin cfg1.N) (h : ¬ t.val % 32 = 0) :
    accO V c t.val t.isLt = stepO V c t (accO V c (t.val - 1) (Nat.lt_of_le_of_lt (Nat.sub_le _ _) t.isLt)) := by
  obtain ⟨n, hn⟩ := t
  cases n with
  | zero => exact absurd (Nat.zero_mod _) h
  | succ n => exact (if_neg h)

end Cert.KernelIdeal.Hand

end
-- ==== Proof.Body1.lean ====
/-
  Region 1 (the streamed aggregation over edge tiles): its body obligation.
  At a point with step s = t % 32 the body resets the two accumulators when s = 0, adds the tile's masked row
  sums to the one and the product of the mask with the tile's transformed edge features to the other, and when
  s = 31 copies both to the two output blocks of its half. Three runs of the body cover the grid (first step,
  middle steps, last step). The invariant carried from point to point holds the two accumulators at their named
  contents after the point before; the output windows are idle, and handed back untouched, wherever the body does
  not store them.
-/
import proofs.«164392_j1580547965681_2_alg».proof.Proof.Half1
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle at zero offsets reads what the view reads. -/
theorem readAt_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

/-- After a last store through the whole-shape rectangle at zero offsets the view reads that store's payload,
    whatever was stored before. -/
theorem read_writes_cons_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's two branch conditions, in closed form over the grid -/

/-- The first branch (reset of the accumulators): the step coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

/-- The second branch (copy of the accumulators to the outputs): the step coordinate is the last. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Off the last step of a half the two outputs are idle and not written back; at it they are live. -/
theorem idleAt1_5 : ∀ t : Fin cfg1.N, ¬ t.val % 32 = 31 → cfg1.idle 5 (grid1.coords t) = true := by decide +kernel
theorem idleAt1_6 : ∀ t : Fin cfg1.N, ¬ t.val % 32 = 31 → cfg1.idle 6 (grid1.coords t) = true := by decide +kernel
theorem liveAt1_5 : ∀ t : Fin cfg1.N, t.val % 32 = 31 → cfg1.idle 5 (grid1.coords t) = false := by decide +kernel
theorem liveAt1_6 : ∀ t : Fin cfg1.N, t.val % 32 = 31 → cfg1.idle 6 (grid1.coords t) = false := by decide +kernel
theorem noFlush1_5 (t : Fin cfg1.N) (h : ¬ t.val % 32 = 31) : (cfg1.win 5).flush t = false :=
  Bool.eq_false_iff.mpr fun hf => h ((flush1_5 t).mp hf)
theorem noFlush1_6 (t : Fin cfg1.N) (h : ¬ t.val % 32 = 31) : (cfg1.win 6).flush t = false :=
  Bool.eq_false_iff.mpr fun hf => h ((flush1_6 t).mp hf)

/-! ## The body on any whole memrefs, one run per branch assignment the grid meets

The inputs are held at read contents `x0 … x4`; the feature accumulator (`arg9`) and the row-sum accumulator
(`arg10`) end at one update of what they held — of the zero payloads when the first branch resets them —, and
when the second branch is taken the two outputs end at the copies of the updated accumulators. Every load and
store is through the whole-shape rectangle, so each buffer reads as its last store's payload. -/

set_option maxHeartbeats 1000000 in
/-- First step of a half (reset, no copy-out): both accumulators may hold anything. -/
theorem run1_first (c : Dev nD) (E : Set ℕ) (i : grid1.Coords)
    (arg2 : Memref sig .tc .vmem S256x4096 .bf16) (harg2 : arg2.IsWhole) (arg3 : Memref sig .tc .vmem S4096x512 .f32) (harg3 : arg3.IsWhole) (arg4 : Memref sig .tc .vmem S512x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256x1 .f32) (harg8 : arg8.IsWhole) (arg9 : Memref sig .tc .vmem S256x256 .f32) (harg9 : arg9.IsWhole) (arg10 : Memref sig .tc .vmem S256x1 .f32) (harg10 : arg10.IsWhole)
    (hc0 : cond1_0 i) (hc1 : ¬ cond1_1 i)
    (x0 : Vec F S256x4096 .bf16) (x1 : Vec F S4096x512 .f32) (x2 : Vec F S512x256 .f32) (x3 : Vec F S256x256 .f32) (x4 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg9 fullShare (k1_pay1 (k1_pay7 x0 x1) (k1_pay9 x2 x3 x4) (k1_pay4 (F := F)) (constant S256x256 .f32 0x00000000#32))
            ∗ owns (c : Thread nD τ) arg10 fullShare (k1_pay8 x0 x1 (k1_pay5 (F := F)))) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10) K := by
  simp only [cc1__agg_kernel_eq_skeleton]; unfold cc1__agg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%so, %fo, -, HO⟩, ⟨%ss, %fs, -, HS⟩, Hk⟩
  subst hf0 hf1 hf2 hf3 hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [HO]
  · iexists _; isplitr
    swap; · iexact HO
    ipureintro
    sl_unfold_run_names
    refine (read_writes_cons_unit_zero _ _ hz2 _ _ _).trans ?_
    simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]
  iexists _; isplitr
  swap; · iexact HS
  ipureintro
  sl_unfold_run_names
  refine (read_writes_cons_unit_zero _ _ hz2 _ _ _).trans ?_
  simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]

set_option maxHeartbeats 1000000 in
/-- A middle step (no reset, no copy-out): the accumulators are updated in place. -/
theorem run1_mid (c : Dev nD) (E : Set ℕ) (i : grid1.Coords)
    (arg2 : Memref sig .tc .vmem S256x4096 .bf16) (harg2 : arg2.IsWhole) (arg3 : Memref sig .tc .vmem S4096x512 .f32) (harg3 : arg3.IsWhole) (arg4 : Memref sig .tc .vmem S512x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256x1 .f32) (harg8 : arg8.IsWhole) (arg9 : Memref sig .tc .vmem S256x256 .f32) (harg9 : arg9.IsWhole) (arg10 : Memref sig .tc .vmem S256x1 .f32) (harg10 : arg10.IsWhole)
    (hc0 : ¬ cond1_0 i) (hc1 : ¬ cond1_1 i)
    (x0 : Vec F S256x4096 .bf16) (x1 : Vec F S4096x512 .f32) (x2 : Vec F S512x256 .f32) (x3 : Vec F S256x256 .f32) (x4 : Vec F S1x256 .f32) (so : Vec F S256x256 .f32) (ss : Vec F S256x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg9 fullShare so ∗ owns (c : Thread nD τ) arg10 fullShare ss
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg9 fullShare (k1_pay1 (k1_pay7 x0 x1) (k1_pay9 x2 x3 x4) so (constant S256x256 .f32 0x00000000#32))
            ∗ owns (c : Thread nD τ) arg10 fullShare (k1_pay8 x0 x1 ss)) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10) K := by
  simp only [cc1__agg_kernel_eq_skeleton]; unfold cc1__agg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  subst hf0 hf1 hf2 hf3 hf4 hfo hfs
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [HO]
  · iexists _; isplitr
    swap; · iexact HO
    ipureintro
    sl_unfold_run_names
    refine (read_writes_cons_unit_zero _ _ hz2 _ _ _).trans ?_
    simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]
  iexists _; isplitr
  swap; · iexact HS
  ipureintro
  sl_unfold_run_names
  refine (read_writes_cons_unit_zero _ _ hz2 _ _ _).trans ?_
  simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]

set_option maxHeartbeats 1000000 in
/-- Last step of a half (no reset, copy-out): the outputs, held at anything, end at the copies. -/
theorem run1_last (c : Dev nD) (E : Set ℕ) (i : grid1.Coords)
    (arg2 : Memref sig .tc .vmem S256x4096 .bf16) (harg2 : arg2.IsWhole) (arg3 : Memref sig .tc .vmem S4096x512 .f32) (harg3 : arg3.IsWhole) (arg4 : Memref sig .tc .vmem S512x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x256 .f32) (harg7 : arg7.IsWhole) (arg8 : Memref sig .tc .vmem S1x256x1 .f32) (harg8 : arg8.IsWhole) (arg9 : Memref sig .tc .vmem S256x256 .f32) (harg9 : arg9.IsWhole) (arg10 : Memref sig .tc .vmem S256x1 .f32) (harg10 : arg10.IsWhole)
    (hc0 : ¬ cond1_0 i) (hc1 : cond1_1 i)
    (x0 : Vec F S256x4096 .bf16) (x1 : Vec F S4096x512 .f32) (x2 : Vec F S512x256 .f32) (x3 : Vec F S256x256 .f32) (x4 : Vec F S1x256 .f32) (so : Vec F S256x256 .f32) (ss : Vec F S256x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ owns (c : Thread nD τ) arg9 fullShare so ∗ owns (c : Thread nD τ) arg10 fullShare ss
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k1_pay2 (k1_pay1 (k1_pay7 x0 x1) (k1_pay9 x2 x3 x4) so (constant S256x256 .f32 0x00000000#32)))
            ∗ owns (c : Thread nD τ) arg8 fullShare (k1_pay3 (k1_pay8 x0 x1 ss))
            ∗ owns (c : Thread nD τ) arg9 fullShare (k1_pay1 (k1_pay7 x0 x1) (k1_pay9 x2 x3 x4) so (constant S256x256 .f32 0x00000000#32))
            ∗ owns (c : Thread nD τ) arg10 fullShare (k1_pay8 x0 x1 ss)) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10) K := by
  simp only [cc1__agg_kernel_eq_skeleton]; unfold cc1__agg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%fo, %hfo, HO⟩, ⟨%fs, %hfs, HS⟩, Hk⟩
  subst hf0 hf1 hf2 hf3 hf4 hfo hfs
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H7]
  · iexists _; isplitr
    swap; · iexact H7
    ipureintro
    sl_unfold_run_names
    refine (read_writes_cons_unit_zero _ _ hz3 _ _ _).trans ?_
    simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]
  isplitl [H8]
  · iexists _; isplitr
    swap; · iexact H8
    ipureintro
    sl_unfold_run_names
    refine (read_writes_cons_unit_zero _ _ hz3 _ _ _).trans ?_
    simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]
  isplitl [HO]
  · iexists _; isplitr
    swap; · iexact HO
    ipureintro
    sl_unfold_run_names
    refine (read_writes_cons_unit_zero _ _ hz2 _ _ _).trans ?_
    simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]
  iexists _; isplitr
  swap; · iexact HS
  ipureintro
  sl_unfold_run_names
  refine (read_writes_cons_unit_zero _ _ hz2 _ _ _).trans ?_
  simp only [View.readCov_cons_toLoadRect, readAt_unit_zero (S := S256x4096) _ _ hz2, readAt_unit_zero (S := S4096x512) _ _ hz2, readAt_unit_zero (S := S512x256) _ _ hz2, readAt_unit_zero (S := S256x256) _ _ hz2, readAt_unit_zero (S := S1x256) _ _ hz2, readAt_unit_zero (S := S256x1) _ _ hz2]

/-! ## The inputs' staging buffers hold their blocks at every point

Windows 0, 3 and 4 are fetched at the first point only and windows 1 and 2 at every point; a window not fetched at a
point has not moved its block index since the point before, where the body left the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The region invariant: the two accumulators at their named contents -/

/-- The core's scoped buffers that are neither a staging buffer of this region nor one of the two accumulators,
    each at some contents. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the region is entered with: the accumulators at anything, the other scoped buffers, the generator register. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ rest1 c)
          ∗ (∃ r, prngReg c r)) := by
  unfold Pipeline.ΦA
  rw [Pipeline.scopedRest_split_of_list spec1 c [cc1_scratch0, cc1_scratch1] (by decide) (by decide)]
  simp only [scM1_0, scM1_1, owns_whole]; try rfl

/-- The invariant before point `n`: at the first point what the region is entered with; afterwards the feature
    accumulator and the row-sum accumulator at what point `n - 1` left in them, the other scoped buffers at anything,
    the generator register at some state. -/
def Phi1 (c : Dev nD) : (n : ℕ) → n ≤ cfg1.N → sProp 𝕄
  | 0, _ => Pipeline.ΦA spec1 c
  | n + 1, hn => iprop(((owns (c : Thread nD τ) scM1_0 fullShare (accO V c n hn) ∗ owns (c : Thread nD τ) scM1_1 fullShare (accS V c n hn)) ∗ rest1 c)
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(((owns (c : Thread nD τ) scM1_0 fullShare (accO V c n hn) ∗ owns (c : Thread nD τ) scM1_1 fullShare (accS V c n hn)) ∗ rest1 c)
      ∗ (∃ r, prngReg c r)) := rfl

theorem Phi1_pos (c : Dev nD) (n : ℕ) (h : n ≤ cfg1.N) (hz : n ≠ 0) :
    Phi1 V c n h = iprop(((owns (c : Thread nD τ) scM1_0 fullShare (accO V c (n - 1) (by omega)) ∗ owns (c : Thread nD τ) scM1_1 fullShare (accS V c (n - 1) (by omega))) ∗ rest1 c)
      ∗ (∃ r, prngReg c r)) := by
  cases n with
  | zero => exact absurd rfl hz
  | succ n => rfl

/-- At any point the invariant gives back what the region was entered with: the accumulators' contents forgotten. -/
theorem Phi1_forget (c : Dev nD) (n : ℕ) (h : n ≤ cfg1.N) : Phi1 V c n h ⊢ Pipeline.ΦA spec1 c := by
  cases n with
  | zero => exact Idealize.SL.BI.Entails.refl _
  | succ n =>
    rw [Phi1_succ, PhiA1_eq]
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outO V c t
    | ⟨6, _⟩ => outS V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outO V c t := by dsimp only [dat1]
theorem after1_6 (c : Dev nD) (t : Fin cfg1.N) : (dat1 V c).after 6 t = outS V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- The resources the body starts from at point `t`: the invariant, the core's debts, and each window's current
    staging buffer at what it holds there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- The resources it must end with: the next invariant, the same debts, each buffer at what the body leaves in it. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the step `t % 32` says which run applies. At step 0
    the accumulators' contents are irrelevant (they are reset) and the outputs are idle; at the middle steps the
    accumulators hold what the point before left and the outputs are idle; at step 31 the outputs, held at anything,
    are stored whole. The accumulators go back into the invariant at this point's contents; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 64 := lt_of_lt_of_eq t.isLt (show cfg1.N = 64 from N_1)
  by_cases h0 : t.val % 32 = 0
  · have h1 : ¬ t.val % 32 = 31 := by omega
    rw [Dat.leavesExact_idle (dat1 V c) 5 t (idleAt1_5 t h1) (noFlush1_5 t h1),
      Dat.leavesExact_idle (dat1 V c) 6 t (idleAt1_6 t h1) (noFlush1_6 t h1)]
    rw [accO_reset V c t h0, accS_reset V c t h0]
    unfold stepO stepS
    rw [Phi1_castSucc V c t]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := ((Phi1_forget V c t.val (Nat.le_of_lt t.isLt)).trans (PhiA1_eq c).le) $$ HΦ
    icases HΦ' with ⟨⟨⟨HS0, HS1⟩, HR⟩, Hg⟩
    iapply (run1_first c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _)
    · isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]
            · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun e => h0 (by rw [e])
    rw [accO_carry V c t h0, accS_carry V c t h0]
    by_cases h1 : t.val % 32 = 31
    · rw [show (dat1 V c).leavesExact 5 t = owns (c : Thread nD τ) (st1_5 t) fullShare ((dat1 V c).after 5 t) from by
        unfold Dat.leavesExact; rw [liveAt1_5 t h1], after1_5]
      rw [show (dat1 V c).leavesExact 6 t = owns (c : Thread nD τ) (st1_6 t) fullShare ((dat1 V c).after 6 t) from by
        unfold Dat.leavesExact; rw [liveAt1_6 t h1], after1_6]
      unfold outO outS
      rw [accO_carry V c t h0, accS_carry V c t h0]
      unfold stepO stepS
      rw [Phi1_castSucc V c t, Phi1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_last c Set.univ (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]
            · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 5 t (idleAt1_5 t h1) (noFlush1_5 t h1),
        Dat.leavesExact_idle (dat1 V c) 6 t (idleAt1_6 t h1) (noFlush1_6 t h1)]
      unfold stepO stepS
      rw [Phi1_castSucc V c t, Phi1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_mid c Set.univ (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]
            · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- Every point of the grid satisfies the obligation: the seven windows spelt out, then the point's run. -/
theorem body_obligation1 (c : Dev nD) : BodyObligation (dat1 (F := F) V c) (defs₀ (F := F)) Variants.none () Set.univ := fun t => by
  rw [bigSep_W1, bigSep_W1]
  exact sound_body1 V c t

/-- Entering the region establishes the invariant at point 0 (it is the entry resources themselves). -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- Leaving the region after point 63: the accumulators' named contents are dropped, the entry resources restored. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact Phi1_forget V c _ _

end Cert.KernelIdeal.Hand

end
-- ==== Proof.Run.lean ====
/-
  The run of the whole program: @main is region 0 (the product g), a reshape of the bias, region 1 (the two
  partial aggregates per half of the edge axis) and three stretches of host operations that add the halves and
  normalize. Between two items every unscoped buffer is held at named contents: the launch memory, then what each
  region's write-backs leave in its arrays, then each host stretch's results. Each region is entered from the
  contents before it and left at the contents after it; its invariant carries the scratch accumulators.
-/
import proofs.«164392_j1580547965681_2_alg».proof.Proof.Body0
import proofs.«164392_j1580547965681_2_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between @main's items -/

/-- Core `c`'s buffers at launch (region 0 is entered from them). -/
abbrev W0 : Dev nD → Valuation τ sig (Elt F) := fun c b => m ((c : Dev nD), b)
abbrev V0 : (c : Dev nD) → (b : Ref sig .tc) → Buf (Elt F) ((c : Thread nD τ).loc b) := fun c b => W0 m c b
/-- At region 0's exit: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the reshape of the bias (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the three stretches of host operations that combine the two halves and normalize. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m) c
    unfold Pipeline.ΦA at h
    rw [show (pdats m 0 c).Φ 0 = (dat0 (V0 m) c).Φ 0 from rfl]
    iintro ⟨Hp, -, Hr⟩
    iapply h
    isplitl [Hr]; · iexact Hr
    iexact Hp
  hout c := by
    have h := hout0 (V0 m) c
    unfold Pipeline.ΦA at h
    rw [Pipeline.ownSems0_none, show (pdats m 0 c).Φ (Fin.last _) = (dat0 (V0 m) c).Φ (Fin.last cfg0.N) from rfl]
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m) c
    unfold Pipeline.ΦA at h
    rw [show (pdats m 1 c).Φ 0 = (dat1 (V2 m) c).Φ 0 from rfl]
    iintro ⟨Hp, -, Hr⟩
    iapply h
    isplitl [Hr]; · iexact Hr
    iexact Hp
  hout c := by
    have h := hout1 (V2 m) c
    unfold Pipeline.ΦA at h
    rw [Pipeline.ownSems0_none, show (pdats m 1 c).Φ (Fin.last _) = (dat1 (V2 m) c).Φ (Fin.last cfg1.N) from rfl]
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor

/-- @main's six items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.Frame.lean ====
/-
  The frame of the program, at any float instance: no item of @main writes an argument array. A host stretch
  writes only its own results; a region leaves every buffer that is not one of its arrays alone, and leaves its
  input arrays as it found them; so each argument read at the last boundary is its launch contents.
-/
import proofs.«164392_j1580547965681_2_alg».proof.Proof.Run
import proofs.«164392_j1580547965681_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## What no item writes: the arguments, and each region's inputs, reach every later boundary unchanged -/

section Kept
variable {F : FTy → Type} [FloatOps F] (m : (ℓ : Loc nD τ sig) → Buf (Elt F) ℓ) (c : Dev nD)

theorem W2_of (r : Ref sig .tc) (h : r ∉ hostOps1_W) : W2 m c r = W1 m c r :=
  StableHlo.after_of_writes_sub hostOps1 _ hostOps1_writes h
theorem W4_of (r : Ref sig .tc) (h : r ∉ hostOps2_W) : W4 m c r = W3 m c r :=
  StableHlo.after_of_writes_sub hostOps2 _ hostOps2_writes h
theorem W5_of (r : Ref sig .tc) (h : r ∉ hostOps2_1_W) : W5 m c r = W4 m c r :=
  StableHlo.after_of_writes_sub hostOps2_1 _ hostOps2_1_writes h
theorem W6_of (r : Ref sig .tc) (h : r ∉ hostOps2_2_W) : W6 m c r = W5 m c r :=
  StableHlo.after_of_writes_sub hostOps2_2 _ hostOps2_2_writes h

/-- Region 0's two inputs leave it as they entered. -/
theorem W1_in0 : W1 m c (Proc.devRef .tc main_arg0) = m ((c : Thread nD τ).loc main_arg0) :=
  (W1_arr m c 0).trans (((dat0 (V0 m) c).arrAt_in 0 rfl _).trans (A_eq0 (V0 m) c 0))
theorem W1_in1 : W1 m c (Proc.devRef .tc main_arg1) = m ((c : Thread nD τ).loc main_arg1) :=
  (W1_arr m c 1).trans (((dat0 (V0 m) c).arrAt_in 1 rfl _).trans (A_eq0 (V0 m) c 1))
/-- Region 1's five inputs leave it as they entered. -/
theorem W3_in (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

theorem W6_main_arg0 : W6 m c (Proc.devRef .tc main_arg0) = m ((c : Thread nD τ).loc main_arg0) :=
  (W6_of m c main_arg0 (by decide)).trans <| (W5_of m c main_arg0 (by decide)).trans <| (W4_of m c main_arg0 (by decide)).trans <|
    (W3_of_ne m c main_arg0 (by decide)).trans <| (W2_of m c main_arg0 (by decide)).trans (W1_in0 m c)
theorem W6_main_arg1 : W6 m c (Proc.devRef .tc main_arg1) = m ((c : Thread nD τ).loc main_arg1) :=
  (W6_of m c main_arg1 (by decide)).trans <| (W5_of m c main_arg1 (by decide)).trans <| (W4_of m c main_arg1 (by decide)).trans <|
    (W3_of_ne m c main_arg1 (by decide)).trans <| (W2_of m c main_arg1 (by decide)).trans (W1_in1 m c)
theorem W2_main_arg2 : W2 m c (Proc.devRef .tc main_arg2) = m ((c : Thread nD τ).loc main_arg2) :=
  (W2_of m c main_arg2 (by decide)).trans (W1_of_ne m c main_arg2 (by decide))
theorem W2_main_arg3 : W2 m c (Proc.devRef .tc main_arg3) = m ((c : Thread nD τ).loc main_arg3) :=
  (W2_of m c main_arg3 (by decide)).trans (W1_of_ne m c main_arg3 (by decide))
theorem W2_main_arg4 : W2 m c (Proc.devRef .tc main_arg4) = m ((c : Thread nD τ).loc main_arg4) :=
  (W2_of m c main_arg4 (by decide)).trans (W1_of_ne m c main_arg4 (by decide))
theorem W6_main_arg2 : W6 m c (Proc.devRef .tc main_arg2) = m ((c : Thread nD τ).loc main_arg2) :=
  (W6_of m c main_arg2 (by decide)).trans <| (W5_of m c main_arg2 (by decide)).trans <| (W4_of m c main_arg2 (by decide)).trans <|
    (W3_in m c 1 rfl).trans (W2_main_arg2 m c)
theorem W6_main_arg3 : W6 m c (Proc.devRef .tc main_arg3) = m ((c : Thread nD τ).loc main_arg3) :=
  (W6_of m c main_arg3 (by decide)).trans <| (W5_of m c main_arg3 (by decide)).trans <| (W4_of m c main_arg3 (by decide)).trans <|
    (W3_in m c 2 rfl).trans (W2_main_arg3 m c)
theorem W6_main_arg4 : W6 m c (Proc.devRef .tc main_arg4) = m ((c : Thread nD τ).loc main_arg4) :=
  (W6_of m c main_arg4 (by decide)).trans <| (W5_of m c main_arg4 (by decide)).trans <| (W4_of m c main_arg4 (by decide)).trans <|
    (W3_in m c 3 rfl).trans (W2_main_arg4 m c)
theorem W6_main_arg5 : W6 m c (Proc.devRef .tc main_arg5) = m ((c : Thread nD τ).loc main_arg5) :=
  (W6_of m c main_arg5 (by decide)).trans <| (W5_of m c main_arg5 (by decide)).trans <| (W4_of m c main_arg5 (by decide)).trans <|
    (W3_of_ne m c main_arg5 (by decide)).trans <| (W2_of m c main_arg5 (by decide)).trans (W1_of_ne m c main_arg5 (by decide))

/-- THE FRAME at any instance: the run ends with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Kept

end Cert.KernelIdeal.Hand

end
-- ==== Proof.Spec.lean ====
/-
  What both programs compute, as one function of the six argument arrays over the extended reals.

  With en [256, 4096], adj [4096, 4096], inc [4096, 32768], ef [32768, 256], w [256, 256], bias [256]:
    g  b n = Σ_m en b m · adj m n                      the query edges' one-hop neighbourhoods
    be b e = Σ_n g b n · inc n e                       how many endpoints of edge e lie in row b's neighbourhood
    sel b e = 1 if be b e = 2, else 0                  edge e is selected for row b
    h  e k = Σ_d ef e d · w d k + bias k               the transformed edge features
    rowSum b = Σ_e sel b e
    inv r  = 1 / r if r > 0, else 0
    out b k = (Σ_e sel b e · h e k) · inv (rowSum b)
  The arrays are curried functions of literal `Fin` coordinates; `cur2` / `cur1` read a shaped array that way.
-/
import Idealize.ShloMosaic.PureOps.Ideal
import Idealize.ShloMosaic.Lib.ValueIdx

noncomputable section

namespace Cert.Spec

open Idealize.ShloMosaic
open scoped BigOperators

/-- The float words the programs mention, at their exact values. -/
def two : EReal := Ideal.ofBits .f32 0x40000000#32
def zero : EReal := Ideal.ofBits .f32 0x00000000#32
def one : EReal := Ideal.ofBits .f32 0x3F800000#32

/-- The indicator of "x is exactly two", as an extended real 0 or 1. -/
def ind (x : EReal) : EReal := (((Ideal.cmp .oeq x two).toNat : ℝ) : EReal)

/-- The guarded reciprocal of a row sum. -/
def inv (r : EReal) : EReal := Scalar.select (Ideal.cmp .ogt r zero) (Ideal.div one r) zero

/-- A rank-2 array as a curried function of its two coordinates, and a rank-1 array of its one. -/
abbrev cur2 {n0 n1 : Nat} (x : (⟨2, ![n0, n1]⟩ : Shape).Idx → EReal) : Fin n0 → Fin n1 → EReal :=
  fun a b => x (ValueIdx.ix2 a b)
abbrev cur1 {n : Nat} (x : (⟨1, ![n]⟩ : Shape).Idx → EReal) : Fin n → EReal :=
  fun a => x (ValueIdx.ix1 a)

section
variable (en : Fin 256 → Fin 4096 → EReal) (adj : Fin 4096 → Fin 4096 → EReal)
  (gg : Fin 256 → Fin 4096 → EReal) (inc : Fin 4096 → Fin 32768 → EReal)
  (ef : Fin 32768 → Fin 256 → EReal) (w : Fin 256 → Fin 256 → EReal) (bias : Fin 256 → EReal)

def g (b : Fin 256) (n : Fin 4096) : EReal := ∑ m : Fin 4096, en b m * adj m n
/-- From here on over ANY neighbourhood matrix `gg` (region 1 of the kernel reads it from a buffer). -/
def be (b : Fin 256) (e : Fin 32768) : EReal := ∑ n : Fin 4096, gg b n * inc n e
def sel (b : Fin 256) (e : Fin 32768) : EReal := ind (be gg inc b e)
def h (e : Fin 32768) (k : Fin 256) : EReal := (∑ d : Fin 256, ef e d * w d k) + bias k
def rowSum (b : Fin 256) : EReal := ∑ e : Fin 32768, sel gg inc b e
/-- The unnormalized aggregate. -/
def agg (b : Fin 256) (k : Fin 256) : EReal := ∑ e : Fin 32768, sel gg inc b e * h ef w bias e k
/-- The result. -/
def out (b : Fin 256) (k : Fin 256) : EReal :=
  agg (g en adj) inc ef w bias b k * inv (rowSum (g en adj) inc b)
end

/-- The result as an array of shape [256, 256], from the six argument arrays. -/
def G (x0 : (⟨2, ![256, 4096]⟩ : Shape).Idx → EReal) (x1 : (⟨2, ![4096, 4096]⟩ : Shape).Idx → EReal)
    (x2 : (⟨2, ![4096, 32768]⟩ : Shape).Idx → EReal) (x3 : (⟨2, ![32768, 256]⟩ : Shape).Idx → EReal)
    (x4 : (⟨2, ![256, 256]⟩ : Shape).Idx → EReal) (x5 : (⟨1, ![256]⟩ : Shape).Idx → EReal) :
    (⟨2, ![256, 256]⟩ : Shape).Idx → EReal :=
  fun i => out (cur2 x0) (cur2 x1) (cur2 x2) (cur2 x3) (cur2 x4) (cur1 x5) (i 0) (i 1)

end Cert.Spec

end
-- ==== Proof.LibSumAlgebra.lean ====
/-
  Sum algebra on the extended reals (and on any additive commutative monoid) used to join a
  tiled sum to a whole-matrix sum.

  Two facts, neither of which needs any finiteness:

  * n equal summands t * c with n * c = 1 add up to t, for EVERY extended real t (also the two
    infinities): a sum of n equal terms is n • (t * c) = (n : EReal) * (t * c), and
    multiplication on the extended reals is commutative and associative, so this is
    t * (n * c) = t * 1.  No distributivity is used.

  * a sum over an index range of length m * n is the sum over its m consecutive blocks of
    length n of the sums over each block; twice, for a matrix cut into square tiles.  This holds
    in any additive commutative monoid, because a finite sum may be reindexed along a bijection
    and the order of two finite sums may be exchanged.
-/
import Idealize.ShloMosaic.PureOps.Ideal

noncomputable section

namespace Cert.LibSumAlgebra

open scoped BigOperators

/-! ## Equal summands whose scale undoes their number -/

/-- Over a finite index type ι, the constant summand t * c adds up to t as soon as
    (card ι) * c = 1 in the extended reals.  True for every t, the infinities included:
    only commutativity and associativity of the product are used. -/
theorem sum_const_mul_eq {ι : Type*} [Fintype ι] (t c : EReal)
    (h : ((Fintype.card ι : ℕ) : EReal) * c = 1) :
    ∑ _i : ι, t * c = t := by
  rw [Finset.sum_const, Finset.card_univ, EReal.nsmul_eq_mul, mul_left_comm, h, mul_one]

/-- The same over two nested finite sums: card ι * card κ equal summands. -/
theorem sum_sum_const_mul_eq {ι κ : Type*} [Fintype ι] [Fintype κ] (t c : EReal)
    (h : (((Fintype.card ι * Fintype.card κ : ℕ)) : EReal) * c = 1) :
    ∑ _i : ι, ∑ _j : κ, t * c = t := by
  rw [← Finset.sum_product', Finset.univ_product_univ]
  exact sum_const_mul_eq (ι := ι × κ) t c (by rw [Fintype.card_prod]; exact h)

/-- 1024 * 2^(-10) = 1 in the extended reals. -/
theorem nat1024_mul_two_pow_neg_ten :
    ((1024 : ℕ) : EReal) * (((2 : ℝ) ^ (-10 : Int) : ℝ) : EReal) = 1 := by
  have h : ((1024 : ℕ) : EReal) = ((1024 : ℝ) : EReal) := by norm_cast
  rw [h, ← EReal.coe_mul]
  norm_num

/-- 1024 copies of t * 2^(-10), indexed by Fin 1024, add up to t. -/
theorem sum_fin1024_mul_two_pow_neg_ten (t : EReal) :
    ∑ _i : Fin 1024, t * (((2 : ℝ) ^ (-10 : Int) : ℝ) : EReal) = t :=
  sum_const_mul_eq t _ (by rw [Fintype.card_fin]; exact nat1024_mul_two_pow_neg_ten)

/-- 8 × 128 copies of t * 2^(-10), as two nested sums, add up to t. -/
theorem sum_fin8_fin128_mul_two_pow_neg_ten (t : EReal) :
    ∑ _p : Fin 8, ∑ _q : Fin 128, t * (((2 : ℝ) ^ (-10 : Int) : ℝ) : EReal) = t :=
  sum_sum_const_mul_eq t _ (by
    rw [Fintype.card_fin, Fintype.card_fin]; exact nat1024_mul_two_pow_neg_ten)

/-! ## A sum over a range as the sum over its consecutive blocks -/

/-- Position r of block b, of m blocks of length n, lies in the range of length m * n. -/
theorem block_lt {m n : ℕ} (b : Fin m) (r : Fin n) : b.val * n + r.val < m * n := by
  have h1 : b.val * n + r.val < (b.val + 1) * n := by
    rw [Nat.add_mul, Nat.one_mul]; exact Nat.add_lt_add_left r.isLt _
  exact lt_of_lt_of_le h1 (Nat.mul_le_mul_right n b.isLt)

variable {M : Type*} [AddCommMonoid M]

/-- A sum over Fin (m * n) is the sum over the m blocks of the sum over each block's n
    positions: position r of block b is the index b * n + r. -/
theorem sum_blocks (m n : ℕ) (g : Fin (m * n) → M) :
    ∑ b : Fin m, ∑ r : Fin n, g ⟨b.val * n + r.val, block_lt b r⟩ = ∑ i : Fin (m * n), g i := by
  rw [← Finset.sum_product', Finset.univ_product_univ]
  refine Fintype.sum_equiv finProdFinEquiv _ _ (fun x => ?_)
  refine congrArg g (Fin.ext ?_)
  show x.1.val * n + x.2.val = x.2.val + n * x.1.val
  rw [Nat.mul_comm, Nat.add_comm]

/-- The same for the literal sizes of a range of 4096 cut into 8 blocks of 512. -/
theorem sum_blocks_8_512 (g : Fin 4096 → M) :
    ∑ b : Fin 8, ∑ r : Fin 512, g ⟨b.val * 512 + r.val, block_lt (m := 8) (n := 512) b r⟩
      = ∑ i : Fin 4096, g i :=
  sum_blocks 8 512 g

/-- A 4096 × 4096 matrix summed tile by tile over its 8 × 8 grid of 512 × 512 tiles is the
    sum of all its entries: entry (r, c) of tile (bi, bj) is entry
    (bi * 512 + r, bj * 512 + c) of the matrix. -/
theorem sum_tiles_8_512 (f : Fin 4096 → Fin 4096 → M) :
    ∑ bi : Fin 8, ∑ bj : Fin 8, ∑ r : Fin 512, ∑ c : Fin 512,
        f ⟨bi.val * 512 + r.val, block_lt (m := 8) (n := 512) bi r⟩
          ⟨bj.val * 512 + c.val, block_lt (m := 8) (n := 512) bj c⟩
      = ∑ i : Fin 4096, ∑ j : Fin 4096, f i j := by
  rw [← sum_blocks_8_512 (fun i => ∑ j : Fin 4096, f i j)]
  refine Finset.sum_congr rfl fun bi _ => ?_
  rw [Finset.sum_comm]
  refine Finset.sum_congr rfl fun r _ => ?_
  exact sum_blocks_8_512 (fun j => f ⟨bi.val * 512 + r.val, block_lt (m := 8) (n := 512) bi r⟩ j)

end Cert.LibSumAlgebra

end
-- ==== Proof.Val0.lean ====
/-
  Region 0 at the ideal instance: the result array is the product of the two argument arrays.

  At a point that writes the output back (reduction step 3 of its column tile q) the output block is the
  accumulator rounded, and over the extended reals rounding is the identity. The accumulator there is the
  fold of its run of four points: zero, plus at each point 4q + s the product of that point's two input
  blocks, whose element (p, j) is Σ_{l < 1024} en (p, 1024 s + l) · adj (1024 s + l, 1024 q + j) — the first
  input's block sits at block index (0, s) of its array, the second's at (s, q), the output's at (0, q).
  The four block sums of length 1024 join into the sum over the whole contraction range of 4096, which is
  the (p, 1024 q + j) element of the product. The output's blocks at the writing points tile the
  [256, 4096] array, so the array ends at the product everywhere.
-/
import proofs.«164392_j1580547965681_2_alg».proof.Proof.Body0
import proofs.«164392_j1580547965681_2_alg».proof.Proof.Spec
import proofs.«164392_j1580547965681_2_alg».proof.Proof.LibSumAlgebra
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators

/-! ## The accumulation step at an index -/

/-- The product's operand indices at output index (p, r) and contraction index k are (p, k) and (k, r). -/
theorem lhs0_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs0_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs0_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs0_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- One point's update at element (p, r), over the extended reals: what the accumulator held there plus the inner0
    product of row p of the first block with column r of the second (the narrowing of the operands is the identity). -/
theorem pay0_apply (x0 : Vec Ideal S256x1024 .f32) (x1 : Vec Ideal S1024x1024 .f32) (prev : Vec Ideal S256x1024 .f32)
    (p : Fin 256) (r : Fin 1024) :
    k0_pay2 (F := Ideal) x0 x1 prev (ix2 p r) = prev (ix2 p r) + ∑ l : Fin 1024, x0 (ix2 p l) * x1 (ix2 l r) := by
  unfold k0_pay2
  simp only [shapeCast_self]
  show prev (ix2 p r) + matmul (F := Ideal) dot_S256x1024_S1024x1024_S256x1024_1_0_0_1_n_n none (truncf .bf16 x0 bitsLt_bf16_f32) (truncf .bf16 x1 bitsLt_bf16_f32) (constant (F := Ideal) S256x1024 .f32 0x00000000#32) (ix2 p r) = _
  simp only [matmul]
  rw [Ideal.matmul_constant_zero_apply, ← Equiv.sum_comp (contrEquiv1 dot_S256x1024_S1024x1024_S256x1024_1_0_0_1_n_n 1024 rfl rfl).symm]
  refine congrArg (prev (ix2 p r) + ·) (Finset.sum_congr rfl fun k _ => ?_)
  have hk := contrEquiv1_symm_val dot_S256x1024_S1024x1024_S256x1024_1_0_0_1_n_n 1024 rfl rfl k
  have el : dot_S256x1024_S1024x1024_S256x1024_1_0_0_1_n_n.lhsIdx (ix2 p r) ((contrEquiv1 dot_S256x1024_S1024x1024_S256x1024_1_0_0_1_n_n 1024 rfl rfl).symm k) = ix2 p k := funext fun a => Fin.ext (by
    match a with
    | ⟨0, _⟩ => exact lhs0_0 _ _
    | ⟨1, _⟩ => exact (lhs0_1 _ _).trans hk)
  have er : dot_S256x1024_S1024x1024_S256x1024_1_0_0_1_n_n.rhsIdx (ix2 p r) ((contrEquiv1 dot_S256x1024_S1024x1024_S256x1024_1_0_0_1_n_n 1024 rfl rfl).symm k) = ix2 k r := funext fun a => Fin.ext (by
    match a with
    | ⟨0, _⟩ => exact (rhs0_0 _ _).trans hk
    | ⟨1, _⟩ => exact rhs0_1 _ _)
  show x0 (dot_S256x1024_S1024x1024_S256x1024_1_0_0_1_n_n.lhsIdx (ix2 p r) _) * x1 (dot_S256x1024_S1024x1024_S256x1024_1_0_0_1_n_n.rhsIdx (ix2 p r) _) = _
  rw [el, er]

/-- Row `i 0` of a [256, 1024] block against column `i 1` of a [1024, 1024] block. -/
def inner0 (x0 : Vec Ideal S256x1024 .f32) (x1 : Vec Ideal S1024x1024 .f32) (i : S256x1024.Idx) : EReal :=
  ∑ l : Fin 1024, x0 (ix2 (i 0) l) * x1 (ix2 l (i 1))

theorem inner0_apply (x0 : Vec Ideal S256x1024 .f32) (x1 : Vec Ideal S1024x1024 .f32) (p : Fin 256) (r : Fin 1024) :
    inner0 x0 x1 (ix2 p r) = ∑ l : Fin 1024, x0 (ix2 p l) * x1 (ix2 l r) := rfl

/-- The update, with the inner0 product named. -/
theorem pay0_inner (x0 : Vec Ideal S256x1024 .f32) (x1 : Vec Ideal S1024x1024 .f32) (prev : Vec Ideal S256x1024 .f32)
    (p : Fin 256) (r : Fin 1024) :
    k0_pay2 (F := Ideal) x0 x1 prev (ix2 p r) = prev (ix2 p r) + inner0 x0 x1 (ix2 p r) :=
  pay0_apply x0 x1 prev p r

/-- The reset payload is the zero block. -/
theorem zero0_apply (i : S256x1024.Idx) : k0_pay1 (F := Ideal) i = 0 := by
  unfold k0_pay1
  simp only [shapeCast_self]
  exact Ideal.ofBits_zero_f32

/-! ## Where the blocks sit in their arrays -/

/-- The three windows' block indices at a point, decided over the grid: the first input's block moves along its
    columns with the reduction step, the second input's along its rows with the reduction step and along its columns
    with the column tile, the output's along its columns with the column tile. -/
theorem idx_facts0 : ∀ t : Fin cfg0.N, win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4 :=
  (by decide +kernel : ∀ t : Fin grid0.N, _)

variable (V : (c : Dev nD) → (b : Ref sig .tc) → Buf (Elt Ideal) ((c : Thread nD τ).loc b))

/-- Position `l` of block `s`, of the 4 blocks of 1024 that make up a range of 4096. -/
abbrev blkPos0 (s : ℕ) (hs : s < 4) (l : Fin 1024) : Fin 4096 := ⟨s * 1024 + l.val, by have := l.isLt; omega⟩

theorem blkPos0_congr {s s' : ℕ} (h : s = s') (hs : s < 4) (hs' : s' < 4) (l : Fin 1024) : blkPos0 s hs l = blkPos0 s' hs' l := by
  subst h; rfl

/-- A point's reduction step and column tile are below 4. -/
theorem step0_lt (t : Fin cfg0.N) : t.val % 4 < 4 := Nat.mod_lt _ (by decide)
theorem tile0_lt (t : Fin cfg0.N) : t.val / 4 < 4 := by
  have hN : t.val < 16 := lt_of_lt_of_eq t.isLt N_0
  omega

/-- The first input's block at point `t` is rows 0 … 255, columns of block `t % 4`, of its array. -/
theorem blk0_apply (c : Dev nD) (t : Fin cfg0.N) (p : Fin 256) (l : Fin 1024) :
    iblk0 V c 0 t (ix2 p l) = Cert.Spec.cur2 (V c main_arg0) p (blkPos0 (t.val % 4) (step0_lt t) l) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 256 + 1 * p.val = p.val; rw [e0]; omega
  | ⟨1, _⟩ => show win0_0.index t (1 : Fin 2) * 1024 + 1 * l.val = t.val % 4 * 1024 + l.val; rw [e1]; omega

/-- The second input's block at point `t` is rows of block `t % 4`, columns of block `t / 4`, of its array. -/
theorem blk1_apply (c : Dev nD) (t : Fin cfg0.N) (l : Fin 1024) (r : Fin 1024) :
    iblk0 V c 1 t (ix2 l r) = Cert.Spec.cur2 (V c main_arg1) (blkPos0 (t.val % 4) (step0_lt t) l) (blkPos0 (t.val / 4) (tile0_lt t) r) := by
  obtain ⟨-, -, e2, e3, -⟩ := idx_facts0 t
  unfold iblk0
  rw [View.read_apply]
  show V c main_arg1 _ = V c main_arg1 _
  congr 1
  funext a
  apply Fin.ext
  match a with
  | ⟨0, _⟩ => show win0_1.index t (0 : Fin 2) * 1024 + 1 * l.val = t.val % 4 * 1024 + l.val; rw [e2]; omega
  | ⟨1, _⟩ => show win0_1.index t (1 : Fin 2) * 1024 + 1 * r.val = t.val / 4 * 1024 + r.val; rw [e3]; omega

/-! ## The accumulator as a sum over its run of points -/

/-- Point `n`'s addend at an element: the inner0 product of the point's two blocks there (zero past the grid). -/
def add0 (c : Dev nD) (n : ℕ) (i : S256x1024.Idx) : EReal :=
  if h : n < cfg0.N then inner0 (iblk0 V c 0 ⟨n, h⟩) (iblk0 V c 1 ⟨n, h⟩) i else 0

/-- One point's update adds the point's addend to what the accumulator held. -/
theorem step0_apply (c : Dev nD) (n : ℕ) (h : n < cfg0.N) (prev : Vec Ideal S256x1024 .f32) (i : S256x1024.Idx) :
    step0 V c ⟨n, h⟩ prev i = prev i + add0 V c n i := by
  obtain ⟨p, r, rfl⟩ : ∃ (p : Fin 256) (r : Fin 1024), i = ix2 p r := ⟨i 0, i 1, eq_ix2 i⟩
  unfold step0 add0
  rw [dif_pos h]
  exact pay0_inner _ _ prev p r

/-- The accumulator after point `t` is the sum of the addends of its run of points, from the run's first point
    `4 · (t / 4)` up to `t`: it is reset to zero plus the first addend there and each later point adds its own. -/
theorem acc0_apply (c : Dev nD) (t : Fin cfg0.N) (i : S256x1024.Idx) :
    acc0 V c t.val t.isLt i = 0 + ∑ s ∈ Finset.range (t.val % 4 + 1), add0 V c (4 * (t.val / 4) + s) i := by
  have h' : 4 * (t.val / 4) + t.val % 4 < cfg0.N := by rw [Nat.div_add_mod]; exact t.isLt
  rw [Pipeline.eq_accAt_of_mod (acc0 V c) 4 (fun n h => step0 V c ⟨n, h⟩ (k0_pay1 (F := Ideal))) (fun n h prev => step0 V c ⟨n, h⟩ prev)
    (fun n h hn => acc0_reset V c ⟨n, h⟩ hn) (fun n h hn => acc0_carry V c ⟨n + 1, h⟩ hn) (by decide) t.val t.isLt h']
  exact Pipeline.accAt_add_apply (β := EReal) _ _ (fun _ => 0) (add0 V c) (4 * (t.val / 4)) 3
    (fun h i => by rw [step0_apply, zero0_apply])
    (fun n h acc i _ _ => step0_apply V c n h acc i)
    (t.val % 4) (by have := step0_lt t; omega) h' i

/-! ## From the blocks to the array -/

/-- What the region computes, as contents of its result array: the product of the two argument arrays. -/
def G0 (c : Dev nD) : S256x4096.Idx → EReal :=
  fun i => Cert.Spec.g (Cert.Spec.cur2 (V c main_arg0)) (Cert.Spec.cur2 (V c main_arg1)) (i 0) (i 1)

/-- What a point that writes the output back writes is its block of `G0`: the point is the last of its run, so the
    accumulator is the sum of the four addends of the run, and the four block sums of length 1024 join into the sum
    over the whole contraction range of 4096. -/
theorem flushed0_eq (c : Dev nD) (t : Fin cfg0.N) (hf : (cfg0.win 2).flush t = true) :
    (dat0 (F := Ideal) V c).flushed 2 t = ((cfg0.win 2).blk t).view.read (Elt Ideal) (G0 V c) := by
  have h3 : t.val % 4 = 3 := (flush0_2 t).mp hf
  have hN : t.val < 16 := lt_of_lt_of_eq t.isLt N_0
  obtain ⟨-, -, -, -, e4, e5⟩ := idx_facts0 t
  show (cfg0.win 2).cut (grid0.coords t) ((dat0 (F := Ideal) V c).after 2 t) = _
  rw [after0_2]
  funext j
  obtain ⟨p, r, rfl⟩ : ∃ (p : Fin 256) (r : Fin 1024), j = ix2 p r := ⟨j 0, j 1, eq_ix2 j⟩
  rw [View.read_apply]
  have hemb : ((cfg0.win 2).blk t).view.emb (ix2 p r) = ix2 p (blkPos0 (t.val / 4) (tile0_lt t) r) := by
    funext a
    apply Fin.ext
    match a with
    | ⟨0, _⟩ => show win0_2.index t (0 : Fin 2) * 256 + 1 * p.val = p.val; rw [e4]; omega
    | ⟨1, _⟩ => show win0_2.index t (1 : Fin 2) * 1024 + 1 * r.val = t.val / 4 * 1024 + r.val; rw [e5]; omega
  show acc0 V c t.val t.isLt (ix2 p r) = G0 V c (((cfg0.win 2).blk t).view.emb (ix2 p r))
  rw [hemb, acc0_apply V c t (ix2 p r), h3, zero_add, Finset.sum_range]
  show _ = ∑ m : Fin 4096, Cert.Spec.cur2 (V c main_arg0) p m * Cert.Spec.cur2 (V c main_arg1) m (blkPos0 (t.val / 4) (tile0_lt t) r)
  rw [← Cert.LibSumAlgebra.sum_blocks 4 1024 (fun m : Fin 4096 => Cert.Spec.cur2 (V c main_arg0) p m * Cert.Spec.cur2 (V c main_arg1) m (blkPos0 (t.val / 4) (tile0_lt t) r))]
  refine Finset.sum_congr rfl fun s _ => ?_
  have hs : s.val < 4 := s.isLt
  have hlt : 4 * (t.val / 4) + s.val < cfg0.N := lt_of_lt_of_eq (show 4 * (t.val / 4) + s.val < 16 by omega) N_0.symm
  have hm : (4 * (t.val / 4) + s.val) % 4 = s.val := by omega
  have hd : (4 * (t.val / 4) + s.val) / 4 = t.val / 4 := by omega
  unfold add0
  rw [dif_pos hlt]
  refine (inner0_apply _ _ p r).trans (Finset.sum_congr rfl fun l _ => ?_)
  rw [blk0_apply V c ⟨4 * (t.val / 4) + s.val, hlt⟩ p l, blk1_apply V c ⟨4 * (t.val / 4) + s.val, hlt⟩ l r]
  rw [blkPos0_congr hm _ s.isLt l, blkPos0_congr hd _ (tile0_lt t) r]

/-- An index of the result array is in point `t`'s block iff each coordinate is in the block's range on its axis. -/
theorem mem_blk0 (t : Fin cfg0.N) (i : S256x4096.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v0).slice (win0_2.rect t)).set ↔ _
  rw [View.set_slice_whole, Rect.mem_set_unit]
  exact Iff.rfl

/-- Every index of the result array is in the block of a point that writes back: column `n` lies in column tile
    `n / 1024`, whose last point is `4 · (n / 1024) + 3`. -/
theorem cover0 (i : S256x4096.Idx) : ∃ t : Fin cfg0.N, (cfg0.win 2).flush t = true ∧ i ∈ ((cfg0.win 2).blk t).view.set := by
  have hi0 : (i 0).val < 256 := (i 0).isLt
  have hi1 : (i 1).val < 4096 := (i 1).isLt
  have hlt : 4 * ((i 1).val / 1024) + 3 < cfg0.N := lt_of_lt_of_eq (show 4 * ((i 1).val / 1024) + 3 < 16 by omega) N_0.symm
  refine ⟨⟨4 * ((i 1).val / 1024) + 3, hlt⟩, (flush0_2 _).mpr (by show (4 * ((i 1).val / 1024) + 3) % 4 = 3; omega), ?_⟩
  obtain ⟨-, -, -, -, e4, e5⟩ := idx_facts0 ⟨4 * ((i 1).val / 1024) + 3, hlt⟩
  rw [mem_blk0]
  intro a
  match a with
  | ⟨0, _⟩ =>
    show win0_2.index _ (0 : Fin 2) * 256 ≤ (i 0).val ∧ (i 0).val < win0_2.index _ (0 : Fin 2) * 256 + 256
    rw [e4]; omega
  | ⟨1, _⟩ =>
    show win0_2.index _ (1 : Fin 2) * 1024 ≤ (i 1).val ∧ (i 1).val < win0_2.index _ (1 : Fin 2) * 1024 + 1024
    rw [e5]
    show (4 * ((i 1).val / 1024) + 3) / 4 * 1024 ≤ (i 1).val ∧ (i 1).val < (4 * ((i 1).val / 1024) + 3) / 4 * 1024 + 1024
    omega

/-- The result array after the region: the product of the two argument arrays as the region found them, element by
    element. -/
theorem arrAt0_val (V : (c : Dev nD) → (b : Ref sig .tc) → Buf (Elt Ideal) ((c : Thread nD τ).loc b)) (c : Dev nD) (b : Fin 256) (n : Fin 4096) :
    (dat0 (F := Ideal) V c).arrAt 2 cfg0.N (ValueIdx.ix2 b n)
      = Cert.Spec.g (Cert.Spec.cur2 (V c main_arg0)) (Cert.Spec.cur2 (V c main_arg1)) b n :=
  congrFun ((dat0 (F := Ideal) V c).arrAt_eq_of_cover 2 (G0 V c) (flushed0_eq V c) cover0) (ValueIdx.ix2 b n)

end Cert.KernelIdeal.Hand

end
-- ==== Proof.Val1.lean ====
/-
  Region 1 (the streamed aggregation over edge tiles): what its two output arrays hold when it ends.

  Point t of the 2 × 32 grid reads the whole neighbourhood matrix g [256, 4096], the 512 incidence
  columns and the 512 edge-feature rows from t * 512 on, the weights and the bias. Its tile mask is
    sel b e' = 1 if Σ_n g b n · inc n (t * 512 + e') = 2, else 0,
  and its transformed features are h e' k = Σ_d ef (t * 512 + e') d · w d k + bias k. It adds
  Σ_e' sel b e' to row b of one accumulator and Σ_e' sel b e' · h e' k to entry (b, k) of the other;
  both start from zero at t % 32 = 0 and are copied to slab t / 32 of the two outputs at t % 32 = 31.
  So slab hh of each output is the sum over the 32 tiles of half hh, and 32 tiles of 512 columns are
  the 16384 columns hh * 16384 … hh * 16384 + 16383 of the edge axis. Only commutativity and
  associativity of + are used (a sum regrouped into consecutive blocks), and 0 + x = x.
-/
import proofs.«164392_j1580547965681_2_alg».proof.Proof.Half1
import proofs.«164392_j1580547965681_2_alg».proof.Proof.Spec
import proofs.«164392_j1580547965681_2_alg».proof.Proof.LibSumAlgebra
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## The three products of the body, entry by entry

Each is a product into a zero accumulator, so its entry (p, q) is the sum over the contracted
coordinate j of l (p, j) · r (j, q). -/

theorem mm_be_l0 (i : S256x512.Idx) (q : dot_S256x4096_S4096x512_S256x512_1_0_0_1_n_n.contr.Idx) : (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem mm_be_l1 (i : S256x512.Idx) (q : dot_S256x4096_S4096x512_S256x512_1_0_0_1_n_n.contr.Idx) : (dot_S256x4096_S4096x512_S256x512_1_0_0_1_n_n.lhsIdx i q 1).val = (q ⟨0, by decide⟩).val :=
  dot_S256x4096_S4096x512_S256x512_1_0_0_1_n_n.lhsIdx_val_of_single rfl i q
theorem mm_be_r0 (i : S256x512.Idx) (q : dot_S256x4096_S4096x512_S256x512_1_0_0_1_n_n.contr.Idx) : (dot_S256x4096_S4096x512_S256x512_1_0_0_1_n_n.rhsIdx i q 0).val = (q ⟨0, by decide⟩).val :=
  dot_S256x4096_S4096x512_S256x512_1_0_0_1_n_n.rhsIdx_val_of_single rfl i q
theorem mm_be_r1 (i : S256x512.Idx) (q : dot_S256x4096_S4096x512_S256x512_1_0_0_1_n_n.contr.Idx) : (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl
/-- The neighbourhood rows against an incidence tile: entry (b, e) counts, with weights, the endpoints of tile column e in row b's neighbourhood. -/
theorem mm_be (l : FVec Ideal S256x4096 .bf16) (r : FVec Ideal S4096x512 .bf16) (p : Fin 256) (q : Fin 512) :
    matmul (F := Ideal) dot_S256x4096_S4096x512_S256x512_1_0_0_1_n_n none l r (constant (F := Ideal) S256x512 .f32 0x00000000#32) (ix2 p q)
      = ∑ j : Fin 4096, l (ix2 p j) * r (ix2 j q) := by
  show FloatOps.matmul dot_S256x4096_S4096x512_S256x512_1_0_0_1_n_n none l r (constant (F := Ideal) S256x512 .f32 0x00000000#32) (ix2 p q) = _
  rw [Ideal.matmul_constant_zero_apply, ← Equiv.sum_comp (ValueIdx.contrEquiv1 dot_S256x4096_S4096x512_S256x512_1_0_0_1_n_n 4096 rfl rfl).symm]
  refine Finset.sum_congr rfl fun j _ => ?_
  have hj := ValueIdx.contrEquiv1_symm_val dot_S256x4096_S4096x512_S256x512_1_0_0_1_n_n 4096 rfl rfl j
  have el : dot_S256x4096_S4096x512_S256x512_1_0_0_1_n_n.lhsIdx (ix2 p q) ((ValueIdx.contrEquiv1 dot_S256x4096_S4096x512_S256x512_1_0_0_1_n_n 4096 rfl rfl).symm j) = ix2 p j := funext fun a => Fin.ext (by
    match a with
    | ⟨0, _⟩ => exact mm_be_l0 _ _
    | ⟨1, _⟩ => exact (mm_be_l1 _ _).trans hj)
  have er : dot_S256x4096_S4096x512_S256x512_1_0_0_1_n_n.rhsIdx (ix2 p q) ((ValueIdx.contrEquiv1 dot_S256x4096_S4096x512_S256x512_1_0_0_1_n_n 4096 rfl rfl).symm j) = ix2 j q := funext fun a => Fin.ext (by
    match a with
    | ⟨0, _⟩ => exact (mm_be_r0 _ _).trans hj
    | ⟨1, _⟩ => exact mm_be_r1 _ _)
  rw [el, er]

theorem mm_h_l0 (i : S512x256.Idx) (q : dot_S512x256_S256x256_S512x256_1_0_0_1_n_n.contr.Idx) : (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem mm_h_l1 (i : S512x256.Idx) (q : dot_S512x256_S256x256_S512x256_1_0_0_1_n_n.contr.Idx) : (dot_S512x256_S256x256_S512x256_1_0_0_1_n_n.lhsIdx i q 1).val = (q ⟨0, by decide⟩).val :=
  dot_S512x256_S256x256_S512x256_1_0_0_1_n_n.lhsIdx_val_of_single rfl i q
theorem mm_h_r0 (i : S512x256.Idx) (q : dot_S512x256_S256x256_S512x256_1_0_0_1_n_n.contr.Idx) : (dot_S512x256_S256x256_S512x256_1_0_0_1_n_n.rhsIdx i q 0).val = (q ⟨0, by decide⟩).val :=
  dot_S512x256_S256x256_S512x256_1_0_0_1_n_n.rhsIdx_val_of_single rfl i q
theorem mm_h_r1 (i : S512x256.Idx) (q : dot_S512x256_S256x256_S512x256_1_0_0_1_n_n.contr.Idx) : (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl
/-- A tile of edge features against the weight matrix. -/
theorem mm_h (l : FVec Ideal S512x256 .bf16) (r : FVec Ideal S256x256 .bf16) (p : Fin 512) (q : Fin 256) :
    matmul (F := Ideal) dot_S512x256_S256x256_S512x256_1_0_0_1_n_n none l r (constant (F := Ideal) S512x256 .f32 0x00000000#32) (ix2 p q)
      = ∑ j : Fin 256, l (ix2 p j) * r (ix2 j q) := by
  show FloatOps.matmul dot_S512x256_S256x256_S512x256_1_0_0_1_n_n none l r (constant (F := Ideal) S512x256 .f32 0x00000000#32) (ix2 p q) = _
  rw [Ideal.matmul_constant_zero_apply, ← Equiv.sum_comp (ValueIdx.contrEquiv1 dot_S512x256_S256x256_S512x256_1_0_0_1_n_n 256 rfl rfl).symm]
  refine Finset.sum_congr rfl fun j _ => ?_
  have hj := ValueIdx.contrEquiv1_symm_val dot_S512x256_S256x256_S512x256_1_0_0_1_n_n 256 rfl rfl j
  have el : dot_S512x256_S256x256_S512x256_1_0_0_1_n_n.lhsIdx (ix2 p q) ((ValueIdx.contrEquiv1 dot_S512x256_S256x256_S512x256_1_0_0_1_n_n 256 rfl rfl).symm j) = ix2 p j := funext fun a => Fin.ext (by
    match a with
    | ⟨0, _⟩ => exact mm_h_l0 _ _
    | ⟨1, _⟩ => exact (mm_h_l1 _ _).trans hj)
  have er : dot_S512x256_S256x256_S512x256_1_0_0_1_n_n.rhsIdx (ix2 p q) ((ValueIdx.contrEquiv1 dot_S512x256_S256x256_S512x256_1_0_0_1_n_n 256 rfl rfl).symm j) = ix2 j q := funext fun a => Fin.ext (by
    match a with
    | ⟨0, _⟩ => exact (mm_h_r0 _ _).trans hj
    | ⟨1, _⟩ => exact mm_h_r1 _ _)
  rw [el, er]

theorem mm_o_l0 (i : S256x256.Idx) (q : dot_S256x512_S512x256_S256x256_1_0_0_1_n_n.contr.Idx) : (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem mm_o_l1 (i : S256x256.Idx) (q : dot_S256x512_S512x256_S256x256_1_0_0_1_n_n.contr.Idx) : (dot_S256x512_S512x256_S256x256_1_0_0_1_n_n.lhsIdx i q 1).val = (q ⟨0, by decide⟩).val :=
  dot_S256x512_S512x256_S256x256_1_0_0_1_n_n.lhsIdx_val_of_single rfl i q
theorem mm_o_r0 (i : S256x256.Idx) (q : dot_S256x512_S512x256_S256x256_1_0_0_1_n_n.contr.Idx) : (dot_S256x512_S512x256_S256x256_1_0_0_1_n_n.rhsIdx i q 0).val = (q ⟨0, by decide⟩).val :=
  dot_S256x512_S512x256_S256x256_1_0_0_1_n_n.rhsIdx_val_of_single rfl i q
theorem mm_o_r1 (i : S256x256.Idx) (q : dot_S256x512_S512x256_S256x256_1_0_0_1_n_n.contr.Idx) : (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl
/-- The selection mask of a tile against the tile's transformed features. -/
theorem mm_o (l : FVec Ideal S256x512 .bf16) (r : FVec Ideal S512x256 .bf16) (p : Fin 256) (q : Fin 256) :
    matmul (F := Ideal) dot_S256x512_S512x256_S256x256_1_0_0_1_n_n none l r (constant (F := Ideal) S256x256 .f32 0x00000000#32) (ix2 p q)
      = ∑ j : Fin 512, l (ix2 p j) * r (ix2 j q) := by
  show FloatOps.matmul dot_S256x512_S512x256_S256x256_1_0_0_1_n_n none l r (constant (F := Ideal) S256x256 .f32 0x00000000#32) (ix2 p q) = _
  rw [Ideal.matmul_constant_zero_apply, ← Equiv.sum_comp (ValueIdx.contrEquiv1 dot_S256x512_S512x256_S256x256_1_0_0_1_n_n 512 rfl rfl).symm]
  refine Finset.sum_congr rfl fun j _ => ?_
  have hj := ValueIdx.contrEquiv1_symm_val dot_S256x512_S512x256_S256x256_1_0_0_1_n_n 512 rfl rfl j
  have el : dot_S256x512_S512x256_S256x256_1_0_0_1_n_n.lhsIdx (ix2 p q) ((ValueIdx.contrEquiv1 dot_S256x512_S512x256_S256x256_1_0_0_1_n_n 512 rfl rfl).symm j) = ix2 p j := funext fun a => Fin.ext (by
    match a with
    | ⟨0, _⟩ => exact mm_o_l0 _ _
    | ⟨1, _⟩ => exact (mm_o_l1 _ _).trans hj)
  have er : dot_S256x512_S512x256_S256x256_1_0_0_1_n_n.rhsIdx (ix2 p q) ((ValueIdx.contrEquiv1 dot_S256x512_S512x256_S256x256_1_0_0_1_n_n 512 rfl rfl).symm j) = ix2 j q := funext fun a => Fin.ext (by
    match a with
    | ⟨0, _⟩ => exact (mm_o_r0 _ _).trans hj
    | ⟨1, _⟩ => exact mm_o_r1 _ _)
  rw [el, er]

/-! ## The selection mask and the two accumulator updates, entry by entry -/

/-- A one-bit word widened to 32 bits and read signed is the bit as a number. -/
theorem toInt_setWidth_one : ∀ b : BitVec 1, (b.setWidth 32).toInt = (b.toNat : ℤ) := by decide

/-- The comparison word of the tile: entry (b, e) says whether the count of row b at tile column e is exactly two. -/
theorem pay6_apply (x0 : Vec Ideal S256x4096 .bf16) (x1 : Vec Ideal S4096x512 .f32) (b : Fin 256) (e : Fin 512) :
    k1_pay6 (F := Ideal) x0 x1 (ix2 b e)
      = Ideal.cmp .oeq (∑ n : Fin 4096, x0 (ix2 b n) * x1 (ix2 n e)) Cert.Spec.two := by
  have e0 : shapeCast S256x4096 x0 shapeCasts_S256x4096_S256x4096 = x0 := shapeCast_self _ _
  have h := mm_be (shapeCast S256x4096 x0 shapeCasts_S256x4096_S256x4096) (truncf .bf16 x1 bitsLt_bf16_f32) b e
  refine (congrArg (fun z => Ideal.cmp .oeq z Cert.Spec.two) h).trans ?_
  rw [e0]
  rfl

/-- The mask as a float: 1 where the count is two, 0 elsewhere. -/
theorem mask_apply (x0 : Vec Ideal S256x4096 .bf16) (x1 : Vec Ideal S4096x512 .f32) (b : Fin 256) (e : Fin 512) :
    (sitofp .f32 (extui 32 (k1_pay6 (F := Ideal) x0 x1) natLt_1_32) : FVec Ideal S256x512 .f32) (ix2 b e)
      = Cert.Spec.ind (∑ n : Fin 4096, x0 (ix2 b n) * x1 (ix2 n e)) := by
  show ((((k1_pay6 (F := Ideal) x0 x1 (ix2 b e)).setWidth 32).toInt : ℝ) : EReal) = _
  rw [toInt_setWidth_one, pay6_apply]
  unfold Cert.Spec.ind
  norm_cast

theorem pay7_apply (x0 : Vec Ideal S256x4096 .bf16) (x1 : Vec Ideal S4096x512 .f32) (b : Fin 256) (e : Fin 512) :
    k1_pay7 (F := Ideal) x0 x1 (ix2 b e) = Cert.Spec.ind (∑ n : Fin 4096, x0 (ix2 b n) * x1 (ix2 n e)) :=
  mask_apply x0 x1 b e

/-- A vector of length a viewed as a column [a, 1] reads its entry b at (b, 0). -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the 512 columns of a [256, 512] tile, at row b. -/
theorem rowsum_apply (src : FVec Ideal S256x512 .f32) (hφ : FKind.Formats .f32)
    (hacc : (0x00000000#32 : BitVec 32) = FKind.add.neutral .f32 hφ) (b : Fin 256) :
    multiReduction (F := Ideal) .add [1] S256 src 0x00000000#32 reduces_S256x512_S256 hφ hacc (ix1 b)
      = ∑ e : Fin 512, src (ix2 b e) := by
  refine (Ideal.multiReduction_add_single src 0x00000000#32 reduces_S256x512_S256 hφ hacc (ix1 b)).trans ?_
  refine Finset.sum_congr rfl fun e _ => congrArg src (funext fun a => Fin.ext ?_)
  match a with
  | ⟨0, _⟩ => rfl
  | ⟨1, _⟩ => rfl

/-- One point's update of the row-sum accumulator: row b gains the number of selected columns of the tile. -/
theorem pay8_apply (x0 : Vec Ideal S256x4096 .bf16) (x1 : Vec Ideal S4096x512 .f32) (prev : Vec Ideal S256x1 .f32) (b : Fin 256) :
    k1_pay8 (F := Ideal) x0 x1 prev (ix2 b (0 : Fin 1))
      = prev (ix2 b (0 : Fin 1)) + ∑ e : Fin 512, Cert.Spec.ind (∑ n : Fin 4096, x0 (ix2 b n) * x1 (ix2 n e)) := by
  have h1 : k1_pay8 (F := Ideal) x0 x1 prev
      = addf prev (shapeCast S256x1 (multiReduction (F := Ideal) .add [1] S256
          (sitofp .f32 (extui 32 (k1_pay6 (F := Ideal) x0 x1) natLt_1_32)) 0x00000000#32 reduces_S256x512_S256 (.inl rfl) rfl)
          shapeCasts_S256_S256x1) := shapeCast_self _ _
  rw [h1]
  refine congrArg (prev (ix2 b (0 : Fin 1)) + ·) ?_
  refine (shapeCast_a_a1_apply _ _ b 0).trans ?_
  refine (rowsum_apply _ _ _ b).trans ?_
  exact Finset.sum_congr rfl fun e _ => mask_apply x0 x1 b e

/-- A tile's transformed edge features: row e of the tile against the weights, plus the bias. -/
theorem pay9_apply (x2 : Vec Ideal S512x256 .f32) (x3 : Vec Ideal S256x256 .f32) (x4 : Vec Ideal S1x256 .f32)
    (e : Fin 512) (k : Fin 256) :
    k1_pay9 (F := Ideal) x2 x3 x4 (ix2 e k)
      = (∑ d : Fin 256, x2 (ix2 e d) * x3 (ix2 d k)) + x4 (ix2 (0 : Fin 1) k) := by
  have hm := mm_h (truncf .bf16 x2 bitsLt_bf16_f32) (truncf .bf16 x3 bitsLt_bf16_f32) e k
  have hb : broadcastTo S512x256 (shapeCast S1x256 x4 shapeCasts_S1x256_S1x256) broadcasts_S1x256_S512x256 (ix2 e k)
      = x4 (ix2 (0 : Fin 1) k) := by
    rw [shapeCast_self]
    exact broadcastTo_1b_ab_apply x4 _ e k
  exact congrArg₂ (· + ·) hm hb

/-- One point's update of the feature accumulator. -/
theorem pay1_apply (m : FVec Ideal S256x512 .bf16) (h : FVec Ideal S512x256 .bf16) (prev : Vec Ideal S256x256 .f32)
    (b : Fin 256) (k : Fin 256) :
    k1_pay1 (F := Ideal) m h prev (constant (F := Ideal) S256x256 .f32 0x00000000#32) (ix2 b k)
      = prev (ix2 b k) + ∑ e : Fin 512, m (ix2 b e) * h (ix2 e k) := by
  have h1 : k1_pay1 (F := Ideal) m h prev (constant (F := Ideal) S256x256 .f32 0x00000000#32)
      = addf prev (matmul (F := Ideal) dot_S256x512_S512x256_S256x256_1_0_0_1_n_n none m h
          (constant (F := Ideal) S256x256 .f32 0x00000000#32)) := shapeCast_self _ _
  rw [h1]
  exact congrArg (prev (ix2 b k) + ·) (mm_o m h b k)

/-- The two reset values are zero everywhere. -/
theorem pay4_apply (b : Fin 256) (k : Fin 256) : k1_pay4 (F := Ideal) (ix2 b k) = 0 := by
  have h1 : k1_pay4 (F := Ideal) = broadcast S256x256 (Scalar.ofBits (F := Ideal) .f32 0x00000000#32) := shapeCast_self _ _
  rw [h1]
  exact Ideal.ofBits_zero_f32

theorem pay5_apply (b : Fin 256) (z : Fin 1) : k1_pay5 (F := Ideal) (ix2 b z) = 0 := by
  have h1 : k1_pay5 (F := Ideal) = broadcast S256x1 (Scalar.ofBits (F := Ideal) .f32 0x00000000#32) := shapeCast_self _ _
  rw [h1]
  exact Ideal.ofBits_zero_f32

/-- The copies to the output blocks only add a leading axis of length one. -/
theorem pay2_apply (v : Vec Ideal S256x256 .f32) (u : Fin 1) (b : Fin 256) (k : Fin 256) :
    k1_pay2 (F := Ideal) v (ix3 u b k) = v (ix2 b k) :=
  shapeCast_ab_1ab_apply v shapeCasts_S256x256_S1x256x256 u b k

theorem pay3_apply (v : Vec Ideal S256x1 .f32) (u : Fin 1) (b : Fin 256) (z : Fin 1) :
    k1_pay3 (F := Ideal) v (ix3 u b z) = v (ix2 b z) :=
  shapeCast_ab_1ab_apply v shapeCasts_S256x1_S1x256x1 u b z

/-! ## The input blocks of a point, read off the entry buffers

The neighbourhood matrix, the weights and the bias are whole-array windows; the incidence block of
point t is the 512 columns from t * 512 on, the edge-feature block the 512 rows from t * 512 on. -/

section
variable (V : (c : Dev nD) → (b : Ref sig .tc) → Buf (Elt Ideal) ((c : Thread nD τ).loc b)) (c : Dev nD)

/-- the entry buffers as curried functions -/
abbrev gg1 : Fin 256 → Fin 4096 → EReal := Cert.Spec.cur2 (V c main_v0)
abbrev inc1 : Fin 4096 → Fin 32768 → EReal := Cert.Spec.cur2 (V c main_arg2)
abbrev ef1 : Fin 32768 → Fin 256 → EReal := Cert.Spec.cur2 (V c main_arg3)
abbrev w1 : Fin 256 → Fin 256 → EReal := Cert.Spec.cur2 (V c main_arg4)
abbrev bias1 : Fin 256 → EReal := fun k => V c main_v1 (ValueIdx.ix2 (0 : Fin 1) k)

/-- The block indices of the seven windows at every point of the 2 × 32 grid. -/
theorem idx1 : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 32 ∧ win1_5.index t (1 : Fin 3) = 0 ∧ win1_5.index t (2 : Fin 3) = 0
    ∧ win1_6.index t (0 : Fin 3) = t.val / 32 ∧ win1_6.index t (1 : Fin 3) = 0 ∧ win1_6.index t (2 : Fin 3) = 0 :=
  (by decide +kernel : ∀ t : Fin grid1.N, _)

/-- Column e of the tile of point t, as a column of the whole edge axis. -/
def tileCol (t : ℕ) (e : Fin 512) : Fin 32768 :=
  ⟨(t % 64) * 512 + e.val, by have := e.isLt; have := Nat.mod_lt t (by decide : 0 < 64); omega⟩

theorem iblk_g (t : Fin cfg1.N) (b : Fin 256) (n : Fin 4096) :
    (iblk1 V c 0 t : Vec Ideal S256x4096 .bf16) (ix2 b n) = gg1 V c b n := by
  obtain ⟨h0, h1, -⟩ := idx1 t
  unfold iblk1
  rw [View.read_apply]
  show V c main_v0 _ = V c main_v0 _
  congr 1
  funext a
  apply Fin.ext
  match a with
  | ⟨0, _⟩ => show win1_0.index t (0 : Fin 2) * 256 + 1 * b.val = b.val; rw [h0]; omega
  | ⟨1, _⟩ => show win1_0.index t (1 : Fin 2) * 4096 + 1 * n.val = n.val; rw [h1]; omega

theorem iblk_inc (t : Fin cfg1.N) (n : Fin 4096) (e : Fin 512) :
    (iblk1 V c 1 t : Vec Ideal S4096x512 .f32) (ix2 n e) = inc1 V c n (tileCol t.val e) := by
  obtain ⟨-, -, h0, h1, -⟩ := idx1 t
  have hN : cfg1.N = 64 := N_1
  have ht : t.val % 64 = t.val := Nat.mod_eq_of_lt (hN ▸ t.isLt)
  unfold iblk1
  rw [View.read_apply]
  show V c main_arg2 _ = V c main_arg2 _
  congr 1
  funext a
  apply Fin.ext
  match a with
  | ⟨0, _⟩ => show win1_1.index t (0 : Fin 2) * 4096 + 1 * n.val = n.val; rw [h0]; omega
  | ⟨1, _⟩ => show win1_1.index t (1 : Fin 2) * 512 + 1 * e.val = (t.val % 64) * 512 + e.val; rw [h1, ht]; omega

theorem iblk_ef (t : Fin cfg1.N) (e : Fin 512) (d : Fin 256) :
    (iblk1 V c 2 t : Vec Ideal S512x256 .f32) (ix2 e d) = ef1 V c (tileCol t.val e) d := by
  obtain ⟨-, -, -, -, h0, h1, -⟩ := idx1 t
  have hN : cfg1.N = 64 := N_1
  have ht : t.val % 64 = t.val := Nat.mod_eq_of_lt (hN ▸ t.isLt)
  unfold iblk1
  rw [View.read_apply]
  show V c main_arg3 _ = V c main_arg3 _
  congr 1
  funext a
  apply Fin.ext
  match a with
  | ⟨0, _⟩ => show win1_2.index t (0 : Fin 2) * 512 + 1 * e.val = (t.val % 64) * 512 + e.val; rw [h0, ht]; omega
  | ⟨1, _⟩ => show win1_2.index t (1 : Fin 2) * 256 + 1 * d.val = d.val; rw [h1]; omega

theorem iblk_w (t : Fin cfg1.N) (d : Fin 256) (k : Fin 256) :
    (iblk1 V c 3 t : Vec Ideal S256x256 .f32) (ix2 d k) = w1 V c d k := by
  obtain ⟨-, -, -, -, -, -, h0, h1, -⟩ := idx1 t
  unfold iblk1
  rw [View.read_apply]
  show V c main_arg4 _ = V c main_arg4 _
  congr 1
  funext a
  apply Fin.ext
  match a with
  | ⟨0, _⟩ => show win1_3.index t (0 : Fin 2) * 256 + 1 * d.val = d.val; rw [h0]; omega
  | ⟨1, _⟩ => show win1_3.index t (1 : Fin 2) * 256 + 1 * k.val = k.val; rw [h1]; omega

theorem iblk_bias (t : Fin cfg1.N) (k : Fin 256) :
    (iblk1 V c 4 t : Vec Ideal S1x256 .f32) (ix2 (0 : Fin 1) k) = bias1 V c k := by
  obtain ⟨-, -, -, -, -, -, -, -, h0, h1, -⟩ := idx1 t
  unfold iblk1
  rw [View.read_apply]
  show V c main_v1 _ = V c main_v1 _
  congr 1
  funext a
  apply Fin.ext
  match a with
  | ⟨0, _⟩ => show win1_4.index t (0 : Fin 2) * 1 + 1 * 0 = 0; rw [h0]
  | ⟨1, _⟩ => show win1_4.index t (1 : Fin 2) * 256 + 1 * k.val = k.val; rw [h1]; omega
end

/-! ## One point's two updates in terms of the entry buffers, and the fold over a half of the edge axis -/

section
variable (V : (c : Dev nD) → (b : Ref sig .tc) → Buf (Elt Ideal) ((c : Thread nD τ).loc b)) (c : Dev nD)

/-- What point t adds to row b of the row-sum accumulator: the number of selected columns of its tile. -/
def addS (t : ℕ) (b : Fin 256) : EReal :=
  ∑ e : Fin 512, Cert.Spec.sel (gg1 V c) (inc1 V c) b (tileCol t e)

/-- What point t adds to entry (b, k) of the feature accumulator. -/
def addO (t : ℕ) (b : Fin 256) (k : Fin 256) : EReal :=
  ∑ e : Fin 512, Cert.Spec.sel (gg1 V c) (inc1 V c) b (tileCol t e)
    * Cert.Spec.h (ef1 V c) (w1 V c) (bias1 V c) (tileCol t e) k

/-- A tile's mask entry, once its two blocks are read off the entry buffers. -/
theorem sel_tile (t : ℕ) (b : Fin 256) (e : Fin 512) (x0 : Vec Ideal S256x4096 .bf16) (x1 : Vec Ideal S4096x512 .f32)
    (h0 : ∀ n : Fin 4096, x0 (ix2 b n) = gg1 V c b n) (h1 : ∀ n : Fin 4096, x1 (ix2 n e) = inc1 V c n (tileCol t e)) :
    Cert.Spec.ind (∑ n : Fin 4096, x0 (ix2 b n) * x1 (ix2 n e))
      = Cert.Spec.sel (gg1 V c) (inc1 V c) b (tileCol t e) := by
  unfold Cert.Spec.sel Cert.Spec.be
  refine congrArg Cert.Spec.ind (Finset.sum_congr rfl fun n _ => ?_)
  rw [h0 n, h1 n]

/-- A tile's transformed feature entry, likewise. -/
theorem h_tile (t : ℕ) (e : Fin 512) (k : Fin 256) (x2 : Vec Ideal S512x256 .f32) (x3 : Vec Ideal S256x256 .f32)
    (x4 : Vec Ideal S1x256 .f32) (h2 : ∀ d : Fin 256, x2 (ix2 e d) = ef1 V c (tileCol t e) d)
    (h3 : ∀ d : Fin 256, x3 (ix2 d k) = w1 V c d k) (h4 : x4 (ix2 (0 : Fin 1) k) = bias1 V c k) :
    (∑ d : Fin 256, x2 (ix2 e d) * x3 (ix2 d k)) + x4 (ix2 (0 : Fin 1) k)
      = Cert.Spec.h (ef1 V c) (w1 V c) (bias1 V c) (tileCol t e) k := by
  unfold Cert.Spec.h
  rw [h4]
  refine congrArg (· + bias1 V c k) (Finset.sum_congr rfl fun d _ => ?_)
  rw [h2 d, h3 d]

theorem stepS_apply (t : Fin cfg1.N) (prev : Vec Ideal S256x1 .f32) (b : Fin 256) (z : Fin 1) :
    stepS V c t prev (ix2 b z) = prev (ix2 b z) + addS V c t.val b := by
  obtain rfl : z = 0 := Subsingleton.elim _ _
  unfold stepS
  refine (pay8_apply (iblk1 V c 0 t) (iblk1 V c 1 t) prev b).trans ?_
  refine congrArg (prev (ix2 b (0 : Fin 1)) + ·) ?_
  unfold addS
  exact Finset.sum_congr rfl fun e _ => sel_tile V c t.val b e (iblk1 V c 0 t) (iblk1 V c 1 t)
    (fun n => iblk_g V c t b n) (fun n => iblk_inc V c t n e)

theorem stepO_apply (t : Fin cfg1.N) (prev : Vec Ideal S256x256 .f32) (b : Fin 256) (k : Fin 256) :
    stepO V c t prev (ix2 b k) = prev (ix2 b k) + addO V c t.val b k := by
  unfold stepO
  refine (pay1_apply (k1_pay7 (iblk1 V c 0 t) (iblk1 V c 1 t)) (k1_pay9 (iblk1 V c 2 t) (iblk1 V c 3 t) (iblk1 V c 4 t)) prev b k).trans ?_
  refine congrArg (prev (ix2 b k) + ·) ?_
  unfold addO
  refine Finset.sum_congr rfl fun e _ => ?_
  refine congrArg₂ (· * ·) ((pay7_apply (iblk1 V c 0 t) (iblk1 V c 1 t) b e).trans
    (sel_tile V c t.val b e (iblk1 V c 0 t) (iblk1 V c 1 t) (fun n => iblk_g V c t b n) (fun n => iblk_inc V c t n e))) ?_
  refine (pay9_apply (iblk1 V c 2 t) (iblk1 V c 3 t) (iblk1 V c 4 t) e k).trans ?_
  exact h_tile V c t.val e k (iblk1 V c 2 t) (iblk1 V c 3 t) (iblk1 V c 4 t)
    (fun d => iblk_ef V c t e d) (fun d => iblk_w V c t d k) (iblk_bias V c t k)

/-- The row-sum accumulator after point t: the additions of the points of t's run of 32 up to t. -/
theorem accS_apply (t : Fin cfg1.N) (i : S256x1.Idx) :
    accS V c t.val t.isLt i
      = 0 + ∑ s ∈ Finset.range (t.val % 32 + 1), addS V c (32 * (t.val / 32) + s) ⟨(i 0).val, (i 0).isLt⟩ := by
  have hN : cfg1.N = 64 := N_1
  have h' : 32 * (t.val / 32) + t.val % 32 < cfg1.N := by rw [Nat.div_add_mod]; exact t.isLt
  refine (congrFun (Pipeline.eq_accAt_of_mod (fun n h => accS V c n h) 32
      (fun n h => stepS V c ⟨n, h⟩ (k1_pay5 (F := Ideal))) (fun n h acc => stepS V c ⟨n, h⟩ acc)
      (fun n h hm => accS_reset V c ⟨n, h⟩ hm) (fun n h hm => accS_carry V c ⟨n + 1, h⟩ hm) (by decide) t.val t.isLt h') i).trans ?_
  refine Pipeline.accAt_add_apply _ _ (fun _ => (0 : EReal)) (fun n (j : S256x1.Idx) => addS V c n ⟨(j 0).val, (j 0).isLt⟩)
    (32 * (t.val / 32)) 31 (fun h j => ?_) (fun n h acc j _ _ => ?_) (t.val % 32) (by omega) h' i
  · obtain ⟨p, q, rfl⟩ : ∃ (p : Fin 256) (q : Fin 1), j = ix2 p q := ⟨j 0, j 1, eq_ix2 j⟩
    refine (stepS_apply V c ⟨_, h⟩ _ p q).trans ?_
    rw [pay5_apply p q]
  · obtain ⟨p, q, rfl⟩ : ∃ (p : Fin 256) (q : Fin 1), j = ix2 p q := ⟨j 0, j 1, eq_ix2 j⟩
    exact stepS_apply V c ⟨n, h⟩ acc p q

/-- The feature accumulator after point t, likewise. -/
theorem accO_apply (t : Fin cfg1.N) (i : S256x256.Idx) :
    accO V c t.val t.isLt i
      = 0 + ∑ s ∈ Finset.range (t.val % 32 + 1),
          addO V c (32 * (t.val / 32) + s) ⟨(i 0).val, (i 0).isLt⟩ ⟨(i 1).val, (i 1).isLt⟩ := by
  have hN : cfg1.N = 64 := N_1
  have h' : 32 * (t.val / 32) + t.val % 32 < cfg1.N := by rw [Nat.div_add_mod]; exact t.isLt
  refine (congrFun (Pipeline.eq_accAt_of_mod (fun n h => accO V c n h) 32
      (fun n h => stepO V c ⟨n, h⟩ (k1_pay4 (F := Ideal))) (fun n h acc => stepO V c ⟨n, h⟩ acc)
      (fun n h hm => accO_reset V c ⟨n, h⟩ hm) (fun n h hm => accO_carry V c ⟨n + 1, h⟩ hm) (by decide) t.val t.isLt h') i).trans ?_
  refine Pipeline.accAt_add_apply _ _ (fun _ => (0 : EReal))
    (fun n (j : S256x256.Idx) => addO V c n ⟨(j 0).val, (j 0).isLt⟩ ⟨(j 1).val, (j 1).isLt⟩)
    (32 * (t.val / 32)) 31 (fun h j => ?_) (fun n h acc j _ _ => ?_) (t.val % 32) (by omega) h' i
  · obtain ⟨p, q, rfl⟩ : ∃ (p : Fin 256) (q : Fin 256), j = ix2 p q := ⟨j 0, j 1, eq_ix2 j⟩
    refine (stepO_apply V c ⟨_, h⟩ _ p q).trans ?_
    rw [pay4_apply p q]
  · obtain ⟨p, q, rfl⟩ : ∃ (p : Fin 256) (q : Fin 256), j = ix2 p q := ⟨j 0, j 1, eq_ix2 j⟩
    exact stepO_apply V c ⟨n, h⟩ acc p q

/-- The 32 tiles of half hh of the edge axis, 512 columns each, are its 16384 columns. -/
theorem join_tiles {M : Type*} [AddCommMonoid M] (hh : Fin 2) (f : Fin 32768 → M) :
    ∑ s ∈ Finset.range 32, ∑ e : Fin 512, f (tileCol (32 * hh.val + s) e)
      = ∑ e : Fin 16384, f ⟨hh.val * 16384 + e.val, Cert.LibSumAlgebra.block_lt (m := 2) (n := 16384) hh e⟩ := by
  rw [Finset.sum_range]
  refine Eq.trans ?_ (Cert.LibSumAlgebra.sum_blocks 32 512
    (fun e : Fin (32 * 512) => f ⟨hh.val * 16384 + e.val, Cert.LibSumAlgebra.block_lt (m := 2) (n := 16384) hh e⟩))
  refine Finset.sum_congr rfl fun s _ => Finset.sum_congr rfl fun e _ => congrArg f (Fin.ext ?_)
  show (32 * hh.val + s.val) % 64 * 512 + e.val = hh.val * 16384 + (s.val * 512 + e.val)
  have := hh.isLt
  have := s.isLt
  omega

/-- The totals over half hh, as functions of natural coordinates (zero outside the array). -/
def totS (hh b : ℕ) : EReal :=
  if h : hh < 2 ∧ b < 256 then
    ∑ e : Fin 16384, Cert.Spec.sel (gg1 V c) (inc1 V c) ⟨b, h.2⟩
      ⟨hh * 16384 + e.val, Cert.LibSumAlgebra.block_lt (m := 2) (n := 16384) ⟨hh, h.1⟩ e⟩
  else 0

def totO (hh b k : ℕ) : EReal :=
  if h : hh < 2 ∧ b < 256 ∧ k < 256 then
    ∑ e : Fin 16384, Cert.Spec.sel (gg1 V c) (inc1 V c) ⟨b, h.2.1⟩
        ⟨hh * 16384 + e.val, Cert.LibSumAlgebra.block_lt (m := 2) (n := 16384) ⟨hh, h.1⟩ e⟩
      * Cert.Spec.h (ef1 V c) (w1 V c) (bias1 V c)
        ⟨hh * 16384 + e.val, Cert.LibSumAlgebra.block_lt (m := 2) (n := 16384) ⟨hh, h.1⟩ e⟩ ⟨k, h.2.2⟩
  else 0

/-- What a storing point leaves in its block of the row-sum output. -/
theorem outS_apply (t : Fin cfg1.N) (ht : t.val % 32 = 31) (y : S1x256x1.Idx) :
    outS V c t y = totS V c (t.val / 32) (y 1).val := by
  have hN : cfg1.N = 64 := N_1
  have hlt : t.val < 64 := hN ▸ t.isLt
  obtain ⟨u, b, z, rfl⟩ : ∃ (u : Fin 1) (b : Fin 256) (z : Fin 1), y = ix3 u b z := ⟨y 0, y 1, y 2, eq_ix3 y⟩
  unfold outS
  refine (pay3_apply _ u b z).trans ?_
  refine (accS_apply V c t (ix2 b z)).trans ?_
  rw [zero_add, ht]
  have hh2 : t.val / 32 < 2 := by omega
  show _ = totS V c (t.val / 32) b.val
  unfold totS
  rw [dif_pos ⟨hh2, b.isLt⟩]
  exact join_tiles ⟨t.val / 32, hh2⟩ (fun e => Cert.Spec.sel (gg1 V c) (inc1 V c) b e)

/-- What a storing point leaves in its block of the feature output. -/
theorem outO_apply (t : Fin cfg1.N) (ht : t.val % 32 = 31) (y : S1x256x256.Idx) :
    outO V c t y = totO V c (t.val / 32) (y 1).val (y 2).val := by
  have hN : cfg1.N = 64 := N_1
  have hlt : t.val < 64 := hN ▸ t.isLt
  obtain ⟨u, b, k, rfl⟩ : ∃ (u : Fin 1) (b : Fin 256) (k : Fin 256), y = ix3 u b k := ⟨y 0, y 1, y 2, eq_ix3 y⟩
  unfold outO
  refine (pay2_apply _ u b k).trans ?_
  refine (accO_apply V c t (ix2 b k)).trans ?_
  rw [zero_add, ht]
  have hh2 : t.val / 32 < 2 := by omega
  show _ = totO V c (t.val / 32) b.val k.val
  unfold totO
  rw [dif_pos ⟨hh2, b.isLt, k.isLt⟩]
  exact join_tiles ⟨t.val / 32, hh2⟩ (fun e => Cert.Spec.sel (gg1 V c) (inc1 V c) b e
    * Cert.Spec.h (ef1 V c) (w1 V c) (bias1 V c) e k)
end

/-! ## The two output arrays when the region ends

Only the points with t % 32 = 31 write back: point 32 * hh + 31 writes slab hh of each output, and
what it writes is the total over half hh of the edge axis. -/

section
variable (V : (c : Dev nD) → (b : Ref sig .tc) → Buf (Elt Ideal) ((c : Thread nD τ).loc b)) (c : Dev nD)
  (dat : Dat τ (Elt Ideal) Unit ℕ (UR sig nD τ) ℕ cfg1 c)
  (hA : ∀ w, dat.A w = V c (Pipeline.arrRef spec1 w))
  (h5 : ∀ t, dat.after 5 t = outO V c t) (h6 : ∀ t, dat.after 6 t = outS V c t)

/-- The two output arrays' final contents, as functions of an index. -/
def finS : S2x256x1.Idx → EReal := fun i => totS V c (i 0).val (i 1).val
def finO : S2x256x256.Idx → EReal := fun i => totO V c (i 0).val (i 1).val (i 2).val

include h6 in
theorem flushed6_eq (t : Fin cfg1.N) (hf : (cfg1.win 6).flush t = true) :
    dat.flushed 6 t = ((cfg1.win 6).blk t).view.read (Elt Ideal) (finS V c) := by
  have ht : t.val % 32 = 31 := (flush1_6 t).mp hf
  obtain ⟨-, -, -, -, -, -, -, -, -, -, -, -, -, h0, h1, h2⟩ := idx1 t
  show (cfg1.win 6).cut (grid1.coords t) (dat.after 6 t) = _
  rw [h6 t]
  funext j
  have hj0 : (j 0).val < 1 := (j 0).isLt
  have e0 : ((((cfg1.win 6).blk t).view.emb j) 0).val = t.val / 32 := by
    show win1_6.index t (0 : Fin 3) * 1 + 1 * (j 0).val = _
    rw [h0]; omega
  have e1 : ((((cfg1.win 6).blk t).view.emb j) 1).val = (j 1).val := by
    show win1_6.index t (1 : Fin 3) * 256 + 1 * (j 1).val = _
    rw [h1]; omega
  refine (outS_apply V c t ht _).trans ?_
  show totS V c (t.val / 32) (j 1).val
    = totS V c ((((cfg1.win 6).blk t).view.emb j) 0).val ((((cfg1.win 6).blk t).view.emb j) 1).val
  rw [e0, e1]

include h5 in
theorem flushed5_eq (t : Fin cfg1.N) (hf : (cfg1.win 5).flush t = true) :
    dat.flushed 5 t = ((cfg1.win 5).blk t).view.read (Elt Ideal) (finO V c) := by
  have ht : t.val % 32 = 31 := (flush1_5 t).mp hf
  obtain ⟨-, -, -, -, -, -, -, -, -, -, h0, h1, h2, -⟩ := idx1 t
  show (cfg1.win 5).cut (grid1.coords t) (dat.after 5 t) = _
  rw [h5 t]
  funext j
  have hj0 : (j 0).val < 1 := (j 0).isLt
  have e0 : ((((cfg1.win 5).blk t).view.emb j) 0).val = t.val / 32 := by
    show win1_5.index t (0 : Fin 3) * 1 + 1 * (j 0).val = _
    rw [h0]; omega
  have e1 : ((((cfg1.win 5).blk t).view.emb j) 1).val = (j 1).val := by
    show win1_5.index t (1 : Fin 3) * 256 + 1 * (j 1).val = _
    rw [h1]; omega
  have e2 : ((((cfg1.win 5).blk t).view.emb j) 2).val = (j 2).val := by
    show win1_5.index t (2 : Fin 3) * 256 + 1 * (j 2).val = _
    rw [h2]; omega
  refine (outO_apply V c t ht _).trans ?_
  show totO V c (t.val / 32) (j 1).val (j 2).val
    = totO V c ((((cfg1.win 5).blk t).view.emb j) 0).val ((((cfg1.win 5).blk t).view.emb j) 1).val
        ((((cfg1.win 5).blk t).view.emb j) 2).val
  rw [e0, e1, e2]

include hA h5 h6 in
/-- Row b of slab hh of the row-sum output: the number of selected edges of half hh. -/
theorem arrAt1_6_val (hh : Fin 2) (b : Fin 256) :
    dat.arrAt 6 cfg1.N (ValueIdx.ix3 hh b (0 : Fin 1))
      = ∑ e : Fin 16384, Cert.Spec.sel (gg1 V c) (inc1 V c) b ⟨hh.val * 16384 + e.val, Cert.LibSumAlgebra.block_lt (m := 2) (n := 16384) hh e⟩ := by
  have hN : cfg1.N = 64 := N_1
  have hh2 : hh.val < 2 := hh.isLt
  have hlt : 32 * hh.val + 31 < cfg1.N := by omega
  have hf : (cfg1.win 6).flush ⟨32 * hh.val + 31, hlt⟩ = true :=
    (flush1_6 ⟨32 * hh.val + 31, hlt⟩).mpr (by show (32 * hh.val + 31) % 32 = 31; omega)
  obtain ⟨-, -, -, -, -, -, -, -, -, -, -, -, -, h0, h1, h2⟩ := idx1 ⟨32 * hh.val + 31, hlt⟩
  have hq : (32 * hh.val + 31) / 32 = hh.val := by omega
  have hmem : (ix3 hh b (0 : Fin 1) : S2x256x1.Idx) ∈ ((cfg1.win 6).blk ⟨32 * hh.val + 31, hlt⟩).view.set := by
    show _ ∈ ((View.whole main_v2_1).slice (win1_6.rect ⟨32 * hh.val + 31, hlt⟩)).set
    rw [View.set_slice_whole, Rect.mem_set_unit]
    intro a
    match a with
    | ⟨0, _⟩ =>
      show win1_6.index ⟨32 * hh.val + 31, hlt⟩ (0 : Fin 3) * 1 ≤ hh.val
        ∧ hh.val < win1_6.index ⟨32 * hh.val + 31, hlt⟩ (0 : Fin 3) * 1 + 1
      rw [h0]; show (32 * hh.val + 31) / 32 * 1 ≤ hh.val ∧ hh.val < (32 * hh.val + 31) / 32 * 1 + 1
      rw [hq]; omega
    | ⟨1, _⟩ =>
      show win1_6.index ⟨32 * hh.val + 31, hlt⟩ (1 : Fin 3) * 256 ≤ b.val
        ∧ b.val < win1_6.index ⟨32 * hh.val + 31, hlt⟩ (1 : Fin 3) * 256 + 256
      rw [h1]; have := b.isLt; omega
    | ⟨2, _⟩ =>
      show win1_6.index ⟨32 * hh.val + 31, hlt⟩ (2 : Fin 3) * 1 ≤ 0
        ∧ 0 < win1_6.index ⟨32 * hh.val + 31, hlt⟩ (2 : Fin 3) * 1 + 1
      rw [h2]; omega
  refine (dat.arrAt_apply_of_mem 6 (finS V c) (fun t hf => flushed6_eq V c dat h6 t hf) cfg1.N
    ⟨32 * hh.val + 31, hlt⟩ _ hlt hf hmem).trans ?_
  show totS V c hh.val b.val = _
  unfold totS
  rw [dif_pos ⟨hh.isLt, b.isLt⟩]

include hA h5 h6 in
/-- Entry (b, k) of slab hh of the feature output: the selected edges' transformed features of half hh, added. -/
theorem arrAt1_5_val (hh : Fin 2) (b : Fin 256) (k : Fin 256) :
    dat.arrAt 5 cfg1.N (ValueIdx.ix3 hh b k)
      = ∑ e : Fin 16384, Cert.Spec.sel (gg1 V c) (inc1 V c) b ⟨hh.val * 16384 + e.val, Cert.LibSumAlgebra.block_lt (m := 2) (n := 16384) hh e⟩
          * Cert.Spec.h (ef1 V c) (w1 V c) (bias1 V c) ⟨hh.val * 16384 + e.val, Cert.LibSumAlgebra.block_lt (m := 2) (n := 16384) hh e⟩ k := by
  have hN : cfg1.N = 64 := N_1
  have hh2 : hh.val < 2 := hh.isLt
  have hlt : 32 * hh.val + 31 < cfg1.N := by omega
  have hf : (cfg1.win 5).flush ⟨32 * hh.val + 31, hlt⟩ = true :=
    (flush1_5 ⟨32 * hh.val + 31, hlt⟩).mpr (by show (32 * hh.val + 31) % 32 = 31; omega)
  obtain ⟨-, -, -, -, -, -, -, -, -, -, h0, h1, h2, -⟩ := idx1 ⟨32 * hh.val + 31, hlt⟩
  have hq : (32 * hh.val + 31) / 32 = hh.val := by omega
  have hmem : (ix3 hh b k : S2x256x256.Idx) ∈ ((cfg1.win 5).blk ⟨32 * hh.val + 31, hlt⟩).view.set := by
    show _ ∈ ((View.whole main_v2_0).slice (win1_5.rect ⟨32 * hh.val + 31, hlt⟩)).set
    rw [View.set_slice_whole, Rect.mem_set_unit]
    intro a
    match a with
    | ⟨0, _⟩ =>
      show win1_5.index ⟨32 * hh.val + 31, hlt⟩ (0 : Fin 3) * 1 ≤ hh.val
        ∧ hh.val < win1_5.index ⟨32 * hh.val + 31, hlt⟩ (0 : Fin 3) * 1 + 1
      rw [h0]; show (32 * hh.val + 31) / 32 * 1 ≤ hh.val ∧ hh.val < (32 * hh.val + 31) / 32 * 1 + 1
      rw [hq]; omega
    | ⟨1, _⟩ =>
      show win1_5.index ⟨32 * hh.val + 31, hlt⟩ (1 : Fin 3) * 256 ≤ b.val
        ∧ b.val < win1_5.index ⟨32 * hh.val + 31, hlt⟩ (1 : Fin 3) * 256 + 256
      rw [h1]; have := b.isLt; omega
    | ⟨2, _⟩ =>
      show win1_5.index ⟨32 * hh.val + 31, hlt⟩ (2 : Fin 3) * 256 ≤ k.val
        ∧ k.val < win1_5.index ⟨32 * hh.val + 31, hlt⟩ (2 : Fin 3) * 256 + 256
      rw [h2]; have := k.isLt; omega
  refine (dat.arrAt_apply_of_mem 5 (finO V c) (fun t hf => flushed5_eq V c dat h5 t hf) cfg1.N
    ⟨32 * hh.val + 31, hlt⟩ _ hlt hf hmem).trans ?_
  show totO V c hh.val b.val k.val = _
  unfold totO
  rw [dif_pos ⟨hh.isLt, b.isLt, k.isLt⟩]
end

end Cert.KernelIdeal.Hand

end
-- ==== Proof.Tail.lean ====
/-
  The host operations of the kernel program, read over the extended reals.
  Before region 1 the bias [256] is reshaped to [1, 256]: row 0 of the result is the bias. After region 1 the two
  halves' partial aggregates [2, 256, 256] and partial row sums [2, 256, 1] are each summed over the leading axis
  from a zero word, the total row sum r is turned into its guarded reciprocal (1 / r where r > 0, else 0), broadcast
  along the feature axis, and multiplied into the summed aggregates. The composed term of those operations is one
  function of the two partial arrays; at an index it is the product of the two halves' sum with the specification's
  guarded reciprocal of the two halves' row sum.
-/
import proofs.«164392_j1580547965681_2_alg».proof.Proof.Gen.KernelIdeal.Launch
import proofs.«164392_j1580547965681_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem Idealize.ShloMosaic.StableHlo
open Cert.KernelIdeal Cert.KernelIdeal.Gen
open scoped BigOperators

section Generic
variable {F : FTy → Type} [FloatOps F]

/-- The sum of the two halves' partial aggregates, from the zero word. -/
def tailAggF (a : (⟨S2x256x256, .f32⟩ : BufTy).Contents (Elt F)) : (⟨S256x256, .f32⟩ : BufTy).Contents (Elt F) :=
  Host.reduceAdd a (constant S_ .f32 0x00000000#32) reducesTo_S2x256x256_S256x256_d0 h_S_

/-- The sum of the two halves' partial row sums, from the zero word. -/
def tailTotF (s : (⟨S2x256x1, .f32⟩ : BufTy).Contents (Elt F)) : (⟨S256x1, .f32⟩ : BufTy).Contents (Elt F) :=
  Host.reduceAdd s (constant S_ .f32 0x00000000#32) reducesTo_S2x256x1_S256x1_d0 h_S_

/-- A float word as a column of 256 copies. -/
def tailWordF (w : BitVec 32) : (⟨S256x1, .f32⟩ : BufTy).Contents (Elt F) :=
  (broadcastInDim S256x1 ![] bcast_S_S256x1 : (⟨S_, .f32⟩ : BufTy).Contents (Elt F) → (⟨S256x1, .f32⟩ : BufTy).Contents (Elt F)) (constant S_ .f32 w)

/-- The guarded reciprocal of the total row sums: 1 / r where r > 0, else 0. -/
def tailInvF (s : (⟨S2x256x1, .f32⟩ : BufTy).Contents (Elt F)) : (⟨S256x1, .f32⟩ : BufTy).Contents (Elt F) :=
  (select : (⟨S256x1, .i1⟩ : BufTy).Contents (Elt F) → (⟨S256x1, .f32⟩ : BufTy).Contents (Elt F) → (⟨S256x1, .f32⟩ : BufTy).Contents (Elt F) → (⟨S256x1, .f32⟩ : BufTy).Contents (Elt F))
    ((cmpf .ogt : (⟨S256x1, .f32⟩ : BufTy).Contents (Elt F) → (⟨S256x1, .f32⟩ : BufTy).Contents (Elt F) → (⟨S256x1, .i1⟩ : BufTy).Contents (Elt F))
      (tailTotF s) (tailWordF 0x00000000#32))
    ((Host.divf : (⟨S256x1, .f32⟩ : BufTy).Contents (Elt F) → (⟨S256x1, .f32⟩ : BufTy).Contents (Elt F) → (⟨S256x1, .f32⟩ : BufTy).Contents (Elt F))
      (tailWordF 0x3F800000#32) (tailTotF s))
    (tailWordF 0x00000000#32)

/-- The normalized aggregate: the summed aggregates times the guarded reciprocal, row by row. -/
def tailFnF (a : (⟨S2x256x256, .f32⟩ : BufTy).Contents (Elt F)) (s : (⟨S2x256x1, .f32⟩ : BufTy).Contents (Elt F)) : (⟨S256x256, .f32⟩ : BufTy).Contents (Elt F) :=
  (mulf : (⟨S256x256, .f32⟩ : BufTy).Contents (Elt F) → (⟨S256x256, .f32⟩ : BufTy).Contents (Elt F) → (⟨S256x256, .f32⟩ : BufTy).Contents (Elt F))
    (tailAggF a)
    ((broadcastInDim S256x256 ![0, 1] bcast_S256x1_S256x256_0_1 : (⟨S256x1, .f32⟩ : BufTy).Contents (Elt F) → (⟨S256x256, .f32⟩ : BufTy).Contents (Elt F)) (tailInvF s))

end Generic

/-- The operations after region 1 as ONE function of the two partial arrays, over the extended reals. -/
def tailFn (a : (⟨S2x256x256, .f32⟩ : BufTy).Contents (Elt Ideal)) (s : (⟨S2x256x1, .f32⟩ : BufTy).Contents (Elt Ideal)) : (⟨S256x256, .f32⟩ : BufTy).Contents (Elt Ideal) :=
  tailFnF (F := Ideal) a s

/-- What the program's result buffer holds after the operations that follow region 1, from any contents: the
    composed function of the two partial arrays as those contents have them. -/
theorem tail_term (X : Valuation τ sig (Elt Ideal)) :
    StableHlo.after (hostOps2_2 (F := Ideal)) (StableHlo.after (hostOps2_1 (F := Ideal)) (StableHlo.after (hostOps2 (F := Ideal)) X)) (Proc.devRef .tc main_v12)
      = tailFn (X (Proc.devRef .tc main_v2_0)) (X (Proc.devRef .tc main_v2_1)) := by
  unfold hostOps2_2 hostOps2_1 hostOps2
  after_results
  rfl

/-- The summed aggregates at an index: the two halves' entries added (the zero word adds nothing). -/
theorem tailAgg_apply (a : (⟨S2x256x256, .f32⟩ : BufTy).Contents (Elt Ideal)) (b k : Fin 256) :
    tailAggF (F := Ideal) a (ValueIdx.ix2 b k) = ∑ hh : Fin 2, a (ValueIdx.ix3 hh b k) := by
  unfold tailAggF
  simp only [Host.reduceAdd, Ideal.hostReduceAdd_def]
  rw [Ideal.hostReduceAdd_single reducesTo_S2x256x256_S256x256_d0 (by decide)]
  refine (congrArg (· + _) ((ValueIdx.constant_apply _ _).trans Ideal.ofBits_zero_f32)).trans ((zero_add _).trans ?_)
  refine Finset.sum_congr rfl fun hh _ => congrArg a (funext fun d => Fin.ext ?_)
  match d with | ⟨0, _⟩ => rfl | ⟨1, _⟩ => rfl | ⟨2, _⟩ => rfl

/-- The summed row sums at a row. -/
theorem tailTot_apply (s : (⟨S2x256x1, .f32⟩ : BufTy).Contents (Elt Ideal)) (b : Fin 256) :
    tailTotF (F := Ideal) s (ValueIdx.ix2 b (0 : Fin 1)) = ∑ hh : Fin 2, s (ValueIdx.ix3 hh b (0 : Fin 1)) := by
  unfold tailTotF
  simp only [Host.reduceAdd, Ideal.hostReduceAdd_def]
  rw [Ideal.hostReduceAdd_single reducesTo_S2x256x1_S256x1_d0 (by decide)]
  refine (congrArg (· + _) ((ValueIdx.constant_apply _ _).trans Ideal.ofBits_zero_f32)).trans ((zero_add _).trans ?_)
  refine Finset.sum_congr rfl fun hh _ => congrArg s (funext fun d => Fin.ext ?_)
  match d with | ⟨0, _⟩ => rfl | ⟨1, _⟩ => rfl | ⟨2, _⟩ => rfl

/-- A broadcast word at any index is the word's value. -/
theorem tailWord_apply (w : BitVec 32) (j : S256x1.Idx) : tailWordF (F := Ideal) w j = Ideal.ofBits .f32 w :=
  broadcastInDim_apply _ bcast_S_S256x1 (constant (F := Ideal) S_ .f32 w) j (fun a => a.elim0) (fun a => a.elim0)

/-- The guarded reciprocal at a row is the specification's, of the summed row sums. -/
theorem tailInv_apply (s : (⟨S2x256x1, .f32⟩ : BufTy).Contents (Elt Ideal)) (b : Fin 256) :
    tailInvF (F := Ideal) s (ValueIdx.ix2 b (0 : Fin 1)) = Cert.Spec.inv (∑ hh : Fin 2, s (ValueIdx.ix3 hh b (0 : Fin 1))) := by
  show Scalar.select (Ideal.cmp .ogt (tailTotF (F := Ideal) s (ValueIdx.ix2 b (0 : Fin 1))) (tailWordF (F := Ideal) 0x00000000#32 (ValueIdx.ix2 b (0 : Fin 1))))
      (Ideal.div (tailWordF (F := Ideal) 0x3F800000#32 (ValueIdx.ix2 b (0 : Fin 1))) (tailTotF (F := Ideal) s (ValueIdx.ix2 b (0 : Fin 1))))
      (tailWordF (F := Ideal) 0x00000000#32 (ValueIdx.ix2 b (0 : Fin 1))) = _
  rw [tailWord_apply, tailWord_apply, tailTot_apply]
  rfl

/-- The composed function at an index: the halves' aggregates added, times the guarded reciprocal of the halves'
    row sums added. -/
theorem tailFn_apply (a : (⟨S2x256x256, .f32⟩ : BufTy).Contents (Elt Ideal)) (s : (⟨S2x256x1, .f32⟩ : BufTy).Contents (Elt Ideal)) (b k : Fin 256) :
    tailFn a s (ValueIdx.ix2 b k) = (∑ hh : Fin 2, a (ValueIdx.ix3 hh b k)) * Cert.Spec.inv (∑ hh : Fin 2, s (ValueIdx.ix3 hh b (0 : Fin 1))) := by
  show tailAggF (F := Ideal) a (ValueIdx.ix2 b k)
      * broadcastInDim S256x256 ![0, 1] bcast_S256x1_S256x256_0_1 (tailInvF (F := Ideal) s) (ValueIdx.ix2 b k) = _
  rw [tailAgg_apply, broadcastInDim_apply _ bcast_S256x1_S256x256_0_1 (tailInvF (F := Ideal) s) (ValueIdx.ix2 b k) (ValueIdx.ix2 b (0 : Fin 1)) (fun d => match d with
      | ⟨0, _⟩ => by show b.val = if (256 : Nat) = 1 then 0 else b.val; rw [if_neg (by decide)]
      | ⟨1, _⟩ => by show 0 = if (1 : Nat) = 1 then 0 else k.val; rw [if_pos rfl]), tailInv_apply]

/-- The reshaped bias at row 0, column k is the bias at k (the reshape keeps the row-major position). -/
theorem bias_row (X : Valuation τ sig (Elt Ideal)) (k : Fin 256) :
    StableHlo.after (hostOps1 (F := Ideal)) X (Proc.devRef .tc main_v1) (ValueIdx.ix2 (0 : Fin 1) k) = X (Proc.devRef .tc main_arg5) (ValueIdx.ix1 k) := by
  unfold hostOps1
  after_results
  refine shapeCast_apply (X (Proc.devRef .tc main_arg5)) shapeCasts_S256_S1x256 (ValueIdx.ix2 (0 : Fin 1) k) (ValueIdx.ix1 k) ?_
  exact (Shape.rowMajor_val_one (d := ![256]) (ValueIdx.ix1 k)).trans
    ((Shape.rowMajor_val_two (d := ![1, 256]) (ValueIdx.ix2 (0 : Fin 1) k)).trans (by show 0 * 256 + k.val = k.val; omega)).symm

end Cert.KernelIdeal.Hand

end
-- ==== Proof.Value.lean ====
/-
  The kernel program's result, at the ideal values, as the common function of the six arguments.
  Region 1 reads the matrix g that region 0 wrote, the incidence, feature and weight arguments as launched,
  and the bias as a one-row array; its two output arrays hold, per half of the edge axis, the masked feature
  sums and the mask's row sums over that half. The host adds the two halves — a sum over 2 × 16384 edges is the
  sum over all 32768 — and multiplies by the guarded reciprocal of the whole row sum.
-/
import proofs.«164392_j1580547965681_2_alg».proof.Proof.Frame
import proofs.«164392_j1580547965681_2_alg».proof.Proof.Val0
import proofs.«164392_j1580547965681_2_alg».proof.Proof.Val1
import proofs.«164392_j1580547965681_2_alg».proof.Proof.Tail
import proofs.«164392_j1580547965681_2_alg».proof.Proof.Spec
import proofs.«164392_j1580547965681_2_alg».proof.Proof.LibSumAlgebra
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The kernel program's result is the common function of the arguments -/

section KernelValue
open Cert.Spec
variable (m : (ℓ : Loc nD τ sig) → Buf (Elt Ideal) ℓ) (c : Dev nD)

/-- Region 1 reads the neighbourhood matrix region 0 wrote. -/
theorem gg1_eq : gg1 (V2 m) c
    = Cert.Spec.g (cur2 (m ((c : Thread nD τ).loc main_arg0))) (cur2 (m ((c : Thread nD τ).loc main_arg1))) := by
  funext b n
  have h1 : W2 m c (Proc.devRef .tc main_v0) = (dat0 (V0 m) c).arrAt 2 cfg0.N :=
    (W2_of m c main_v0 (by decide)).trans (W1_arr m c 2)
  exact (congrFun h1 (ValueIdx.ix2 b n)).trans (arrAt0_val (V0 m) c b n)

theorem inc1_eq : inc1 (V2 m) c = cur2 (m ((c : Thread nD τ).loc main_arg2)) :=
  funext fun a => funext fun b => congrFun (W2_main_arg2 m c) (ValueIdx.ix2 a b)
theorem ef1_eq : ef1 (V2 m) c = cur2 (m ((c : Thread nD τ).loc main_arg3)) :=
  funext fun a => funext fun b => congrFun (W2_main_arg3 m c) (ValueIdx.ix2 a b)
theorem w1_eq : w1 (V2 m) c = cur2 (m ((c : Thread nD τ).loc main_arg4)) :=
  funext fun a => funext fun b => congrFun (W2_main_arg4 m c) (ValueIdx.ix2 a b)
/-- The bias row region 1 reads is the bias vector. -/
theorem bias1_eq : bias1 (V2 m) c = cur1 (m ((c : Thread nD τ).loc main_arg5)) :=
  funext fun k => (bias_row (W1 m c) k).trans (congrFun (W1_of_ne m c main_arg5 (by decide)) (ValueIdx.ix1 k))

/-- THE KERNEL'S VALUE: the result buffer at the last boundary is the common function of the launch contents of
    the six arguments. The two halves' partial aggregates add up to the sums over the whole edge axis; the
    normalization is the guarded reciprocal of the whole row sum. -/
theorem kernel_val : W6 m c (Proc.devRef .tc main_v12)
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (tail_term (W3 m c)).trans ?_
  funext i
  obtain ⟨b, k, rfl⟩ : ∃ (b : Fin 256) (k : Fin 256), i = ValueIdx.ix2 b k := ⟨i 0, i 1, ValueIdx.eq_ix2 i⟩
  refine (tailFn_apply _ _ b k).trans ?_
  have h5 : ∀ hh : Fin 2, W3 m c (Proc.devRef .tc main_v2_0) (ValueIdx.ix3 hh b k) = _ := fun hh =>
    (congrFun (W3_arr m c 5) (ValueIdx.ix3 hh b k)).trans
      (arrAt1_5_val (V2 m) c (dat1 (V2 m) c) (A_eq1 (V2 m) c) (after1_5 (V2 m) c) (after1_6 (V2 m) c) hh b k)
  have h6 : ∀ hh : Fin 2, W3 m c (Proc.devRef .tc main_v2_1) (ValueIdx.ix3 hh b (0 : Fin 1)) = _ := fun hh =>
    (congrFun (W3_arr m c 6) (ValueIdx.ix3 hh b (0 : Fin 1))).trans
      (arrAt1_6_val (V2 m) c (dat1 (V2 m) c) (A_eq1 (V2 m) c) (after1_5 (V2 m) c) (after1_6 (V2 m) c) hh b)
  have e5 := Finset.sum_congr (M := EReal) (s₁ := (Finset.univ : Finset (Fin 2))) rfl fun hh _ => h5 hh
  have e6 := Finset.sum_congr (M := EReal) (s₁ := (Finset.univ : Finset (Fin 2))) rfl fun hh _ => h6 hh
  refine (congrArg₂ (fun x y : EReal => x * Cert.Spec.inv y) e5 e6).trans ?_
  rw [gg1_eq, inc1_eq, ef1_eq, w1_eq, bias1_eq]
  rw [Cert.LibSumAlgebra.sum_blocks 2 16384 (fun e : Fin (2 * 16384) =>
        Cert.Spec.sel (Cert.Spec.g (cur2 (m ((c : Thread nD τ).loc main_arg0))) (cur2 (m ((c : Thread nD τ).loc main_arg1)))) (cur2 (m ((c : Thread nD τ).loc main_arg2))) b e
          * Cert.Spec.h (cur2 (m ((c : Thread nD τ).loc main_arg3))) (cur2 (m ((c : Thread nD τ).loc main_arg4))) (cur1 (m ((c : Thread nD τ).loc main_arg5))) e k),
    Cert.LibSumAlgebra.sum_blocks 2 16384 (fun e : Fin (2 * 16384) =>
        Cert.Spec.sel (Cert.Spec.g (cur2 (m ((c : Thread nD τ).loc main_arg0))) (cur2 (m ((c : Thread nD τ).loc main_arg1)))) (cur2 (m ((c : Thread nD τ).loc main_arg2))) b e)]
  rfl

end KernelValue

end Cert.KernelIdeal.Hand

end
-- ==== Proof.RefVal.lean ====
/-
  The reference program's result is the specification's function of the six argument arrays.

  Stage by stage, at an index written with literal coordinates: the two transposed products are the
  neighbourhood matrix g and the edge counts be (by commutativity of the product of extended reals),
  the converted comparison is the indicator sel, the host sum started from the zero word is rowSum,
  the guarded quotient is inv, the broadcast sum is h.  The reference multiplies every indicator by the
  guarded reciprocal BEFORE the last contraction; the specification multiplies the contraction by it
  afterwards.  The two agree because a nonnegative extended real other than +infinity distributes over
  every finite sum, and the guarded reciprocal is always such a number.
-/
import proofs.«164392_j1580547965681_2_alg».proof.Proof.RefRead
import proofs.«164392_j1580547965681_2_alg».proof.Proof.Spec

noncomputable section

namespace Cert.ReferenceIdeal.RefValue

open Cert.ReferenceIdeal Idealize.ShloMosaic Idealize.ShloMosaic.ValueIdx
open scoped BigOperators

/-! ## The float words and the guarded reciprocal -/

/-- The zero word is 0. -/
theorem zero_eq : Spec.zero = 0 := Ideal.ofBits_zero_f32

/-- The word 0x3F800000 is 1. -/
theorem one_eq : Spec.one = 1 := by
  unfold Spec.one
  simp [Ideal.ofBits, Ideal.ieee, -EReal.coe_mul]; norm_num

/-- The guarded reciprocal is the extended reals' inverse on the positive numbers and 0 elsewhere. -/
theorem inv_eq (r : EReal) : Spec.inv r = if 0 < r then r⁻¹ else 0 := by
  unfold Spec.inv
  rw [zero_eq, one_eq]
  by_cases h : (0 : EReal) < r
  · rw [show Ideal.cmp .ogt r 0 = 1#1 from by simp [Ideal.cmp, h], select_one, if_pos h]
    unfold Ideal.div
    rw [if_neg (ne_of_gt h), one_mul]
  · rw [show Ideal.cmp .ogt r 0 = 0#1 from by simp [Ideal.cmp, h], select_zero, if_neg h]

/-- It is never negative … -/
theorem inv_nonneg (r : EReal) : 0 ≤ Spec.inv r := by
  rw [inv_eq]
  split
  · next h => exact EReal.inv_nonneg_of_nonneg h.le
  · exact le_refl _

/-- … and never +infinity (the inverse of an extended real never is). -/
theorem inv_ne_top (r : EReal) : Spec.inv r ≠ ⊤ := by
  rw [inv_eq]
  split
  · exact (EReal.inv_lt_top r).ne
  · exact EReal.zero_ne_top

/-! ## The one law -/

/-- A nonnegative extended real other than +infinity distributes over a finite sum. -/
theorem sum_mul_of_nonneg {ι : Type*} (s : Finset ι) (a : ι → EReal) {v : EReal} (h0 : 0 ≤ v) (ht : v ≠ ⊤) :
    (∑ e ∈ s, a e) * v = ∑ e ∈ s, a e * v := by
  classical
  induction s using Finset.induction_on with
  | empty => rw [Finset.sum_empty, Finset.sum_empty, zero_mul]
  | insert x s hx ih =>
    rw [Finset.sum_insert hx, Finset.sum_insert hx, EReal.right_distrib_of_nonneg_of_ne_top h0 ht, ih]

/-! ## The stages at an index -/

section Stages
variable (x0 : (⟨S256x4096, .f32⟩ : BufTy).Contents (Elt Ideal)) (x1 : (⟨S4096x4096, .f32⟩ : BufTy).Contents (Elt Ideal))
  (x2 : (⟨S4096x32768, .f32⟩ : BufTy).Contents (Elt Ideal)) (x3 : (⟨S32768x256, .f32⟩ : BufTy).Contents (Elt Ideal))
  (x4 : (⟨S256x256, .f32⟩ : BufTy).Contents (Elt Ideal)) (x5 : (⟨S256, .f32⟩ : BufTy).Contents (Elt Ideal))

/-- t (n, b) = Σ_m adjᵀ (n, m) · enᵀ (m, b) is g b n: each product commuted. -/
theorem v2_at (n : Fin 4096) (b : Fin 256) :
    ReadP.val_main_v2 (F := Ideal) x0 x1 (ix2 n b) = Spec.g (Spec.cur2 x0) (Spec.cur2 x1) b n := by
  rw [ReadP.val_main_v2_apply]
  unfold Spec.g
  refine Finset.sum_congr rfl fun m _ => ?_
  rw [ReadP.val_main_v0_apply, ReadP.val_main_v1_apply, mul_comm,
    show ReadP.idx_main_v1 (ReadP.ridx_main_v2 (ix2 n b) m) = ix2 b m from funext fun a => match a with | ⟨0, _⟩ => rfl | ⟨1, _⟩ => rfl,
    show ReadP.idx_main_v0 (ReadP.lidx_main_v2 (ix2 n b) m) = ix2 m n from funext fun a => match a with | ⟨0, _⟩ => rfl | ⟨1, _⟩ => rfl]

/-- The transposed edge counts: Σ_n incᵀ (e, n) · t (n, b) is be b e. -/
theorem v4_at (e : Fin 32768) (b : Fin 256) :
    ReadP.val_main_v4 (F := Ideal) x0 x1 x2 (ix2 e b)
      = Spec.be (Spec.g (Spec.cur2 x0) (Spec.cur2 x1)) (Spec.cur2 x2) b e := by
  rw [ReadP.val_main_v4_apply]
  unfold Spec.be
  refine Finset.sum_congr rfl fun n _ => ?_
  rw [ReadP.val_main_v3_apply, mul_comm,
    show ReadP.ridx_main_v4 (ix2 e b) n = ix2 n b from funext fun a => match a with | ⟨0, _⟩ => rfl | ⟨1, _⟩ => rfl,
    show ReadP.idx_main_v3 (ReadP.lidx_main_v4 (ix2 e b) n) = ix2 n e from funext fun a => match a with | ⟨0, _⟩ => rfl | ⟨1, _⟩ => rfl,
    v2_at]

/-- The converted comparison with the word two is the indicator. -/
theorem v8_at (b : Fin 256) (e : Fin 32768) :
    ReadP.val_main_v8 (F := Ideal) x0 x1 x2 (ix2 b e)
      = Spec.sel (Spec.g (Spec.cur2 x0) (Spec.cur2 x1)) (Spec.cur2 x2) b e := by
  rw [ReadP.val_main_v8_apply, ReadP.val_main_v7_apply, ReadP.val_main_v5_apply, ReadP.val_main_v6_apply,
    ReadP.val_main_cst_apply,
    show ReadP.idx_main_v5 (ix2 b e) = ix2 e b from funext fun a => match a with | ⟨0, _⟩ => rfl | ⟨1, _⟩ => rfl,
    v4_at]
  unfold Spec.sel Spec.ind Spec.two
  generalize Spec.be _ _ b e = t
  rfl

/-- The host sum started from the zero word is the row sum. -/
theorem v9_at (b : Fin 256) :
    ReadP.val_main_v9 (F := Ideal) x0 x1 x2 (ix1 b)
      = Spec.rowSum (Spec.g (Spec.cur2 x0) (Spec.cur2 x1)) (Spec.cur2 x2) b := by
  rw [ReadP.val_main_v9_apply, ReadP.val_main_cst_0_apply, Ideal.ofBits_def, Ideal.ofBits_zero_f32, zero_add]
  unfold Spec.rowSum
  refine Finset.sum_congr rfl fun e _ => ?_
  rw [show ReadP.idx_main_v9 (ix1 b) e = ix2 b e from funext fun a => match a with | ⟨0, _⟩ => rfl | ⟨1, _⟩ => rfl, v8_at]

/-- The select between the quotient and the zero word is the guarded reciprocal of the row sum. -/
theorem v14_at (b : Fin 256) :
    ReadP.val_main_v14 (F := Ideal) x0 x1 x2 (ix1 b)
      = Spec.inv (Spec.rowSum (Spec.g (Spec.cur2 x0) (Spec.cur2 x1)) (Spec.cur2 x2) b) := by
  rw [ReadP.val_main_v14_apply, ReadP.val_main_v11_apply, ReadP.val_main_v13_apply, ReadP.val_main_call0_v1_apply,
    ReadP.val_main_call0_v0_apply, ReadP.val_main_cst_3_apply, ReadP.val_main_v10_apply, ReadP.val_main_cst_1_apply,
    ReadP.val_main_v12_apply, ReadP.val_main_cst_2_apply, v9_at]
  generalize Spec.rowSum _ _ b = r
  rfl

/-- The indicator times the row's guarded reciprocal. -/
theorem v17_at (b : Fin 256) (e : Fin 32768) :
    ReadP.val_main_v17 (F := Ideal) x0 x1 x2 (ix2 b e)
      = Spec.sel (Spec.g (Spec.cur2 x0) (Spec.cur2 x1)) (Spec.cur2 x2) b e
        * Spec.inv (Spec.rowSum (Spec.g (Spec.cur2 x0) (Spec.cur2 x1)) (Spec.cur2 x2) b) := by
  rw [ReadP.val_main_v17_apply, ReadP.val_main_v16_apply, ReadP.val_main_v15_apply,
    show ReadP.idx_main_v15 (ReadP.idx_main_v16 (ix2 b e)) = ix1 b from funext fun a => match a with | ⟨0, _⟩ => rfl,
    v14_at, v8_at]
  rfl

/-- The transformed edge features. -/
theorem v21_at (e : Fin 32768) (k : Fin 256) :
    ReadP.val_main_v21 (F := Ideal) x3 x4 x5 (ix2 e k) = Spec.h (Spec.cur2 x3) (Spec.cur2 x4) (Spec.cur1 x5) e k := by
  rw [ReadP.val_main_v21_apply, ReadP.val_main_v18_apply, ReadP.val_main_v20_apply, ReadP.val_main_v19_apply,
    show ReadP.idx_main_v19 (ReadP.idx_main_v20 (ix2 e k)) = ix1 k from funext fun a => match a with | ⟨0, _⟩ => rfl,
    Ideal.addf_def]
  unfold Spec.h
  refine congrArg (· + _) (Finset.sum_congr rfl fun d _ => ?_)
  rw [show ReadP.lidx_main_v18 (ix2 e k) d = ix2 e d from funext fun a => match a with | ⟨0, _⟩ => rfl | ⟨1, _⟩ => rfl,
    show ReadP.ridx_main_v18 (ix2 e k) d = ix2 d k from funext fun a => match a with | ⟨0, _⟩ => rfl | ⟨1, _⟩ => rfl]

end Stages

/-! ## The result -/

theorem ref_eq (x0 : (⟨S256x4096, .f32⟩ : BufTy).Contents (Elt Ideal)) (x1 : (⟨S4096x4096, .f32⟩ : BufTy).Contents (Elt Ideal)) (x2 : (⟨S4096x32768, .f32⟩ : BufTy).Contents (Elt Ideal)) (x3 : (⟨S32768x256, .f32⟩ : BufTy).Contents (Elt Ideal)) (x4 : (⟨S256x256, .f32⟩ : BufTy).Contents (Elt Ideal)) (x5 : (⟨S256, .f32⟩ : BufTy).Contents (Elt Ideal)) :
    Cert.ReferenceIdeal.ReadP.val_main_v22 (F := Ideal) x0 x1 x2 x3 x4 x5 = Cert.Spec.G x0 x1 x2 x3 x4 x5 := by
  funext i
  obtain ⟨b, k, rfl⟩ : ∃ (b : Fin 256) (k : Fin 256), i = ix2 b k := ⟨i 0, i 1, eq_ix2 i⟩
  rw [ReadP.val_main_v22_apply]
  show _ = Spec.out (Spec.cur2 x0) (Spec.cur2 x1) (Spec.cur2 x2) (Spec.cur2 x3) (Spec.cur2 x4) (Spec.cur1 x5) b k
  unfold Spec.out Spec.agg
  rw [sum_mul_of_nonneg _ _ (inv_nonneg _) (inv_ne_top _)]
  refine Finset.sum_congr rfl fun e _ => ?_
  rw [show ReadP.lidx_main_v22 (ix2 b k) e = ix2 b e from funext fun a => match a with | ⟨0, _⟩ => rfl | ⟨1, _⟩ => rfl,
    show ReadP.ridx_main_v22 (ix2 b k) e = ix2 e k from funext fun a => match a with | ⟨0, _⟩ => rfl | ⟨1, _⟩ => rfl,
    v17_at, v21_at]
  exact mul_right_comm _ _ _

end Cert.ReferenceIdeal.RefValue

end
-- ==== Proof.lean ====
/-
  The certificate of the message-passing aggregation kernel against its reference.

  Both programs compute, for each of 256 query rows b and 256 features k,
      out b k = (Σ_e sel b e · h e k) · inv (Σ_e sel b e),
  where g = edge_nodes · adj, sel b e is 1 when (g · inc) b e is exactly 2 and 0 otherwise, h = edge_feats · weight + bias,
  and inv r is 1 / r for r > 0 and 0 otherwise (Proof/Spec.lean). The kernel forms g tile by tile in a first
  region, then streams the 32768 edges in 64 tiles over two halves in a second region, accumulating the mask's row sums
  and the masked feature sums per half, and adds the halves and normalizes once on the host; the reference
  normalizes the mask first and multiplies the whole matrices. Over the extended reals the two agree: the
  products inside the sums commute, sums over tiles and halves regroup a commutative sum, and the normalizer,
  a nonnegative finite number, may be moved across the sum over the edges. No finiteness of the inputs is used.

  The three frames: each program runs to the end without a fault and leaves its arguments unchanged — for the
  kernel (at the word level and at the ideal values) by the run over its two regions and host stretches
  (Proof/Run.lean, Proof/Frame.lean and their word-level twins), for the reference by its run read back.
  The idealization rewrote nothing, so what it preserves is trivial.
-/
import proofs.«164392_j1580547965681_2_alg».proof.Defs
import proofs.«164392_j1580547965681_2_alg».proof.Proof.Gen.Kernel
import proofs.«164392_j1580547965681_2_alg».proof.Proof.Gen.KernelIdeal
import proofs.«164392_j1580547965681_2_alg».proof.Proof.Gen.ReferenceIdeal
import proofs.«164392_j1580547965681_2_alg».proof.Proof.Gen.Pre_finite_inputs
import proofs.«164392_j1580547965681_2_alg».proof.Proof.KFrame
import proofs.«164392_j1580547965681_2_alg».proof.Proof.Frame
import proofs.«164392_j1580547965681_2_alg».proof.Proof.Value
import proofs.«164392_j1580547965681_2_alg».proof.Proof.RefVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the common function of the arguments in their
    result buffers: the kernel by its run and the value of its last boundary, the reference by its run and its
    stages read at an index. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v12 (by decide))).trans (Cert.KernelIdeal.Hand.kernel_val m c),
      (h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c)⟩
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v22_eq, Cert.ReferenceIdeal.RefValue.ref_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
